-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S14541 : Shape := ⟨1, ![14541]⟩
abbrev S64x16384 : Shape := ⟨2, ![64, 16384]⟩
abbrev S14541x128 : Shape := ⟨2, ![14541, 128]⟩
abbrev S64x128x128 : Shape := ⟨3, ![64, 128, 128]⟩
abbrev S64x128 : Shape := ⟨2, ![64, 128]⟩
abbrev S64x128x64 : Shape := ⟨3, ![64, 128, 64]⟩
abbrev S64x64 : Shape := ⟨2, ![64, 64]⟩
abbrev S2x128x64 : Shape := ⟨3, ![2, 128, 64]⟩
abbrev S2x128x32 : Shape := ⟨3, ![2, 128, 32]⟩
abbrev S2x128 : Shape := ⟨2, ![2, 128]⟩
abbrev S_ : Shape := ⟨0, ![]⟩

class Facts : Prop where
  bcast_S_S14541x128 : S_.BroadcastsInDim S14541x128 (![] : Fin 0 → Fin S14541x128.rank)
  reducesTo_S14541x128_S_d0_1 : S14541x128.ReducesTo [0, 1] S_
  h_S_ : 0 < S_.numel
  bcast_S_S64x128x128 : S_.BroadcastsInDim S64x128x128 (![] : Fin 0 → Fin S64x128x128.rank)
  reducesTo_S64x128x128_S_d0_1_2 : S64x128x128.ReducesTo [0, 1, 2] S_
  bcast_S_S64x128 : S_.BroadcastsInDim S64x128 (![] : Fin 0 → Fin S64x128.rank)
  reducesTo_S64x128_S_d0_1 : S64x128.ReducesTo [0, 1] S_
  bcast_S_S64x128x64 : S_.BroadcastsInDim S64x128x64 (![] : Fin 0 → Fin S64x128x64.rank)
  reducesTo_S64x128x64_S_d0_1_2 : S64x128x64.ReducesTo [0, 1, 2] S_
  bcast_S_S64x64 : S_.BroadcastsInDim S64x64 (![] : Fin 0 → Fin S64x64.rank)
  reducesTo_S64x64_S_d0_1 : S64x64.ReducesTo [0, 1] S_
  bcast_S_S2x128x64 : S_.BroadcastsInDim S2x128x64 (![] : Fin 0 → Fin S2x128x64.rank)
  reducesTo_S2x128x64_S_d0_1_2 : S2x128x64.ReducesTo [0, 1, 2] S_
  bcast_S_S2x128x32 : S_.BroadcastsInDim S2x128x32 (![] : Fin 0 → Fin S2x128x32.rank)
  reducesTo_S2x128x32_S_d0_1_2 : S2x128x32.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg10 : FVec F S2x128 .f32) (main_arg11 : FVec F S2x128 .f32) (main_v33 : IVec S_ 1) : IVec S_ 1 :=
  let main_v34 : FVec F S2x128 .f32 := Host.absf main_arg10
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg11
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  main_v43

def fn_part1 {F : FTy → Type} [FloatOps F] (main_arg7 : FVec F S64x64 .f32) (main_arg8 : FVec F S2x128x64 .f32) (main_arg9 : FVec F S2x128x32 .f32) (main_arg10 : FVec F S2x128 .f32) (main_arg11 : FVec F S2x128 .f32) (main_v13 : IVec S_ 1) (main_v16 : IVec S64x128x64 1) : IVec S_ 1 :=
  let main_c_5 : IVec S_ 1 := constantI S_ 1 1#1
  let main_v17 : IVec S_ 1 := (fun x v => Host.reduce IntOp.andi x v reducesTo_S64x128x64_S_d0_1_2 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S2x128x64 .f32 := Host.absf main_arg8
  let main_cst_8 : FVec F S_ .f32 := constant S_ .f32 0x7F800000#32
  let main_v25 : FVec F S2x128x64 .f32 := broadcastInDim S2x128x64 ![] bcast_S_S2x128x64 main_cst_8
  let main_v26 : IVec S2x128x64 1 := cmpf .olt main_v24 main_v25
  let main_c_9 : IVec S_ 1 := constantI S_ 1 1#1
  let main_v27 : IVec S_ 1 := (fun x v => Host.reduce IntOp.andi x v reducesTo_S2x128x64_S_d0_1_2 h_S_) main_v26 main_c_9
  let main_v28 : IVec S_ 1 := andi main_v23 main_v27
  let main_v29 : FVec F S2x128x32 .f32 := Host.absf main_arg9
  let main_cst_10 : FVec F S_ .f32 := constant S_ .f32 0x7F800000#32
  let main_v30 : FVec F S2x128x32 .f32 := broadcastInDim S2x128x32 ![] bcast_S_S2x128x32 main_cst_10
  let main_v31 : IVec S2x128x32 1 := cmpf .olt main_v29 main_v30
  let main_c_11 : IVec S_ 1 := constantI S_ 1 1#1
  let main_v32 : IVec S_ 1 := (fun x v => Host.reduce IntOp.andi x v reducesTo_S2x128x32_S_d0_1_2 h_S_) main_v31 main_c_11
  let main_v33 : IVec S_ 1 := andi main_v28 main_v32
  fn_part2 (F := F) main_arg10 main_arg11 main_v33

def fn {F : FTy → Type} [FloatOps F] (main_arg0 : IVec S14541 32) (main_arg1 : IVec S64x16384 32) (main_arg2 : IVec S64x16384 32) (main_arg3 : FVec F S14541x128 .f32) (main_arg4 : FVec F S64x128x128 .f32) (main_arg5 : FVec F S64x128 .f32) (main_arg6 : FVec F S64x128x64 .f32) (main_arg7 : FVec F S64x64 .f32) (main_arg8 : FVec F S2x128x64 .f32) (main_arg9 : FVec F S2x128x32 .f32) (main_arg10 : FVec F S2x128 .f32) (main_arg11 : FVec F S2x128 .f32) : IVec S_ 1 :=
  let main_v0 : FVec F S14541x128 .f32 := Host.absf main_arg3
  let main_cst : FVec F S_ .f32 := constant S_ .f32 0x7F800000#32
  let main_v1 : FVec F S14541x128 .f32 := broadcastInDim S14541x128 ![] bcast_S_S14541x128 main_cst
  let main_v2 : IVec S14541x128 1 := cmpf .olt main_v0 main_v1
  let main_c : IVec S_ 1 := constantI S_ 1 1#1
  let main_v3 : IVec S_ 1 := (fun x v => Host.reduce IntOp.andi x v reducesTo_S14541x128_S_d0_1 h_S_) main_v2 main_c
  let main_v4 : FVec F S64x128x128 .f32 := Host.absf main_arg4
  let main_cst_0 : FVec F S_ .f32 := constant S_ .f32 0x7F800000#32
  let main_v5 : FVec F S64x128x128 .f32 := broadcastInDim S64x128x128 ![] bcast_S_S64x128x128 main_cst_0
  let main_v6 : IVec S64x128x128 1 := cmpf .olt main_v4 main_v5
  let main_c_1 : IVec S_ 1 := constantI S_ 1 1#1
  let main_v7 : IVec S_ 1 := (fun x v => Host.reduce IntOp.andi x v reducesTo_S64x128x128_S_d0_1_2 h_S_) main_v6 main_c_1
  let main_v8 : IVec S_ 1 := andi main_v3 main_v7
  let main_v9 : FVec F S64x128 .f32 := Host.absf main_arg5
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64x128x64 .f32 := Host.absf main_arg6
  let main_cst_4 : FVec F S_ .f32 := constant S_ .f32 0x7F800000#32
  let main_v15 : FVec F S64x128x64 .f32 := broadcastInDim S64x128x64 ![] bcast_S_S64x128x64 main_cst_4
  let main_v16 : IVec S64x128x64 1 := cmpf .olt main_v14 main_v15
  fn_part1 (F := F) main_arg7 main_arg8 main_arg9 main_arg10 main_arg11 main_v13 main_v16
-- ==== Kernel.lean ====
abbrev S14541 : Shape := ⟨1, ![14541]⟩
abbrev S64x16384 : Shape := ⟨2, ![64, 16384]⟩
abbrev S14541x128 : Shape := ⟨2, ![14541, 128]⟩
abbrev S64x128x128 : Shape := ⟨3, ![64, 128, 128]⟩
abbrev S64x128 : Shape := ⟨2, ![64, 128]⟩
abbrev S64x128x64 : Shape := ⟨3, ![64, 128, 64]⟩
abbrev S64x64 : Shape := ⟨2, ![64, 64]⟩
abbrev S2x128x64 : Shape := ⟨3, ![2, 128, 64]⟩
abbrev S2x128x32 : Shape := ⟨3, ![2, 128, 32]⟩
abbrev S2x128 : Shape := ⟨2, ![2, 128]⟩
abbrev S_ : Shape := ⟨0, ![]⟩
abbrev S14541x1 : Shape := ⟨2, ![14541, 1]⟩
abbrev S64 : Shape := ⟨1, ![64]⟩
abbrev S64x1 : Shape := ⟨2, ![64, 1]⟩
abbrev S1048576 : Shape := ⟨1, ![1048576]⟩
abbrev S930624 : Shape := ⟨1, ![930624]⟩
abbrev S1048576x1 : Shape := ⟨2, ![1048576, 1]⟩
abbrev S1048576x128 : Shape := ⟨2, ![1048576, 128]⟩
abbrev S930624x128 : Shape := ⟨2, ![930624, 128]⟩
abbrev S930624x1 : Shape := ⟨2, ![930624, 1]⟩
abbrev S64x14541x128 : Shape := ⟨3, ![64, 14541, 128]⟩
abbrev S64x16384x128 : Shape := ⟨3, ![64, 16384, 128]⟩
abbrev S64x1x128 : Shape := ⟨3, ![64, 1, 128]⟩
abbrev S16384x128 : Shape := ⟨2, ![16384, 128]⟩
abbrev S1x4096x128 : Shape := ⟨3, ![1, 4096, 128]⟩
abbrev S1x128x128 : Shape := ⟨3, ![1, 128, 128]⟩
abbrev S1x1x128 : Shape := ⟨3, ![1, 1, 128]⟩
abbrev S4096x128 : Shape := ⟨2, ![4096, 128]⟩
abbrev S128x128 : Shape := ⟨2, ![128, 128]⟩
abbrev S128 : Shape := ⟨1, ![128]⟩
abbrev S1x128 : Shape := ⟨2, ![1, 128]⟩
abbrev S64x1x64 : Shape := ⟨3, ![64, 1, 64]⟩
abbrev S16384x64 : Shape := ⟨2, ![16384, 64]⟩
abbrev S1x128x64 : Shape := ⟨3, ![1, 128, 64]⟩
abbrev S1x1x64 : Shape := ⟨3, ![1, 1, 64]⟩
abbrev S4096x64 : Shape := ⟨2, ![4096, 64]⟩
abbrev S128x64 : Shape := ⟨2, ![128, 64]⟩
abbrev S1x64 : Shape := ⟨2, ![1, 64]⟩
abbrev S14541x64 : Shape := ⟨2, ![14541, 64]⟩
abbrev S4096x32 : Shape := ⟨2, ![4096, 32]⟩

abbrev nBuf : Space → Nat
  | .hbm => 142
  | .vmem => 25
  | .smem => 0
  | _ => 0

abbrev hbmTy0_0 (i : Nat) : BufTy := match i % 128 with
  | 0 => ⟨S14541, .i32⟩
  | 1 => ⟨S64x16384, .i32⟩
  | 2 => ⟨S64x16384, .i32⟩
  | 3 => ⟨S14541x128, .f32⟩
  | 4 => ⟨S64x128x128, .f32⟩
  | 5 => ⟨S64x128, .f32⟩
  | 6 => ⟨S64x128x64, .f32⟩
  | 7 => ⟨S64x64, .f32⟩
  | 8 => ⟨S2x128x64, .f32⟩
  | 9 => ⟨S2x128x32, .f32⟩
  | 10 => ⟨S2x128, .f32⟩
  | 11 => ⟨S2x128, .f32⟩
  | 12 => ⟨S_, .i32⟩
  | 13 => ⟨S14541, .i32⟩
  | 14 => ⟨S14541, .i1⟩
  | 15 => ⟨S_, .i32⟩
  | 16 => ⟨S14541, .i32⟩
  | 17 => ⟨S14541, .i32⟩
  | 18 => ⟨S14541, .i32⟩
  | 19 => ⟨S14541x1, .i32⟩
  | 20 => ⟨S14541x128, .f32⟩
  | 21 => ⟨S64, .i32⟩
  | 22 => ⟨S64x1, .i32⟩
  | 23 => ⟨S_, .i32⟩
  | 24 => ⟨S64x1, .i32⟩
  | 25 => ⟨S64x1, .i32⟩
  | 26 => ⟨S64x16384, .i32⟩
  | 27 => ⟨S64x16384, .i32⟩
  | 28 => ⟨S1048576, .i32⟩
  | 29 => ⟨S_, .i32⟩
  | 30 => ⟨S64x1, .i32⟩
  | 31 => ⟨S64x1, .i32⟩
  | 32 => ⟨S64x16384, .i32⟩
  | 33 => ⟨S64x16384, .i32⟩
  | 34 => ⟨S1048576, .i32⟩
  | 35 => ⟨S_, .f32⟩
  | 36 => ⟨S1048576, .f32⟩
  | 37 => ⟨S_, .f32⟩
  | 38 => ⟨S930624, .f32⟩
  | 39 => ⟨S1048576x1, .i32⟩
  | 40 => ⟨S930624, .f32⟩
  | 41 => ⟨S_, .f32⟩
  | 42 => ⟨S930624, .f32⟩
  | 43 => ⟨S1048576x1, .i32⟩
  | 44 => ⟨S930624, .f32⟩
  | 45 => ⟨S_, .f32⟩
  | 46 => ⟨S930624, .f32⟩
  | 47 => ⟨S930624, .i1⟩
  | 48 => ⟨S_, .f32⟩
  | 49 => ⟨S_, .f32⟩
  | 50 => ⟨S930624, .f32⟩
  | 51 => ⟨S930624, .f32⟩
  | 52 => ⟨S_, .f32⟩
  | 53 => ⟨S930624, .f32⟩
  | 54 => ⟨S930624, .f32⟩
  | 55 => ⟨S_, .f32⟩
  | 56 => ⟨S930624, .f32⟩
  | 57 => ⟨S930624, .i1⟩
  | 58 => ⟨S_, .f32⟩
  | 59 => ⟨S_, .f32⟩
  | 60 => ⟨S930624, .f32⟩
  | 61 => ⟨S930624, .f32⟩
  | 62 => ⟨S_, .f32⟩
  | 63 => ⟨S930624, .f32⟩
  | 64 => ⟨S930624, .f32⟩
  | 65 => ⟨S1048576, .i32⟩
  | 66 => ⟨S_, .i32⟩
  | 67 => ⟨S1048576, .i32⟩
  | 68 => ⟨S1048576, .i1⟩
  | 69 => ⟨S_, .i32⟩
  | 70 => ⟨S1048576, .i32⟩
  | 71 => ⟨S1048576, .i32⟩
  | 72 => ⟨S1048576, .i32⟩
  | 73 => ⟨S1048576x1, .i32⟩
  | 74 => ⟨S1048576x128, .f32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S1048576x1, .i32⟩
  | 83 => ⟨S1048576, .f32⟩
  | 84 => ⟨S1048576x1, .f32⟩
  | 85 => ⟨S1048576x128, .f32⟩
  | 86 => ⟨S1048576x128, .f32⟩
  | 87 => ⟨S_, .f32⟩
  | 88 => ⟨S930624x128, .f32⟩
  | 89 => ⟨S1048576x1, .i32⟩
  | 90 => ⟨S930624x128, .f32⟩
  | 91 => ⟨S930624x1, .f32⟩
  | 92 => ⟨S930624x128, .f32⟩
  | 93 => ⟨S930624x128, .f32⟩
  | 94 => ⟨S64x14541x128, .f32⟩
  | 95 => ⟨S_, .i32⟩
  | 96 => ⟨S_, .f32⟩
  | 97 => ⟨S64x16384x128, .f32⟩
  | 98 => ⟨S64x1x128, .f32⟩
  | 99 => ⟨S16384x128, .f32⟩
  | 100 => ⟨S14541x128, .f32⟩
  | 101 => ⟨S1048576, .i32⟩
  | 102 => ⟨S_, .i32⟩
  | 103 => ⟨S1048576, .i32⟩
  | 104 => ⟨S1048576, .i1⟩
  | 105 => ⟨S_, .i32⟩
  | 106 => ⟨S1048576, .i32⟩
  | 107 => ⟨S1048576, .i32⟩
  | 108 => ⟨S1048576, .i32⟩
  | 109 => ⟨S1048576x1, .i32⟩
  | 110 => ⟨S1048576x128, .f32⟩
  | 111 => ⟨S_, .i32⟩
  | 112 => ⟨S1048576, .i32⟩
  | 113 => ⟨S1048576, .i1⟩
  | 114 => ⟨S_, .i32⟩
  | 115 => ⟨S1048576, .i32⟩
  | 116 => ⟨S1048576, .i32⟩
  | 117 => ⟨S1048576, .i32⟩
  | 118 => ⟨S1048576x1, .i32⟩
  | 119 => ⟨S1048576, .f32⟩
  | 120 => ⟨S1048576x1, .f32⟩
  | 121 => ⟨S1048576x128, .f32⟩
  | 122 => ⟨S1048576x128, .f32⟩
  | 123 => ⟨S_, .f32⟩
  | 124 => ⟨S930624x128, .f32⟩
  | 125 => ⟨S1048576x1, .i32⟩
  | 126 => ⟨S930624x128, .f32⟩
  | 127 => ⟨S930624x1, .f32⟩
  | _ => ⟨S14541, .i32⟩

abbrev hbmTy0_1 (i : Nat) : BufTy := match i % 128 with
  | 0 => ⟨S930624x128, .f32⟩
  | 1 => ⟨S930624x128, .f32⟩
  | 2 => ⟨S64x14541x128, .f32⟩
  | 3 => ⟨S_, .i32⟩
  | 4 => ⟨S_, .f32⟩
  | 5 => ⟨S64x16384x128, .f32⟩
  | 6 => ⟨S64x1x64, .f32⟩
  | 7 => ⟨S16384x64, .f32⟩
  | 8 => ⟨S14541x64, .f32⟩
  | 9 => ⟨S_, .i32⟩
  | 10 => ⟨S_, .f32⟩
  | 11 => ⟨S16384x64, .f32⟩
  | 12 => ⟨S16384x64, .f32⟩
  | 13 => ⟨S14541x64, .f32⟩
  | _ => ⟨S14541, .i32⟩

abbrev hbmTy (i : Nat) : BufTy := match i / 128 with
  | 0 => hbmTy0_0 i
  | 1 => hbmTy0_1 i
  | _ => ⟨S14541, .i32⟩

abbrev bufTy : (tb : Table) → Fin (tcTables nBuf tb) → BufTy
  | .hbm, ⟨i, _⟩ => hbmTy i
  | .local _ .vmem, ⟨0, _⟩ => ⟨S1x4096x128, .f32⟩
  | .local _ .vmem, ⟨1, _⟩ => ⟨S1x4096x128, .f32⟩
  | .local _ .vmem, ⟨2, _⟩ => ⟨S1x128x128, .f32⟩
  | .local _ .vmem, ⟨3, _⟩ => ⟨S1x128x128, .f32⟩
  | .local _ .vmem, ⟨4, _⟩ => ⟨S1x1x128, .f32⟩
  | .local _ .vmem, ⟨5, _⟩ => ⟨S1x1x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x128x64, .f32⟩
  | .local _ .vmem, ⟨12, _⟩ => ⟨S1x128x64, .f32⟩
  | .local _ .vmem, ⟨13, _⟩ => ⟨S1x1x64, .f32⟩
  | .local _ .vmem, ⟨14, _⟩ => ⟨S1x1x64, .f32⟩
  | .local _ .vmem, ⟨15, _⟩ => ⟨S4096x64, .f32⟩
  | .local _ .vmem, ⟨16, _⟩ => ⟨S4096x64, .f32⟩
  | .local _ .vmem, ⟨17, _⟩ => ⟨S4096x64, .f32⟩
  | .local _ .vmem, ⟨18, _⟩ => ⟨S4096x64, .f32⟩
  | .local _ .vmem, ⟨19, _⟩ => ⟨S4096x64, .f32⟩
  | .local _ .vmem, ⟨20, _⟩ => ⟨S2x128x64, .f32⟩
  | .local _ .vmem, ⟨21, _⟩ => ⟨S2x128, .f32⟩
  | .local _ .vmem, ⟨22, _⟩ => ⟨S2x128, .f32⟩
  | .local _ .vmem, ⟨23, _⟩ => ⟨S4096x64, .f32⟩
  | .local _ .vmem, ⟨24, _⟩ => ⟨S4096x64, .f32⟩
  | _, _ => ⟨S14541, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_v33 : Ref sig .tc := ⟨.hbm, 61, rfl⟩
abbrev main_cst_10 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_11 : Ref sig .tc := ⟨.hbm, 66, rfl⟩
abbrev main_v37 : Ref sig .tc := ⟨.hbm, 67, rfl⟩
abbrev main_v38 : Ref sig .tc := ⟨.hbm, 68, rfl⟩
abbrev main_c_12 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_13 : Ref sig .tc := ⟨.hbm, 75, rfl⟩
abbrev main_v44 : Ref sig .tc := ⟨.hbm, 76, rfl⟩
abbrev main_v45 : Ref sig .tc := ⟨.hbm, 77, rfl⟩
abbrev main_c_14 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_15 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_16 : Ref sig .tc := ⟨.hbm, 95, rfl⟩
abbrev main_call2_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_17 : Ref sig .tc := ⟨.hbm, 102, rfl⟩
abbrev main_v66 : Ref sig .tc := ⟨.hbm, 103, rfl⟩
abbrev main_v67 : Ref sig .tc := ⟨.hbm, 104, rfl⟩
abbrev main_c_18 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_19 : Ref sig .tc := ⟨.hbm, 111, rfl⟩
abbrev main_v73 : Ref sig .tc := ⟨.hbm, 112, rfl⟩
abbrev main_v74 : Ref sig .tc := ⟨.hbm, 113, rfl⟩
abbrev main_c_20 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_21 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_22 : Ref sig .tc := ⟨.hbm, 131, rfl⟩
abbrev main_call3_v0 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_23 : Ref sig .tc := ⟨.hbm, 137, rfl⟩
abbrev main_call4_v0 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨2, ![4, 64], ![false, false]⟩

def k0_cond2 (i : grid0.Coords) : BitVec 1 :=
  let arg1 : BitVec 32 := BitVec.ofNat 32 (i 1).val
  let c63_i32 : BitVec 32 := 63#32
  let v20 : BitVec 1 := Scalar.cmpi .eq arg1 c63_i32
  let v21 : BitVec 32 := Scalar.extui v20
  let c0_i32_13 : BitVec 32 := 0#32
  let v22 : BitVec 1 := Scalar.cmpi .ne v21 c0_i32_13
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 64], ![false, false]⟩

def k1_cond2 (i : grid1.Coords) : BitVec 1 :=
  let arg1 : BitVec 32 := BitVec.ofNat 32 (i 1).val
  let c63_i32 : BitVec 32 := 63#32
  let v20 : BitVec 1 := Scalar.cmpi .eq arg1 c63_i32
  let v21 : BitVec 32 := Scalar.extui v20
  let c0_i32_13 : BitVec 32 := 0#32
  let v22 : BitVec 1 := Scalar.cmpi .ne v21 c0_i32_13
  v22

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S14541 : S_.BroadcastsInDim S14541 (![] : Fin 0 → Fin S14541.rank)
  bcast_S14541_S14541x1_0 : S14541.BroadcastsInDim S14541x1 (![0] : Fin 1 → Fin S14541x1.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x16384_0_1 : S64x1.BroadcastsInDim S64x16384 (![0, 1] : Fin 2 → Fin S64x16384.rank)
  shapeCasts_S64x16384_S1048576 : S64x16384.ShapeCasts S1048576
  bcast_S_S1048576 : S_.BroadcastsInDim S1048576 (![] : Fin 0 → Fin S1048576.rank)
  bcast_S_S930624 : S_.BroadcastsInDim S930624 (![] : Fin 0 → Fin S930624.rank)
  bcast_S1048576_S1048576x1_0 : S1048576.BroadcastsInDim S1048576x1 (![0] : Fin 1 → Fin S1048576x1.rank)
  bcast_S1048576x1_S1048576x128_0_1 : S1048576x1.BroadcastsInDim S1048576x128 (![0, 1] : Fin 2 → Fin S1048576x128.rank)
  bcast_S_S930624x128 : S_.BroadcastsInDim S930624x128 (![] : Fin 0 → Fin S930624x128.rank)
  bcast_S930624_S930624x1_0 : S930624.BroadcastsInDim S930624x1 (![0] : Fin 1 → Fin S930624x1.rank)
  bcast_S930624x1_S930624x128_0_1 : S930624x1.BroadcastsInDim S930624x128 (![0, 1] : Fin 2 → Fin S930624x128.rank)
  shapeCasts_S930624x128_S64x14541x128 : S930624x128.ShapeCasts S64x14541x128
  pads_S64x14541x128_S64x16384x128_000_018430_000 : S64x14541x128.Pads (![0, 0, 0] : Fin 3 → Nat) ![0, 1843, 0] ![0, 0, 0] S64x16384x128
  h_S_ : 0 < S_.numel
  shapeCasts_S64x128_S64x1x128 : S64x128.ShapeCasts S64x1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S1x128 : S128.ShapeCasts S1x128
  broadcasts_S1x128_S4096x128 : S1x128.Broadcasts S4096x128
  slices_S16384x128_S14541x128_0_0 : S16384x128.Slices ![0, 0] S14541x128
  shapeCasts_S64x64_S64x1x64 : S64x64.ShapeCasts S64x1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S1x64 : S64.ShapeCasts S1x64
  broadcasts_S1x64_S4096x64 : S1x64.Broadcasts S4096x64
  slices_S16384x64_S14541x64_0_0 : S16384x64.Slices ![0, 0] S14541x64
  pads_S14541x64_S16384x64_018430_000 : S14541x64.Pads (![0, 0] : Fin 2 → Nat) ![1843, 0] ![0, 0] S16384x64
  inb_S2x128x64_S1x128x64_0_0_0 : ∀ a, (![0, 0, 0] : Fin 3 → Nat) a + S1x128x64.size a ≤ S2x128x64.size a
  transposes_S128x64_p1_0_S64x128 : S128x64.Transposes [1, 0] S64x128
  inb_S2x128_S1x128_0_0 : ∀ a, (![0, 0] : Fin 2 → Nat) a + S1x128.size a ≤ S2x128.size a
  h_S1x128 : 0 < S1x128.numel
  shapeCasts_S1x128_S128 : S1x128.ShapeCasts S128
  slices_S4096x128_o0_0_S4096x32 : S4096x128.Slices ![0, 0] S4096x32
  slices_S4096x128_o0_32_S4096x32 : S4096x128.Slices ![0, 32] S4096x32
  slices_S4096x128_o0_64_S4096x32 : S4096x128.Slices ![0, 64] S4096x32
  slices_S4096x128_o0_96_S4096x32 : S4096x128.Slices ![0, 96] S4096x32
  inb_S2x128x64_S1x128x64_1_0_0 : ∀ a, (![1, 0, 0] : Fin 3 → Nat) a + S1x128x64.size a ≤ S2x128x64.size a
  inb_S2x128_S1x128_1_0 : ∀ a, (![1, 0] : Fin 2 → Nat) a + S1x128.size a ≤ S2x128.size a
  concatenates_S4096x32_S4096x32_S4096x64_d1 : Shape.Concatenates [S4096x32, S4096x32] S4096x64 1
  gather_S14541x128_S14541x1_S14541x128_1_0_n_n_0_1_1128_wf : GatherDims.WF S14541x128 S14541x1 S14541x128 [1] [0] [] [0] [] 1 ![1, 128]
  scatter_S930624_S1048576x1_S1048576_n_0_0_1_wf : ScatterDims.WF S930624 S1048576x1 S1048576 [] [0] [0] 1
  gather_S14541x128_S1048576x1_S1048576x128_1_0_n_n_0_1_1128_wf : GatherDims.WF S14541x128 S1048576x1 S1048576x128 [1] [0] [] [0] [] 1 ![1, 128]
  gather_S930624_S1048576x1_S1048576_n_0_n_n_0_1_1_wf : GatherDims.WF S930624 S1048576x1 S1048576 [] [0] [] [0] [] 1 ![1]
  scatter_S930624x128_S1048576x1_S1048576x128_1_0_0_1_wf : ScatterDims.WF S930624x128 S1048576x1 S1048576x128 [1] [0] [0] 1
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S64x16384x128.size a
  hwx0_0 : ∀ i : grid0.Coords, EltTy.bits .f32 = 32 ∨ (Rect.block (s := S64x16384x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S64x128x128.size a
  hwx0_1 : ∀ i : grid0.Coords, EltTy.bits .f32 = 32 ∨ (Rect.block (s := S64x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S64x1x128.size a
  hwx0_2 : ∀ i : grid0.Coords, EltTy.bits .f32 = 32 ∨ (Rect.block (s := S64x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S16384x128.size a
  hwx0_3 : ∀ i : grid0.Coords, EltTy.bits .f32 = 32 ∨ (Rect.block (s := S16384x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x128.size a ≤ S64x16384x128.size a
  hwx1_0 : ∀ i : grid1.Coords, EltTy.bits .f32 = 32 ∨ (Rect.block (s := S64x16384x128) S1x4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S64x128x64.size a
  hwx1_1 : ∀ i : grid1.Coords, EltTy.bits .f32 = 32 ∨ (Rect.block (s := S64x128x64) S1x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S64x1x64.size a
  hwx1_2 : ∀ i : grid1.Coords, EltTy.bits .f32 = 32 ∨ (Rect.block (s := S64x1x64) S1x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S16384x64.size a
  hwx1_3 : ∀ i : grid1.Coords, EltTy.bits .f32 = 32 ∨ (Rect.block (s := S16384x64) S4096x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S16384x64.size a
  hwx2_0 : ∀ i : grid2.Coords, EltTy.bits .f32 = 32 ∨ (Rect.block (s := S16384x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x128x64.size a ≤ S2x128x64.size a
  hwx2_1 : ∀ i : grid2.Coords, EltTy.bits .f32 = 32 ∨ (Rect.block (s := S2x128x64) S2x128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x128.size a ≤ S2x128.size a
  hwx2_2 : ∀ i : grid2.Coords, EltTy.bits .f32 = 32 ∨ (Rect.block (s := S2x128) S2x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x128.size a ≤ S2x128.size a
  hwx2_3 : ∀ i : grid2.Coords, EltTy.bits .f32 = 32 ∨ (Rect.block (s := S2x128) S2x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x64.size a ≤ S16384x64.size a
  hwx2_4 : ∀ i : grid2.Coords, EltTy.bits .f32 = 32 ∨ (Rect.block (s := S16384x64) S4096x64.size (cc2_transform_4 i) (hinb2_4 i)).WholeWords (EltTy.packing .f32)

variable [Facts₀]

def gather_S14541x128_S14541x1_S14541x128_1_0_n_n_0_1_1128 : GatherDims S14541x128 S14541x1 S14541x128 where
  offsetDims := [1]
  collapsedSliceDims := [0]
  operandBatchingDims := []
  startIndicesBatchingDims := []
  startIndexMap := [0]
  indexVectorDim := 1
  sliceSizes := ![1, 128]
  wf := gather_S14541x128_S14541x1_S14541x128_1_0_n_n_0_1_1128_wf
def scatter_S930624_S1048576x1_S1048576_n_0_0_1 : ScatterDims S930624 S1048576x1 S1048576 where
  updateWindowDims := []
  insertedWindowDims := [0]
  scatterDimsToOperandDims := [0]
  indexVectorDim := 1
  wf := scatter_S930624_S1048576x1_S1048576_n_0_0_1_wf
def gather_S14541x128_S1048576x1_S1048576x128_1_0_n_n_0_1_1128 : GatherDims S14541x128 S1048576x1 S1048576x128 where
  offsetDims := [1]
  collapsedSliceDims := [0]
  operandBatchingDims := []
  startIndicesBatchingDims := []
  startIndexMap := [0]
  indexVectorDim := 1
  sliceSizes := ![1, 128]
  wf := gather_S14541x128_S1048576x1_S1048576x128_1_0_n_n_0_1_1128_wf
def gather_S930624_S1048576x1_S1048576_n_0_n_n_0_1_1 : GatherDims S930624 S1048576x1 S1048576 where
  offsetDims := []
  collapsedSliceDims := [0]
  operandBatchingDims := []
  startIndicesBatchingDims := []
  startIndexMap := [0]
  indexVectorDim := 1
  sliceSizes := ![1]
  wf := gather_S930624_S1048576x1_S1048576_n_0_n_n_0_1_1_wf
def scatter_S930624x128_S1048576x1_S1048576x128_1_0_0_1 : ScatterDims S930624x128 S1048576x1 S1048576x128 where
  updateWindowDims := [1]
  insertedWindowDims := [0]
  scatterDimsToOperandDims := [0]
  indexVectorDim := 1
  wf := scatter_S930624x128_S1048576x1_S1048576x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_v61) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v63) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v90) S1x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v91) S1x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v92) S4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v94) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S2x128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S2x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S2x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v95) S4096x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S14541 : Shape := ⟨1, ![14541]⟩
abbrev S64x16384 : Shape := ⟨2, ![64, 16384]⟩
abbrev S14541x128 : Shape := ⟨2, ![14541, 128]⟩
abbrev S64x128x128 : Shape := ⟨3, ![64, 128, 128]⟩
abbrev S64x128 : Shape := ⟨2, ![64, 128]⟩
abbrev S64x128x64 : Shape := ⟨3, ![64, 128, 64]⟩
abbrev S64x64 : Shape := ⟨2, ![64, 64]⟩
abbrev S2x128x64 : Shape := ⟨3, ![2, 128, 64]⟩
abbrev S2x128x32 : Shape := ⟨3, ![2, 128, 32]⟩
abbrev S2x128 : Shape := ⟨2, ![2, 128]⟩
abbrev S_ : Shape := ⟨0, ![]⟩
abbrev S14541x1 : Shape := ⟨2, ![14541, 1]⟩
abbrev S64 : Shape := ⟨1, ![64]⟩
abbrev S64x1 : Shape := ⟨2, ![64, 1]⟩
abbrev S1048576 : Shape := ⟨1, ![1048576]⟩
abbrev S930624 : Shape := ⟨1, ![930624]⟩
abbrev S1048576x1 : Shape := ⟨2, ![1048576, 1]⟩
abbrev S1048576x128 : Shape := ⟨2, ![1048576, 128]⟩
abbrev S930624x128 : Shape := ⟨2, ![930624, 128]⟩
abbrev S930624x1 : Shape := ⟨2, ![930624, 1]⟩
abbrev S64x14541x128 : Shape := ⟨3, ![64, 14541, 128]⟩
abbrev S64x1x128 : Shape := ⟨3, ![64, 1, 128]⟩
abbrev S64x14541x64 : Shape := ⟨3, ![64, 14541, 64]⟩
abbrev S64x1x64 : Shape := ⟨3, ![64, 1, 64]⟩
abbrev S14541x64 : Shape := ⟨2, ![14541, 64]⟩
abbrev S1x128x64 : Shape := ⟨3, ![1, 128, 64]⟩
abbrev S128x64 : Shape := ⟨2, ![128, 64]⟩
abbrev S1x128 : Shape := ⟨2, ![1, 128]⟩
abbrev S128 : Shape := ⟨1, ![128]⟩
abbrev S14541x32 : Shape := ⟨2, ![14541, 32]⟩

abbrev nBuf : Space → Nat
  | .hbm => 267
  | .vmem => 0
  | .smem => 0
  | _ => 0

abbrev hbmTy0_0 (i : Nat) : BufTy := match i % 128 with
  | 0 => ⟨S14541, .i32⟩
  | 1 => ⟨S64x16384, .i32⟩
  | 2 => ⟨S64x16384, .i32⟩
  | 3 => ⟨S14541x128, .f32⟩
  | 4 => ⟨S64x128x128, .f32⟩
  | 5 => ⟨S64x128, .f32⟩
  | 6 => ⟨S64x128x64, .f32⟩
  | 7 => ⟨S64x64, .f32⟩
  | 8 => ⟨S2x128x64, .f32⟩
  | 9 => ⟨S2x128x32, .f32⟩
  | 10 => ⟨S2x128, .f32⟩
  | 11 => ⟨S2x128, .f32⟩
  | 12 => ⟨S_, .i32⟩
  | 13 => ⟨S14541, .i32⟩
  | 14 => ⟨S14541, .i1⟩
  | 15 => ⟨S_, .i32⟩
  | 16 => ⟨S14541, .i32⟩
  | 17 => ⟨S14541, .i32⟩
  | 18 => ⟨S14541, .i32⟩
  | 19 => ⟨S14541x1, .i32⟩
  | 20 => ⟨S14541x128, .f32⟩
  | 21 => ⟨S64, .i32⟩
  | 22 => ⟨S64x1, .i32⟩
  | 23 => ⟨S_, .i32⟩
  | 24 => ⟨S64x1, .i32⟩
  | 25 => ⟨S64x1, .i32⟩
  | 26 => ⟨S64x16384, .i32⟩
  | 27 => ⟨S64x16384, .i32⟩
  | 28 => ⟨S1048576, .i32⟩
  | 29 => ⟨S_, .i32⟩
  | 30 => ⟨S64x1, .i32⟩
  | 31 => ⟨S64x1, .i32⟩
  | 32 => ⟨S64x16384, .i32⟩
  | 33 => ⟨S64x16384, .i32⟩
  | 34 => ⟨S1048576, .i32⟩
  | 35 => ⟨S_, .f32⟩
  | 36 => ⟨S1048576, .f32⟩
  | 37 => ⟨S_, .f32⟩
  | 38 => ⟨S930624, .f32⟩
  | 39 => ⟨S1048576x1, .i32⟩
  | 40 => ⟨S930624, .f32⟩
  | 41 => ⟨S_, .f32⟩
  | 42 => ⟨S930624, .f32⟩
  | 43 => ⟨S1048576x1, .i32⟩
  | 44 => ⟨S930624, .f32⟩
  | 45 => ⟨S_, .f32⟩
  | 46 => ⟨S930624, .f32⟩
  | 47 => ⟨S930624, .i1⟩
  | 48 => ⟨S_, .f32⟩
  | 49 => ⟨S_, .f32⟩
  | 50 => ⟨S930624, .f32⟩
  | 51 => ⟨S930624, .f32⟩
  | 52 => ⟨S_, .f32⟩
  | 53 => ⟨S930624, .f32⟩
  | 54 => ⟨S930624, .f32⟩
  | 55 => ⟨S_, .f32⟩
  | 56 => ⟨S930624, .f32⟩
  | 57 => ⟨S930624, .i1⟩
  | 58 => ⟨S_, .f32⟩
  | 59 => ⟨S_, .f32⟩
  | 60 => ⟨S930624, .f32⟩
  | 61 => ⟨S930624, .f32⟩
  | 62 => ⟨S_, .f32⟩
  | 63 => ⟨S930624, .f32⟩
  | 64 => ⟨S930624, .f32⟩
  | 65 => ⟨S1048576, .i32⟩
  | 66 => ⟨S_, .i32⟩
  | 67 => ⟨S1048576, .i32⟩
  | 68 => ⟨S1048576, .i1⟩
  | 69 => ⟨S_, .i32⟩
  | 70 => ⟨S1048576, .i32⟩
  | 71 => ⟨S1048576, .i32⟩
  | 72 => ⟨S1048576, .i32⟩
  | 73 => ⟨S1048576x1, .i32⟩
  | 74 => ⟨S1048576x128, .f32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S1048576x1, .i32⟩
  | 83 => ⟨S1048576, .f32⟩
  | 84 => ⟨S1048576x1, .f32⟩
  | 85 => ⟨S1048576x128, .f32⟩
  | 86 => ⟨S1048576x128, .f32⟩
  | 87 => ⟨S_, .f32⟩
  | 88 => ⟨S930624x128, .f32⟩
  | 89 => ⟨S1048576x1, .i32⟩
  | 90 => ⟨S930624x128, .f32⟩
  | 91 => ⟨S930624x1, .f32⟩
  | 92 => ⟨S930624x128, .f32⟩
  | 93 => ⟨S930624x128, .f32⟩
  | 94 => ⟨S64x14541x128, .f32⟩
  | 95 => ⟨S64x14541x128, .f32⟩
  | 96 => ⟨S64x1x128, .f32⟩
  | 97 => ⟨S64x14541x128, .f32⟩
  | 98 => ⟨S64x14541x128, .f32⟩
  | 99 => ⟨S_, .f32⟩
  | 100 => ⟨S14541x128, .f32⟩
  | 101 => ⟨S_, .f32⟩
  | 102 => ⟨S14541x128, .f32⟩
  | 103 => ⟨S14541x128, .f32⟩
  | 104 => ⟨S_, .f32⟩
  | 105 => ⟨S14541x128, .f32⟩
  | 106 => ⟨S14541x128, .f32⟩
  | 107 => ⟨S64, .i32⟩
  | 108 => ⟨S64x1, .i32⟩
  | 109 => ⟨S_, .i32⟩
  | 110 => ⟨S64x1, .i32⟩
  | 111 => ⟨S64x1, .i32⟩
  | 112 => ⟨S64x16384, .i32⟩
  | 113 => ⟨S64x16384, .i32⟩
  | 114 => ⟨S1048576, .i32⟩
  | 115 => ⟨S_, .i32⟩
  | 116 => ⟨S64x1, .i32⟩
  | 117 => ⟨S64x1, .i32⟩
  | 118 => ⟨S64x16384, .i32⟩
  | 119 => ⟨S64x16384, .i32⟩
  | 120 => ⟨S1048576, .i32⟩
  | 121 => ⟨S_, .f32⟩
  | 122 => ⟨S1048576, .f32⟩
  | 123 => ⟨S_, .f32⟩
  | 124 => ⟨S930624, .f32⟩
  | 125 => ⟨S1048576x1, .i32⟩
  | 126 => ⟨S930624, .f32⟩
  | 127 => ⟨S_, .f32⟩
  | _ => ⟨S14541, .i32⟩

abbrev hbmTy0_1 (i : Nat) : BufTy := match i % 128 with
  | 0 => ⟨S930624, .f32⟩
  | 1 => ⟨S1048576x1, .i32⟩
  | 2 => ⟨S930624, .f32⟩
  | 3 => ⟨S_, .f32⟩
  | 4 => ⟨S930624, .f32⟩
  | 5 => ⟨S930624, .i1⟩
  | 6 => ⟨S_, .f32⟩
  | 7 => ⟨S_, .f32⟩
  | 8 => ⟨S930624, .f32⟩
  | 9 => ⟨S930624, .f32⟩
  | 10 => ⟨S_, .f32⟩
  | 11 => ⟨S930624, .f32⟩
  | 12 => ⟨S930624, .f32⟩
  | 13 => ⟨S_, .f32⟩
  | 14 => ⟨S930624, .f32⟩
  | 15 => ⟨S930624, .i1⟩
  | 16 => ⟨S_, .f32⟩
  | 17 => ⟨S_, .f32⟩
  | 18 => ⟨S930624, .f32⟩
  | 19 => ⟨S930624, .f32⟩
  | 20 => ⟨S_, .f32⟩
  | 21 => ⟨S930624, .f32⟩
  | 22 => ⟨S930624, .f32⟩
  | 23 => ⟨S1048576, .i32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S1048576x1, .i32⟩
  | 32 => ⟨S1048576x128, .f32⟩
  | 33 => ⟨S_, .i32⟩
  | 34 => ⟨S1048576, .i32⟩
  | 35 => ⟨S1048576, .i1⟩
  | 36 => ⟨S_, .i32⟩
  | 37 => ⟨S1048576, .i32⟩
  | 38 => ⟨S1048576, .i32⟩
  | 39 => ⟨S1048576, .i32⟩
  | 40 => ⟨S1048576x1, .i32⟩
  | 41 => ⟨S1048576, .f32⟩
  | 42 => ⟨S1048576x1, .f32⟩
  | 43 => ⟨S1048576x128, .f32⟩
  | 44 => ⟨S1048576x128, .f32⟩
  | 45 => ⟨S_, .f32⟩
  | 46 => ⟨S930624x128, .f32⟩
  | 47 => ⟨S1048576x1, .i32⟩
  | 48 => ⟨S930624x128, .f32⟩
  | 49 => ⟨S930624x1, .f32⟩
  | 50 => ⟨S930624x128, .f32⟩
  | 51 => ⟨S930624x128, .f32⟩
  | 52 => ⟨S64x14541x128, .f32⟩
  | 53 => ⟨S64x14541x64, .f32⟩
  | 54 => ⟨S64x1x64, .f32⟩
  | 55 => ⟨S64x14541x64, .f32⟩
  | 56 => ⟨S64x14541x64, .f32⟩
  | 57 => ⟨S_, .f32⟩
  | 58 => ⟨S14541x64, .f32⟩
  | 59 => ⟨S_, .f32⟩
  | 60 => ⟨S14541x64, .f32⟩
  | 61 => ⟨S14541x64, .f32⟩
  | 62 => ⟨S1x128x64, .f32⟩
  | 63 => ⟨S128x64, .f32⟩
  | 64 => ⟨S1x128, .f32⟩
  | 65 => ⟨S128, .f32⟩
  | 66 => ⟨S1x128, .f32⟩
  | 67 => ⟨S128, .f32⟩
  | 68 => ⟨S64x128, .f32⟩
  | 69 => ⟨S14541x128, .f32⟩
  | 70 => ⟨S1x128, .f32⟩
  | 71 => ⟨S14541x128, .f32⟩
  | 72 => ⟨S14541x128, .f32⟩
  | 73 => ⟨S1x128, .f32⟩
  | 74 => ⟨S14541x128, .f32⟩
  | 75 => ⟨S14541x128, .f32⟩
  | 76 => ⟨S14541x32, .f32⟩
  | 77 => ⟨S14541x32, .f32⟩
  | 78 => ⟨S14541x32, .f32⟩
  | 79 => ⟨S14541x32, .f32⟩
  | 80 => ⟨S14541x32, .f32⟩
  | 81 => ⟨S14541x32, .f32⟩
  | 82 => ⟨S_, .f32⟩
  | 83 => ⟨S14541x32, .f32⟩
  | 84 => ⟨S14541x32, .f32⟩
  | 85 => ⟨S_, .f32⟩
  | 86 => ⟨S14541x32, .f32⟩
  | 87 => ⟨S14541x32, .f32⟩
  | 88 => ⟨S14541x32, .f32⟩
  | 89 => ⟨S14541x32, .f32⟩
  | 90 => ⟨S14541x32, .f32⟩
  | 91 => ⟨S14541x32, .f32⟩
  | 92 => ⟨S_, .f32⟩
  | 93 => ⟨S14541x32, .f32⟩
  | 94 => ⟨S14541x32, .f32⟩
  | 95 => ⟨S_, .f32⟩
  | 96 => ⟨S14541x32, .f32⟩
  | 97 => ⟨S14541x32, .f32⟩
  | 98 => ⟨S14541x32, .f32⟩
  | 99 => ⟨S14541x32, .f32⟩
  | 100 => ⟨S1x128x64, .f32⟩
  | 101 => ⟨S128x64, .f32⟩
  | 102 => ⟨S1x128, .f32⟩
  | 103 => ⟨S128, .f32⟩
  | 104 => ⟨S1x128, .f32⟩
  | 105 => ⟨S128, .f32⟩
  | 106 => ⟨S64x128, .f32⟩
  | 107 => ⟨S14541x128, .f32⟩
  | 108 => ⟨S1x128, .f32⟩
  | 109 => ⟨S14541x128, .f32⟩
  | 110 => ⟨S14541x128, .f32⟩
  | 111 => ⟨S1x128, .f32⟩
  | 112 => ⟨S14541x128, .f32⟩
  | 113 => ⟨S14541x128, .f32⟩
  | 114 => ⟨S14541x32, .f32⟩
  | 115 => ⟨S14541x32, .f32⟩
  | 116 => ⟨S14541x32, .f32⟩
  | 117 => ⟨S14541x32, .f32⟩
  | 118 => ⟨S14541x32, .f32⟩
  | 119 => ⟨S14541x32, .f32⟩
  | 120 => ⟨S_, .f32⟩
  | 121 => ⟨S14541x32, .f32⟩
  | 122 => ⟨S14541x32, .f32⟩
  | 123 => ⟨S_, .f32⟩
  | 124 => ⟨S14541x32, .f32⟩
  | 125 => ⟨S14541x32, .f32⟩
  | 126 => ⟨S14541x32, .f32⟩
  | 127 => ⟨S14541x32, .f32⟩
  | _ => ⟨S14541, .i32⟩

abbrev hbmTy0_2 (i : Nat) : BufTy := match i % 128 with
  | 0 => ⟨S14541x32, .f32⟩
  | 1 => ⟨S14541x32, .f32⟩
  | 2 => ⟨S_, .f32⟩
  | 3 => ⟨S14541x32, .f32⟩
  | 4 => ⟨S14541x32, .f32⟩
  | 5 => ⟨S_, .f32⟩
  | 6 => ⟨S14541x32, .f32⟩
  | 7 => ⟨S14541x32, .f32⟩
  | 8 => ⟨S14541x32, .f32⟩
  | 9 => ⟨S14541x32, .f32⟩
  | 10 => ⟨S14541x64, .f32⟩
  | _ => ⟨S14541, .i32⟩

abbrev hbmTy (i : Nat) : BufTy := match i / 128 with
  | 0 => hbmTy0_0 i
  | 1 => hbmTy0_1 i
  | 2 => hbmTy0_2 i
  | _ => ⟨S14541, .i32⟩

abbrev bufTy : (tb : Table) → Fin (tcTables nBuf tb) → BufTy
  | .hbm, ⟨i, _⟩ => hbmTy i
  | _, _ => ⟨S14541, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_v33 : Ref sig .tc := ⟨.hbm, 61, rfl⟩
abbrev main_cst_10 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_11 : Ref sig .tc := ⟨.hbm, 66, rfl⟩
abbrev main_v37 : Ref sig .tc := ⟨.hbm, 67, rfl⟩
abbrev main_v38 : Ref sig .tc := ⟨.hbm, 68, rfl⟩
abbrev main_c_12 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_13 : Ref sig .tc := ⟨.hbm, 75, rfl⟩
abbrev main_v44 : Ref sig .tc := ⟨.hbm, 76, rfl⟩
abbrev main_v45 : Ref sig .tc := ⟨.hbm, 77, rfl⟩
abbrev main_c_14 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_15 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_16 : Ref sig .tc := ⟨.hbm, 99, rfl⟩
abbrev main_v65 : Ref sig .tc := ⟨.hbm, 100, rfl⟩
abbrev main_cst_17 : Ref sig .tc := ⟨.hbm, 101, rfl⟩
abbrev main_v66 : Ref sig .tc := ⟨.hbm, 102, rfl⟩
abbrev main_v67 : Ref sig .tc := ⟨.hbm, 103, rfl⟩
abbrev main_call2_cst : Ref sig .tc := ⟨.hbm, 104, rfl⟩
abbrev main_call2_v0 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_18 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_19 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_20 : Ref sig .tc := ⟨.hbm, 121, rfl⟩
abbrev main_v81 : Ref sig .tc := ⟨.hbm, 122, rfl⟩
abbrev main_cst_21 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_22 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_23 : Ref sig .tc := ⟨.hbm, 131, rfl⟩
abbrev main_v88 : Ref sig .tc := ⟨.hbm, 132, rfl⟩
abbrev main_v89 : Ref sig .tc := ⟨.hbm, 133, rfl⟩
abbrev main_cst_24 : Ref sig .tc := ⟨.hbm, 134, rfl⟩
abbrev main_call3_v0 : Ref sig .tc := ⟨.hbm, 135, rfl⟩
abbrev main_call3_v1 : Ref sig .tc := ⟨.hbm, 136, rfl⟩
abbrev main_v90 : Ref sig .tc := ⟨.hbm, 137, rfl⟩
abbrev main_cst_25 : Ref sig .tc := ⟨.hbm, 138, rfl⟩
abbrev main_v91 : Ref sig .tc := ⟨.hbm, 139, rfl⟩
abbrev main_v92 : Ref sig .tc := ⟨.hbm, 140, rfl⟩
abbrev main_cst_26 : Ref sig .tc := ⟨.hbm, 141, rfl⟩
abbrev main_v93 : Ref sig .tc := ⟨.hbm, 142, rfl⟩
abbrev main_v94 : Ref sig .tc := ⟨.hbm, 143, rfl⟩
abbrev main_cst_27 : Ref sig .tc := ⟨.hbm, 144, rfl⟩
abbrev main_call4_v0 : Ref sig .tc := ⟨.hbm, 145, rfl⟩
abbrev main_call4_v1 : Ref sig .tc := ⟨.hbm, 146, rfl⟩
abbrev main_v95 : Ref sig .tc := ⟨.hbm, 147, rfl⟩
abbrev main_cst_28 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_c_29 : Ref sig .tc := ⟨.hbm, 152, rfl⟩
abbrev main_v99 : Ref sig .tc := ⟨.hbm, 153, rfl⟩
abbrev main_v100 : Ref sig .tc := ⟨.hbm, 154, rfl⟩
abbrev main_c_30 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_c_31 : Ref sig .tc := ⟨.hbm, 161, rfl⟩
abbrev main_v106 : Ref sig .tc := ⟨.hbm, 162, rfl⟩
abbrev main_v107 : Ref sig .tc := ⟨.hbm, 163, rfl⟩
abbrev main_c_32 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_33 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_34 : Ref sig .tc := ⟨.hbm, 185, rfl⟩
abbrev main_v127 : Ref sig .tc := ⟨.hbm, 186, rfl⟩
abbrev main_cst_35 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_36 : Ref sig .tc := ⟨.hbm, 210, rfl⟩
abbrev main_v150 : Ref sig .tc := ⟨.hbm, 211, rfl⟩
abbrev main_v151 : Ref sig .tc := ⟨.hbm, 212, rfl⟩
abbrev main_cst_37 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_cst_38 : Ref sig .tc := ⟨.hbm, 220, rfl⟩
abbrev main_v158 : Ref sig .tc := ⟨.hbm, 221, rfl⟩
abbrev main_v159 : Ref sig .tc := ⟨.hbm, 222, rfl⟩
abbrev main_cst_39 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_cst_40 : Ref sig .tc := ⟨.hbm, 248, rfl⟩
abbrev main_v184 : Ref sig .tc := ⟨.hbm, 249, rfl⟩
abbrev main_v185 : Ref sig .tc := ⟨.hbm, 250, rfl⟩
abbrev main_cst_41 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_cst_42 : Ref sig .tc := ⟨.hbm, 258, rfl⟩
abbrev main_v192 : Ref sig .tc := ⟨.hbm, 259, rfl⟩
abbrev main_v193 : Ref sig .tc := ⟨.hbm, 260, rfl⟩
abbrev main_cst_43 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩

abbrev nD : Nat := 1
abbrev τ : Topo := Topo.v7x

variable {F : FTy → Type} [FloatOps F]

class Facts₀ : Prop where
  bcast_S_S14541 : S_.BroadcastsInDim S14541 (![] : Fin 0 → Fin S14541.rank)
  bcast_S14541_S14541x1_0 : S14541.BroadcastsInDim S14541x1 (![0] : Fin 1 → Fin S14541x1.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x16384_0_1 : S64x1.BroadcastsInDim S64x16384 (![0, 1] : Fin 2 → Fin S64x16384.rank)
  shapeCasts_S64x16384_S1048576 : S64x16384.ShapeCasts S1048576
  bcast_S_S1048576 : S_.BroadcastsInDim S1048576 (![] : Fin 0 → Fin S1048576.rank)
  bcast_S_S930624 : S_.BroadcastsInDim S930624 (![] : Fin 0 → Fin S930624.rank)
  bcast_S1048576_S1048576x1_0 : S1048576.BroadcastsInDim S1048576x1 (![0] : Fin 1 → Fin S1048576x1.rank)
  bcast_S1048576x1_S1048576x128_0_1 : S1048576x1.BroadcastsInDim S1048576x128 (![0, 1] : Fin 2 → Fin S1048576x128.rank)
  bcast_S_S930624x128 : S_.BroadcastsInDim S930624x128 (![] : Fin 0 → Fin S930624x128.rank)
  bcast_S930624_S930624x1_0 : S930624.BroadcastsInDim S930624x1 (![0] : Fin 1 → Fin S930624x1.rank)
  bcast_S930624x1_S930624x128_0_1 : S930624x1.BroadcastsInDim S930624x128 (![0, 1] : Fin 2 → Fin S930624x128.rank)
  shapeCasts_S930624x128_S64x14541x128 : S930624x128.ShapeCasts S64x14541x128
  bcast_S64x128_S64x1x128_0_2 : S64x128.BroadcastsInDim S64x1x128 (![0, 2] : Fin 2 → Fin S64x1x128.rank)
  bcast_S64x1x128_S64x14541x128_0_1_2 : S64x1x128.BroadcastsInDim S64x14541x128 (![0, 1, 2] : Fin 3 → Fin S64x14541x128.rank)
  reducesTo_S64x14541x128_S14541x128_d0 : S64x14541x128.ReducesTo [0] S14541x128
  h_S_ : 0 < S_.numel
  bcast_S_S14541x128 : S_.BroadcastsInDim S14541x128 (![] : Fin 0 → Fin S14541x128.rank)
  bcast_S64x64_S64x1x64_0_2 : S64x64.BroadcastsInDim S64x1x64 (![0, 2] : Fin 2 → Fin S64x1x64.rank)
  bcast_S64x1x64_S64x14541x64_0_1_2 : S64x1x64.BroadcastsInDim S64x14541x64 (![0, 1, 2] : Fin 3 → Fin S64x14541x64.rank)
  reducesTo_S64x14541x64_S14541x64_d0 : S64x14541x64.ReducesTo [0] S14541x64
  bcast_S_S14541x64 : S_.BroadcastsInDim S14541x64 (![] : Fin 0 → Fin S14541x64.rank)
  slices_S2x128x64_S1x128x64_0_0_0 : S2x128x64.Slices ![0, 0, 0] S1x128x64
  shapeCasts_S1x128x64_S128x64 : S1x128x64.ShapeCasts S128x64
  slices_S2x128_S1x128_0_0 : S2x128.Slices ![0, 0] S1x128
  shapeCasts_S1x128_S128 : S1x128.ShapeCasts S128
  transposes_S128x64_S64x128_1_0 : S128x64.Transposes [1, 0] S64x128
  bcast_S128_S1x128_1 : S128.BroadcastsInDim S1x128 (![1] : Fin 1 → Fin S1x128.rank)
  bcast_S1x128_S14541x128_0_1 : S1x128.BroadcastsInDim S14541x128 (![0, 1] : Fin 2 → Fin S14541x128.rank)
  slices_S14541x128_S14541x32_0_0 : S14541x128.Slices ![0, 0] S14541x32
  slices_S14541x128_S14541x32_0_32 : S14541x128.Slices ![0, 32] S14541x32
  slices_S14541x128_S14541x32_0_64 : S14541x128.Slices ![0, 64] S14541x32
  slices_S14541x128_S14541x32_0_96 : S14541x128.Slices ![0, 96] S14541x32
  bcast_S_S14541x32 : S_.BroadcastsInDim S14541x32 (![] : Fin 0 → Fin S14541x32.rank)
  slices_S2x128x64_S1x128x64_1_0_0 : S2x128x64.Slices ![1, 0, 0] S1x128x64
  slices_S2x128_S1x128_1_0 : S2x128.Slices ![1, 0] S1x128
  concatenates_S14541x32_S14541x32_S14541x64_d1 : Shape.Concatenates [S14541x32, S14541x32] S14541x64 1
  gather_S14541x128_S14541x1_S14541x128_1_0_n_n_0_1_1128_wf : GatherDims.WF S14541x128 S14541x1 S14541x128 [1] [0] [] [0] [] 1 ![1, 128]
  scatter_S930624_S1048576x1_S1048576_n_0_0_1_wf : ScatterDims.WF S930624 S1048576x1 S1048576 [] [0] [0] 1
  gather_S14541x128_S1048576x1_S1048576x128_1_0_n_n_0_1_1128_wf : GatherDims.WF S14541x128 S1048576x1 S1048576x128 [1] [0] [] [0] [] 1 ![1, 128]
  gather_S930624_S1048576x1_S1048576_n_0_n_n_0_1_1_wf : GatherDims.WF S930624 S1048576x1 S1048576 [] [0] [] [0] [] 1 ![1]
  scatter_S930624x128_S1048576x1_S1048576x128_1_0_0_1_wf : ScatterDims.WF S930624x128 S1048576x1 S1048576x128 [1] [0] [0] 1
  dot_S64x14541x128_S64x128x128_S64x14541x128_2_1_1_2_0_0_wf : DotDims.WF S64x14541x128 S64x128x128 S64x14541x128 [2] [1] [1] [2] [0] [0]
  dot_S64x14541x128_S64x128x64_S64x14541x64_2_1_1_2_0_0_wf : DotDims.WF S64x14541x128 S64x128x64 S64x14541x64 [2] [1] [1] [2] [0] [0]
  dot_S14541x64_S64x128_S14541x128_1_0_0_1_n_n_wf : DotDims.WF S14541x64 S64x128 S14541x128 [1] [0] [0] [1] [] []

variable [Facts₀]

def gather_S14541x128_S14541x1_S14541x128_1_0_n_n_0_1_1128 : GatherDims S14541x128 S14541x1 S14541x128 where
  offsetDims := [1]
  collapsedSliceDims := [0]
  operandBatchingDims := []
  startIndicesBatchingDims := []
  startIndexMap := [0]
  indexVectorDim := 1
  sliceSizes := ![1, 128]
  wf := gather_S14541x128_S14541x1_S14541x128_1_0_n_n_0_1_1128_wf
def scatter_S930624_S1048576x1_S1048576_n_0_0_1 : ScatterDims S930624 S1048576x1 S1048576 where
  updateWindowDims := []
  insertedWindowDims := [0]
  scatterDimsToOperandDims := [0]
  indexVectorDim := 1
  wf := scatter_S930624_S1048576x1_S1048576_n_0_0_1_wf
def gather_S14541x128_S1048576x1_S1048576x128_1_0_n_n_0_1_1128 : GatherDims S14541x128 S1048576x1 S1048576x128 where
  offsetDims := [1]
  collapsedSliceDims := [0]
  operandBatchingDims := []
  startIndicesBatchingDims := []
  startIndexMap := [0]
  indexVectorDim := 1
  sliceSizes := ![1, 128]
  wf := gather_S14541x128_S1048576x1_S1048576x128_1_0_n_n_0_1_1128_wf
def gather_S930624_S1048576x1_S1048576_n_0_n_n_0_1_1 : GatherDims S930624 S1048576x1 S1048576 where
  offsetDims := []
  collapsedSliceDims := [0]
  operandBatchingDims := []
  startIndicesBatchingDims := []
  startIndexMap := [0]
  indexVectorDim := 1
  sliceSizes := ![1]
  wf := gather_S930624_S1048576x1_S1048576_n_0_n_n_0_1_1_wf
def scatter_S930624x128_S1048576x1_S1048576x128_1_0_0_1 : ScatterDims S930624x128 S1048576x1 S1048576x128 where
  updateWindowDims := [1]
  insertedWindowDims := [0]
  scatterDimsToOperandDims := [0]
  indexVectorDim := 1
  wf := scatter_S930624x128_S1048576x1_S1048576x128_1_0_0_1_wf
def dot_S64x14541x128_S64x128x128_S64x14541x128_2_1_1_2_0_0 : DotDims S64x14541x128 S64x128x128 S64x14541x128 where
  lhsContracting := [2]
  rhsContracting := [1]
  lhsNonContracting := [1]
  rhsNonContracting := [2]
  lhsBatch := [0]
  rhsBatch := [0]
  wf := dot_S64x14541x128_S64x128x128_S64x14541x128_2_1_1_2_0_0_wf
def dot_S64x14541x128_S64x128x64_S64x14541x64_2_1_1_2_0_0 : DotDims S64x14541x128 S64x128x64 S64x14541x64 where
  lhsContracting := [2]
  rhsContracting := [1]
  lhsNonContracting := [1]
  rhsNonContracting := [2]
  lhsBatch := [0]
  rhsBatch := [0]
  wf := dot_S64x14541x128_S64x128x64_S64x14541x64_2_1_1_2_0_0_wf
def dot_S14541x64_S64x128_S14541x128_1_0_0_1_n_n : DotDims S14541x64 S64x128 S14541x128 where
  lhsContracting := [1]
  rhsContracting := [0]
  lhsNonContracting := [0]
  rhsNonContracting := [1]
  lhsBatch := []
  rhsBatch := []
  wf := dot_S14541x64_S64x128_S14541x128_1_0_0_1_n_n_wf

class Facts : Prop extends Facts₀ where

variable [Facts]
-- ==== Proof.KB.Shared.lean ====
/-
  The two graph-convolution kernels run over a grid of 4 row tiles × 64 relations, the relation axis innermost.
  A point is the first of its tile's 64 when its relation index is 0 (the accumulator is cleared there) and the
  last when it is 63 (the mean is stored to the output block there). This module decides those conditions over
  the grid, says where the output window is idle (every point but the last of a tile), names each window's
  current staging memref at a point, and splits the accumulator out of the kernel's scoped rest.
-/
import proofs.«145989_j32908039422281_1_alg».proof.Proof.Gen.Kernel.Launch
import proofs.«145989_j32908039422281_1_alg».proof.Proof.Gen.Kernel.Skeleton
import proofs.«145989_j32908039422281_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Graph convolution 1 (pipeline 0) -/

/-- The point is the first of its row tile: relation index 0. -/
abbrev first0 (i : grid0.Coords) : Prop := (Scalar.cmpi .ne (Scalar.extui (Scalar.cmpi .eq (BitVec.ofNat 32 (i 1).val) 0#32)) 0#32) = 1#1
theorem hfirst0 : ∀ t : Fin cfg0.N, first0 (grid0.coords t) ↔ t.val % 64 = 0 :=
  (by decide +kernel : ∀ t : Fin grid0.N, first0 (grid0.coords t) ↔ t.val % 64 = 0)
/-- The point is the last of its row tile: relation index 63. -/
abbrev last0 (i : grid0.Coords) : Prop := k0_cond2 i = 1#1
theorem hlast0 : ∀ t : Fin cfg0.N, last0 (grid0.coords t) ↔ t.val % 64 = 63 :=
  (by decide +kernel : ∀ t : Fin grid0.N, last0 (grid0.coords t) ↔ t.val % 64 = 63)

theorem live0_0 : ∀ t : Fin cfg0.N, cfg0.idle 0 (grid0.coords t) = false := (by decide +kernel : ∀ t : Fin grid0.N, cfg0.idle 0 (grid0.coords t) = false)
theorem live0_1 : ∀ t : Fin cfg0.N, cfg0.idle 1 (grid0.coords t) = false := (by decide +kernel : ∀ t : Fin grid0.N, cfg0.idle 1 (grid0.coords t) = false)
theorem live0_2 : ∀ t : Fin cfg0.N, cfg0.idle 2 (grid0.coords t) = false := (by decide +kernel : ∀ t : Fin grid0.N, cfg0.idle 2 (grid0.coords t) = false)
/-- Before the last point of a tile nothing is stored to the output block: the window is idle and not written back. -/
theorem idle0_3 : ∀ t : Fin cfg0.N, ¬last0 (grid0.coords t) → cfg0.idle 3 (grid0.coords t) = true :=
  (by decide +kernel : ∀ t : Fin grid0.N, ¬last0 (grid0.coords t) → cfg0.idle 3 (grid0.coords t) = true)
theorem noFlush0_3 : ∀ t : Fin cfg0.N, ¬last0 (grid0.coords t) → (cfg0.win 3).flush t = false :=
  (by decide +kernel : ∀ t : Fin grid0.N, ¬last0 (grid0.coords t) → win0_3.flush t = false)
theorem live0_3 : ∀ t : Fin cfg0.N, last0 (grid0.coords t) → cfg0.idle 3 (grid0.coords t) = false :=
  (by decide +kernel : ∀ t : Fin grid0.N, last0 (grid0.coords t) → cfg0.idle 3 (grid0.coords t) = false)

/-- Each window's current staging memref at point `t`, and that it is a whole buffer. -/
abbrev ms0_0 (t : Fin cfg0.N) : Memref sig .tc .vmem S1x4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev acc0 : Memref sig .tc .vmem S4096x128 .f32 := Memref.whole cc0_scratch0
abbrev accV0 : View sig .tc .vmem S4096x128 .f32 := (acc0).view
/-- One staging buffer of the output window, through which its contents are stated. -/
abbrev outV0 : View sig .tc .vmem S4096x128 .f32 := (Memref.whole cc0_stg3_0 : Memref sig .tc .vmem S4096x128 .f32).view

/-- The scoped buffers that are neither a staging buffer of this call nor its accumulator, each at some contents. -/
abbrev rest0 (c : Dev nD) : sProp 𝕄 :=
  Pipeline.scopedRestBut (Ix := Unit) (Name := ℕ) (U := UR sig nD τ) (Lvl := ℕ) (Val := Elt F) spec0 c [cc0_scratch0]

/-- The class invariant with the accumulator split out as an owned memref. -/
theorem PhiA0_eq (c : Dev nD) :
    (Pipeline.ΦA spec0 c : sProp 𝕄)
      = iprop(iprop((∃ d, owns (c : Thread nD τ) acc0 fullShare d) ∗ rest0 c) ∗ (∃ r, prngReg c r)) := by
  unfold Pipeline.ΦA
  rw [Pipeline.scopedRest_split_of_list spec0 c [cc0_scratch0] (by decide) (by decide)]
  simp only [acc0, owns_whole, bigSepL]
  rfl

/-! ## Graph convolution 2 (pipeline 1) -/

/-- The point is the first of its row tile: relation index 0. -/
abbrev first1 (i : grid1.Coords) : Prop := (Scalar.cmpi .ne (Scalar.extui (Scalar.cmpi .eq (BitVec.ofNat 32 (i 1).val) 0#32)) 0#32) = 1#1
theorem hfirst1 : ∀ t : Fin cfg1.N, first1 (grid1.coords t) ↔ t.val % 64 = 0 :=
  (by decide +kernel : ∀ t : Fin grid1.N, first1 (grid1.coords t) ↔ t.val % 64 = 0)
/-- The point is the last of its row tile: relation index 63. -/
abbrev last1 (i : grid1.Coords) : Prop := k1_cond2 i = 1#1
theorem hlast1 : ∀ t : Fin cfg1.N, last1 (grid1.coords t) ↔ t.val % 64 = 63 :=
  (by decide +kernel : ∀ t : Fin grid1.N, last1 (grid1.coords t) ↔ t.val % 64 = 63)

theorem live1_0 : ∀ t : Fin cfg1.N, cfg1.idle 0 (grid1.coords t) = false := (by decide +kernel : ∀ t : Fin grid1.N, cfg1.idle 0 (grid1.coords t) = false)
theorem live1_1 : ∀ t : Fin cfg1.N, cfg1.idle 1 (grid1.coords t) = false := (by decide +kernel : ∀ t : Fin grid1.N, cfg1.idle 1 (grid1.coords t) = false)
theorem live1_2 : ∀ t : Fin cfg1.N, cfg1.idle 2 (grid1.coords t) = false := (by decide +kernel : ∀ t : Fin grid1.N, cfg1.idle 2 (grid1.coords t) = false)
/-- Before the last point of a tile nothing is stored to the output block: the window is idle and not written back. -/
theorem idle1_3 : ∀ t : Fin cfg1.N, ¬last1 (grid1.coords t) → cfg1.idle 3 (grid1.coords t) = true :=
  (by decide +kernel : ∀ t : Fin grid1.N, ¬last1 (grid1.coords t) → cfg1.idle 3 (grid1.coords t) = true)
theorem noFlush1_3 : ∀ t : Fin cfg1.N, ¬last1 (grid1.coords t) → (cfg1.win 3).flush t = false :=
  (by decide +kernel : ∀ t : Fin grid1.N, ¬last1 (grid1.coords t) → win1_3.flush t = false)
theorem live1_3 : ∀ t : Fin cfg1.N, last1 (grid1.coords t) → cfg1.idle 3 (grid1.coords t) = false :=
  (by decide +kernel : ∀ t : Fin grid1.N, last1 (grid1.coords t) → cfg1.idle 3 (grid1.coords t) = false)

/-- Each window's current staging memref at point `t`, and that it is a whole buffer. -/
abbrev ms1_0 (t : Fin cfg1.N) : Memref sig .tc .vmem S1x4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x64 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev acc1 : Memref sig .tc .vmem S4096x64 .f32 := Memref.whole cc1_scratch0
abbrev accV1 : View sig .tc .vmem S4096x64 .f32 := (acc1).view
/-- One staging buffer of the output window, through which its contents are stated. -/
abbrev outV1 : View sig .tc .vmem S4096x64 .f32 := (Memref.whole cc1_stg3_0 : Memref sig .tc .vmem S4096x64 .f32).view

/-- The scoped buffers that are neither a staging buffer of this call nor its accumulator, each at some contents. -/
abbrev rest1 (c : Dev nD) : sProp 𝕄 :=
  Pipeline.scopedRestBut (Ix := Unit) (Name := ℕ) (U := UR sig nD τ) (Lvl := ℕ) (Val := Elt F) spec1 c [cc1_scratch0]

/-- The class invariant with the accumulator split out as an owned memref. -/
theorem PhiA1_eq (c : Dev nD) :
    (Pipeline.ΦA spec1 c : sProp 𝕄)
      = iprop(iprop((∃ d, owns (c : Thread nD τ) acc1 fullShare d) ∗ rest1 c) ∗ (∃ r, prngReg c r)) := by
  unfold Pipeline.ΦA
  rw [Pipeline.scopedRest_split_of_list spec1 c [cc1_scratch0] (by decide) (by decide)]
  simp only [acc1, owns_whole, bigSepL]
  rfl

end Cert.Kernel.Hand

end
-- ==== Proof.KB.Run0A.lean ====
/-
  Graph convolution 1: the kernel body run at the FIRST point of a row tile (the accumulator is cleared, then the relation's term added; nothing is stored to the output block). The witness is the list of pieces
  (rectangle, stored value), last store first, that the run leaves in the accumulator.
-/
import proofs.«145989_j32908039422281_1_alg».proof.Proof.KB.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run0A (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : first0 i) (hc1 : ¬last0 i)
    (x0 : Vec F S1x4096x128 .f32) (x1 : Vec F S1x128x128 .f32) (x2 : Vec F S1x1x128 .f32) :
    Σ' (L3 : List (View.Piece (Elt F) S4096x128 .f32)), { LS : List (View.Piece (Elt F) S4096x128 .f32) //
      ∀ (xi3 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__graph_conv_kernel i arg2 harg2 arg3 harg3 arg4 harg4 arg5 harg5 arg6 harg6) K } := by
  refine ⟨[], ?_, fun xi3 E K => ?run⟩
  case run =>
    simp only [cc0__graph_conv_kernel_eq_skeleton]; unfold cc0__graph_conv_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.KB.Run0B.lean ====
/-
  Graph convolution 1: the kernel body run at a MIDDLE point of a row tile (the relation's term is added to the accumulator; nothing is stored to the output block). The witness is the list of pieces
  (rectangle, stored value), last store first, that the run leaves in the accumulator.
-/
import proofs.«145989_j32908039422281_1_alg».proof.Proof.KB.Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run0B (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : ¬last0 i)
    (x0 : Vec F S1x4096x128 .f32) (x1 : Vec F S1x128x128 .f32) (x2 : Vec F S1x1x128 .f32) (xs : Vec F S4096x128 .f32) :
    Σ' (L3 : List (View.Piece (Elt F) S4096x128 .f32)), { LS : List (View.Piece (Elt F) S4096x128 .f32) //
      ∀ (xi3 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__graph_conv_kernel i arg2 harg2 arg3 harg3 arg4 harg4 arg5 harg5 arg6 harg6) K } := by
  refine ⟨[], ?_, fun xi3 E K => ?run⟩
  case run =>
    simp only [cc0__graph_conv_kernel_eq_skeleton]; unfold cc0__graph_conv_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.KB.Run0C.lean ====
/-
  Graph convolution 1: the kernel body run at the LAST point of a row tile (the relation's term is added to the accumulator, and the accumulator times 1/64 is stored to the output block). The witness is the list of pieces
  (rectangle, stored value), last store first, that the run leaves in the accumulator and in the output block.
-/
import proofs.«145989_j32908039422281_1_alg».proof.Proof.KB.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run0C (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : last0 i)
    (x0 : Vec F S1x4096x128 .f32) (x1 : Vec F S1x128x128 .f32) (x2 : Vec F S1x1x128 .f32) (xs : Vec F S4096x128 .f32) :
    Σ' (L3 : List (View.Piece (Elt F) S4096x128 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__graph_conv_kernel i arg2 harg2 arg3 harg3 arg4 harg4 arg5 harg5 arg6 harg6) K } := by
  refine ⟨?_, ?_, fun E K => ?run⟩
  case run =>
    simp only [cc0__graph_conv_kernel_eq_skeleton]; unfold cc0__graph_conv_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.KB.Region0.lean ====
/-
  Graph convolution 1 (pipeline 0) at any contents `V` of the TensorCore's buffers when the region is entered.
  From the three runs of the body: what a point leaves in the accumulator and, at the last point of a row tile, in
  the output block (the stored pieces read back); the accumulation along the grid (`outsAt0`: a point's contents
  from the contents the point before left); the invariant between points (the accumulator at what the point before
  left, every other scoped buffer at something); the proof data; and the body obligation at every point.
-/
import proofs.«145989_j32908039422281_1_alg».proof.Proof.KB.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is `V`'s
    and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is `V`'s
    and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What a point leaves -/

/-- A placeholder for the output block's buffer at a point that stores nothing into it: nothing consults it. -/
def outIdle0 : Vec F S4096x128 .f32 := outV0.read (Elt F) (outV0.writes (Elt F) outV0.junk [])

/-- The accumulator's pieces at such a point tile it. -/
theorem scover0A (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : first0 i) (hc1 : ¬last0 i) (x0 : Vec F S1x4096x128 .f32) (x1 : Vec F S1x128x128 .f32) (x2 : Vec F S1x1x128 .f32) (y : S4096x128.Idx) :
    ∃ pc ∈ (run0A c i arg2 harg2 arg3 harg3 arg4 harg4 arg5 harg5 arg6 harg6 hc0 hc1 x0 x1 x2).2.1, y ∈ pc.1.set :=
  View.cover_of_tiledL (run0A c i arg2 harg2 arg3 harg3 arg4 harg4 arg5 harg5 arg6 harg6 hc0 hc1 x0 x1 x2).2.1 S4096x128.size (by sl_kernel_rfl) y

/-- What the point leaves in the accumulator: its pieces read back. -/
def sout0A (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : first0 i) (hc1 : ¬last0 i) (x0 : Vec F S1x4096x128 .f32) (x1 : Vec F S1x128x128 .f32) (x2 : Vec F S1x1x128 .f32) : Vec F S4096x128 .f32 :=
  accV0.read (Elt F) (accV0.writes (Elt F) accV0.junk (run0A c i arg2 harg2 arg3 harg3 arg4 harg4 arg5 harg5 arg6 harg6 hc0 hc1 x0 x1 x2).2.1)

/-- The accumulator's pieces at such a point tile it. -/
theorem scover0B (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : ¬last0 i) (x0 : Vec F S1x4096x128 .f32) (x1 : Vec F S1x128x128 .f32) (x2 : Vec F S1x1x128 .f32) (xs : Vec F S4096x128 .f32) (y : S4096x128.Idx) :
    ∃ pc ∈ (run0B c i arg2 harg2 arg3 harg3 arg4 harg4 arg5 harg5 arg6 harg6 hc0 hc1 x0 x1 x2 xs).2.1, y ∈ pc.1.set :=
  View.cover_of_tiledL (run0B c i arg2 harg2 arg3 harg3 arg4 harg4 arg5 harg5 arg6 harg6 hc0 hc1 x0 x1 x2 xs).2.1 S4096x128.size (by sl_kernel_rfl) y

/-- What the point leaves in the accumulator: its pieces read back. -/
def sout0B (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : ¬last0 i) (x0 : Vec F S1x4096x128 .f32) (x1 : Vec F S1x128x128 .f32) (x2 : Vec F S1x1x128 .f32) (xs : Vec F S4096x128 .f32) : Vec F S4096x128 .f32 :=
  accV0.read (Elt F) (accV0.writes (Elt F) accV0.junk (run0B c i arg2 harg2 arg3 harg3 arg4 harg4 arg5 harg5 arg6 harg6 hc0 hc1 x0 x1 x2 xs).2.1)

/-- The accumulator's pieces at such a point tile it. -/
theorem scover0C (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : last0 i) (x0 : Vec F S1x4096x128 .f32) (x1 : Vec F S1x128x128 .f32) (x2 : Vec F S1x1x128 .f32) (xs : Vec F S4096x128 .f32) (y : S4096x128.Idx) :
    ∃ pc ∈ (run0C c i arg2 harg2 arg3 harg3 arg4 harg4 arg5 harg5 arg6 harg6 hc0 hc1 x0 x1 x2 xs).2.1, y ∈ pc.1.set :=
  View.cover_of_tiledL (run0C c i arg2 harg2 arg3 harg3 arg4 harg4 arg5 harg5 arg6 harg6 hc0 hc1 x0 x1 x2 xs).2.1 S4096x128.size (by sl_kernel_rfl) y

/-- What the point leaves in the accumulator: its pieces read back. -/
def sout0C (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : last0 i) (x0 : Vec F S1x4096x128 .f32) (x1 : Vec F S1x128x128 .f32) (x2 : Vec F S1x1x128 .f32) (xs : Vec F S4096x128 .f32) : Vec F S4096x128 .f32 :=
  accV0.read (Elt F) (accV0.writes (Elt F) accV0.junk (run0C c i arg2 harg2 arg3 harg3 arg4 harg4 arg5 harg5 arg6 harg6 hc0 hc1 x0 x1 x2 xs).2.1)

/-- The output block's pieces at the last point of a tile tile it. -/
theorem cover0C (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : last0 i) (x0 : Vec F S1x4096x128 .f32) (x1 : Vec F S1x128x128 .f32) (x2 : Vec F S1x1x128 .f32) (xs : Vec F S4096x128 .f32) (y : S4096x128.Idx) :
    ∃ pc ∈ (run0C c i arg2 harg2 arg3 harg3 arg4 harg4 arg5 harg5 arg6 harg6 hc0 hc1 x0 x1 x2 xs).1, y ∈ pc.1.set :=
  View.cover_of_tiledL (run0C c i arg2 harg2 arg3 harg3 arg4 harg4 arg5 harg5 arg6 harg6 hc0 hc1 x0 x1 x2 xs).1 S4096x128.size (by sl_kernel_rfl) y

/-- What the last point of a tile leaves in the output block's staging buffer. -/
def out0C (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : last0 i) (x0 : Vec F S1x4096x128 .f32) (x1 : Vec F S1x128x128 .f32) (x2 : Vec F S1x1x128 .f32) (xs : Vec F S4096x128 .f32) : Vec F S4096x128 .f32 :=
  outV0.read (Elt F) (outV0.writes (Elt F) outV0.junk (run0C c i arg2 harg2 arg3 harg3 arg4 harg4 arg5 harg5 arg6 harg6 hc0 hc1 x0 x1 x2 xs).1)

/-! ## The accumulation along the grid -/

/-- What the output block's staging buffer and the accumulator hold after the body at position `n`: the case the
    position is in (first / middle / last of its row tile), run at the point's memrefs and input blocks, over what
    the position before left in the accumulator. -/
def outsAt0 (c : Dev nD) : (n : ℕ) → n < cfg0.N → Vec F S4096x128 .f32 × Vec F S4096x128 .f32
  | 0, hn => (outIdle0, sout0A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) acc0 (Memref.isWhole_whole _) ((hfirst0 ⟨0, hn⟩).mpr (Nat.zero_mod _)) (fun h => (fun h => by (try dsimp only at h); omega) ((hlast0 ⟨0, hn⟩).mp h)) (iblk0 V c 0 ⟨0, hn⟩) (iblk0 V c 1 ⟨0, hn⟩) (iblk0 V c 2 ⟨0, hn⟩))
  | n + 1, hn =>
    if h0 : (n + 1) % 64 = 0 then
      if h1 : (n + 1) % 64 = 63 then
        False.elim (by omega)
      else
        (outIdle0, sout0A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) ((hfirst0 ⟨n + 1, hn⟩).mpr h0) (fun h => h1 ((hlast0 ⟨n + 1, hn⟩).mp h)) (iblk0 V c 0 ⟨n + 1, hn⟩) (iblk0 V c 1 ⟨n + 1, hn⟩) (iblk0 V c 2 ⟨n + 1, hn⟩))
    else
      if h1 : (n + 1) % 64 = 63 then
        (out0C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) (fun h => h0 ((hfirst0 ⟨n + 1, hn⟩).mp h)) ((hlast0 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) (fun h => h0 ((hfirst0 ⟨n + 1, hn⟩).mp h)) ((hlast0 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (outIdle0, sout0B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) (fun h => h0 ((hfirst0 ⟨n + 1, hn⟩).mp h)) (fun h => h1 ((hlast0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 64 = 0) (h1 : ¬t.val % 64 = 63) :
    outsAt0 V c t.val t.isLt = (outIdle0, sout0A c (grid0.coords t) (ms0_0 t) (hs0_0 t) (ms0_1 t) (hs0_1 t) (ms0_2 t) (hs0_2 t) (ms0_3 t) (hs0_3 t) acc0 (Memref.isWhole_whole _) ((hfirst0 t).mpr h0) (fun h => h1 ((hlast0 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 64 = 0) (h1 : ¬t.val % 64 = 63) :
    outsAt0 V c t.val t.isLt = (outIdle0, sout0B c (grid0.coords t) (ms0_0 t) (hs0_0 t) (ms0_1 t) (hs0_1 t) (ms0_2 t) (hs0_2 t) (ms0_3 t) (hs0_3 t) acc0 (Memref.isWhole_whole _) (fun h => h0 ((hfirst0 t).mp h)) (fun h => h1 ((hlast0 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 64 = 0) (h1 : t.val % 64 = 63) :
    outsAt0 V c t.val t.isLt = (out0C c (grid0.coords t) (ms0_0 t) (hs0_0 t) (ms0_1 t) (hs0_1 t) (ms0_2 t) (hs0_2 t) (ms0_3 t) (hs0_3 t) acc0 (Memref.isWhole_whole _) (fun h => h0 ((hfirst0 t).mp h)) ((hlast0 t).mpr h1) (iblk0 V c 0 t) (iblk0 V c 1 t) (iblk0 V c 2 t) (outsAt0 V c (t.val - 1) (Nat.lt_of_le_of_lt (Nat.sub_le _ _) t.isLt)).2,
      sout0C c (grid0.coords t) (ms0_0 t) (hs0_0 t) (ms0_1 t) (hs0_1 t) (ms0_2 t) (hs0_2 t) (ms0_3 t) (hs0_3 t) acc0 (Memref.isWhole_whole _) (fun h => h0 ((hfirst0 t).mp h)) ((hlast0 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the class's invariant (every scoped buffer that is no staging buffer at something); afterwards
    the accumulator at what the point before left in it, the other such buffers at something, the generator register at
    some state. -/
def PhiS0 (c : Dev nD) : (n : ℕ) → n ≤ cfg0.N → sProp 𝕄
  | 0, _ => Pipeline.ΦA spec0 c
  | n + 1, hn => iprop(iprop(owns (c : Thread nD τ) acc0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) acc0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) acc0 fullShare ((outsAt0 V c (n - 1) (by omega)).2) ∗ rest0 c) ∗ (∃ r, prngReg c r)) := by
  cases n with
  | zero => exact absurd rfl hz
  | succ n => rfl

/-! ## The proof data -/

/-- The arrays as the region finds them; after the body at a point each input's buffer at its block and the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the position says which of the three cases the
    point is in; the invariant hands the body the accumulator at what the point before left (at anything at the very
    first point) and takes it back at this point's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  by_cases h0 : t.val % 64 = 0
  · by_cases h1 : t.val % 64 = 63
    · exfalso; omega
    · rw [show (dat0 V c).leavesExact 0 t = owns (c : Thread nD τ) (ms0_0 t) fullShare ((dat0 V c).after 0 t) from by unfold Dat.leavesExact; rw [live0_0 t], after0_0]
      rw [show (dat0 V c).leavesExact 1 t = owns (c : Thread nD τ) (ms0_1 t) fullShare ((dat0 V c).after 1 t) from by unfold Dat.leavesExact; rw [live0_1 t], after0_1]
      rw [show (dat0 V c).leavesExact 2 t = owns (c : Thread nD τ) (ms0_2 t) fullShare ((dat0 V c).after 2 t) from by unfold Dat.leavesExact; rw [live0_2 t], after0_2]
      rw [Dat.leavesExact_idle (dat0 V c) 3 t (idle0_3 t (fun h => h1 ((hlast0 t).mp h))) (noFlush0_3 t (fun h => h1 ((hlast0 t).mp h)))]
      rw [outsAt0_A V c t h0 h1]
      unfold sout0A; (try dsimp only)
      by_cases hz : t.val = 0
      · rw [PhiS0_castSucc V c t, PhiS0_zero V c _ _ hz, PhiA0_eq]
        iintro ⟨⟨⟨HS, HR⟩, Hg⟩, Ho, ⟨%d0, H0⟩, ⟨%d1, H1⟩, ⟨%d2, H2⟩, ⟨%d3, H3⟩⟩
        iapply ((run0A c (grid0.coords t) _ _ _ _ _ _ _ _ _ _ ((hfirst0 t).mpr h0) (fun h => h1 ((hlast0 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (scover0A c _ _ _ _ _ _ _ _ _ _ _ _ _ _ _ _ )
            iexact HR
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS, HR⟩, Hg⟩, Ho, ⟨%d0, H0⟩, ⟨%d1, H1⟩, ⟨%d2, H2⟩, ⟨%d3, H3⟩⟩
        iapply ((run0A c (grid0.coords t) _ _ _ _ _ _ _ _ _ _ ((hfirst0 t).mpr h0) (fun h => h1 ((hlast0 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (scover0A c _ _ _ _ _ _ _ _ _ _ _ _ _ _ _ _ )
            iexact HR
          iexact Hg
        isplitl [Ho]; · iexact Ho
        isplitl [H0]; · iexact H0
        isplitl [H1]; · iexact H1
        isplitl [H2]; · iexact H2
        iexists _; iexact H3
  · by_cases h1 : t.val % 64 = 63
    · rw [show (dat0 V c).leavesExact 0 t = owns (c : Thread nD τ) (ms0_0 t) fullShare ((dat0 V c).after 0 t) from by unfold Dat.leavesExact; rw [live0_0 t], after0_0]
      rw [show (dat0 V c).leavesExact 1 t = owns (c : Thread nD τ) (ms0_1 t) fullShare ((dat0 V c).after 1 t) from by unfold Dat.leavesExact; rw [live0_1 t], after0_1]
      rw [show (dat0 V c).leavesExact 2 t = owns (c : Thread nD τ) (ms0_2 t) fullShare ((dat0 V c).after 2 t) from by unfold Dat.leavesExact; rw [live0_2 t], after0_2]
      rw [show (dat0 V c).leavesExact 3 t = owns (c : Thread nD τ) (ms0_3 t) fullShare ((dat0 V c).after 3 t) from by unfold Dat.leavesExact; rw [live0_3 t ((hlast0 t).mpr h1)], after0_3]
      rw [outsAt0_C V c t h0 h1]
      unfold out0C sout0C; (try dsimp only)
      have hz : t.val ≠ 0 := by omega
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply ((run0C c (grid0.coords t) _ _ _ _ _ _ _ _ _ _ (fun h => h0 ((hfirst0 t).mp h)) ((hlast0 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover0C c _ _ _ _ _ _ _ _ _ _ _ _ _ _ _ _ _ )
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0C c _ _ _ _ _ _ _ _ _ _ _ _ _ _ _ _ _ )
    · rw [show (dat0 V c).leavesExact 0 t = owns (c : Thread nD τ) (ms0_0 t) fullShare ((dat0 V c).after 0 t) from by unfold Dat.leavesExact; rw [live0_0 t], after0_0]
      rw [show (dat0 V c).leavesExact 1 t = owns (c : Thread nD τ) (ms0_1 t) fullShare ((dat0 V c).after 1 t) from by unfold Dat.leavesExact; rw [live0_1 t], after0_1]
      rw [show (dat0 V c).leavesExact 2 t = owns (c : Thread nD τ) (ms0_2 t) fullShare ((dat0 V c).after 2 t) from by unfold Dat.leavesExact; rw [live0_2 t], after0_2]
      rw [Dat.leavesExact_idle (dat0 V c) 3 t (idle0_3 t (fun h => h1 ((hlast0 t).mp h))) (noFlush0_3 t (fun h => h1 ((hlast0 t).mp h)))]
      rw [outsAt0_B V c t h0 h1]
      unfold sout0B; (try dsimp only)
      by_cases hz : t.val = 0
      · exfalso; omega
      · rw [PhiS0_castSucc V c t, PhiS0_pos V c _ _ hz]
        iintro ⟨⟨⟨HS, HR⟩, Hg⟩, Ho, ⟨%d0, H0⟩, ⟨%d1, H1⟩, ⟨%d2, H2⟩, ⟨%d3, H3⟩⟩
        iapply ((run0B c (grid0.coords t) _ _ _ _ _ _ _ _ _ _ (fun h => h0 ((hfirst0 t).mp h)) (fun h => h1 ((hlast0 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (scover0B c _ _ _ _ _ _ _ _ _ _ _ _ _ _ _ _ _ )
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

theorem hout0 (c : Dev nD) : (dat0 V c).Φ (Fin.last cfg0.N) ⊢ Pipeline.ΦA spec0 c :=
  Phi_out0 V c _ (by rw [Fin.val_last]; have : cfg0.N = 256 := N_0; omega)

/-- The invariant after the last point, in the shape a region's record asks: the generator register, no semaphore of the
    kernel's own, and the scoped buffers that are no staging buffer. -/
theorem hout0' (c : Dev nD) : (dat0 V c).Φ (Fin.last cfg0.N)
    ⊢ iprop((∃ r, prngReg c r) ∗ (BI.emp : sProp 𝕄) ∗ Pipeline.scopedRest (Ix := Unit) (Name := ℕ) (U := UR sig nD τ) (Lvl := ℕ) (Val := Elt F) spec0 c) := by
  have h2 : (Pipeline.ΦA spec0 c : sProp 𝕄)
      ⊢ iprop((∃ r, prngReg c r) ∗ (BI.emp : sProp 𝕄) ∗ Pipeline.scopedRest (Ix := Unit) (Name := ℕ) (U := UR sig nD τ) (Lvl := ℕ) (Val := Elt F) spec0 c) := by
    unfold Pipeline.ΦA
    iintro ⟨Hr, Hp⟩
    isplitl [Hp]; · iexact Hp
    isplitr; · iempintro
    iexact Hr
  exact BI.Entails.trans (hout0 V c) h2

end Cert.Kernel.Hand

end
-- ==== Proof.KB.Run1A.lean ====
/-
  Graph convolution 2: the kernel body run at the FIRST point of a row tile (the accumulator is cleared, then the relation's term added; nothing is stored to the output block). The witness is the list of pieces
  (rectangle, stored value), last store first, that the run leaves in the accumulator.
-/
import proofs.«145989_j32908039422281_1_alg».proof.Proof.KB.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run1A (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : first1 i) (hc1 : ¬last1 i)
    (x0 : Vec F S1x4096x128 .f32) (x1 : Vec F S1x128x64 .f32) (x2 : Vec F S1x1x64 .f32) :
    Σ' (L3 : List (View.Piece (Elt F) S4096x64 .f32)), { LS : List (View.Piece (Elt F) S4096x64 .f32) //
      ∀ (xi3 : Vec F S4096x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__graph_conv_kernel i arg2 harg2 arg3 harg3 arg4 harg4 arg5 harg5 arg6 harg6) K } := by
  refine ⟨[], ?_, fun xi3 E K => ?run⟩
  case run =>
    simp only [cc1__graph_conv_kernel_eq_skeleton]; unfold cc1__graph_conv_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.KB.Run1B.lean ====
/-
  Graph convolution 2: the kernel body run at a MIDDLE point of a row tile (the relation's term is added to the accumulator; nothing is stored to the output block). The witness is the list of pieces
  (rectangle, stored value), last store first, that the run leaves in the accumulator.
-/
import proofs.«145989_j32908039422281_1_alg».proof.Proof.KB.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run1B (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : ¬last1 i)
    (x0 : Vec F S1x4096x128 .f32) (x1 : Vec F S1x128x64 .f32) (x2 : Vec F S1x1x64 .f32) (xs : Vec F S4096x64 .f32) :
    Σ' (L3 : List (View.Piece (Elt F) S4096x64 .f32)), { LS : List (View.Piece (Elt F) S4096x64 .f32) //
      ∀ (xi3 : Vec F S4096x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__graph_conv_kernel i arg2 harg2 arg3 harg3 arg4 harg4 arg5 harg5 arg6 harg6) K } := by
  refine ⟨[], ?_, fun xi3 E K => ?run⟩
  case run =>
    simp only [cc1__graph_conv_kernel_eq_skeleton]; unfold cc1__graph_conv_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.KB.Run1C.lean ====
/-
  Graph convolution 2: the kernel body run at the LAST point of a row tile (the relation's term is added to the accumulator, and the accumulator times 1/64 is stored to the output block). The witness is the list of pieces
  (rectangle, stored value), last store first, that the run leaves in the accumulator and in the output block.
-/
import proofs.«145989_j32908039422281_1_alg».proof.Proof.KB.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run1C (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : last1 i)
    (x0 : Vec F S1x4096x128 .f32) (x1 : Vec F S1x128x64 .f32) (x2 : Vec F S1x1x64 .f32) (xs : Vec F S4096x64 .f32) :
    Σ' (L3 : List (View.Piece (Elt F) S4096x64 .f32)), { LS : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__graph_conv_kernel i arg2 harg2 arg3 harg3 arg4 harg4 arg5 harg5 arg6 harg6) K } := by
  refine ⟨?_, ?_, fun E K => ?run⟩
  case run =>
    simp only [cc1__graph_conv_kernel_eq_skeleton]; unfold cc1__graph_conv_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.KB.Region1.lean ====
/-
  Graph convolution 2 (pipeline 1) at any contents `V` of the TensorCore's buffers when the region is entered.
  From the three runs of the body: what a point leaves in the accumulator and, at the last point of a row tile, in
  the output block (the stored pieces read back); the accumulation along the grid (`outsAt1`: a point's contents
  from the contents the point before left); the invariant between points (the accumulator at what the point before
  left, every other scoped buffer at something); the proof data; and the body obligation at every point.
-/
import proofs.«145989_j32908039422281_1_alg».proof.Proof.KB.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, for any proof data whose array is `V`'s
    and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, for any proof data whose array is `V`'s
    and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What a point leaves -/

/-- A placeholder for the output block's buffer at a point that stores nothing into it: nothing consults it. -/
def outIdle1 : Vec F S4096x64 .f32 := outV1.read (Elt F) (outV1.writes (Elt F) outV1.junk [])

/-- The accumulator's pieces at such a point tile it. -/
theorem scover1A (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : first1 i) (hc1 : ¬last1 i) (x0 : Vec F S1x4096x128 .f32) (x1 : Vec F S1x128x64 .f32) (x2 : Vec F S1x1x64 .f32) (y : S4096x64.Idx) :
    ∃ pc ∈ (run1A c i arg2 harg2 arg3 harg3 arg4 harg4 arg5 harg5 arg6 harg6 hc0 hc1 x0 x1 x2).2.1, y ∈ pc.1.set :=
  View.cover_of_tiledL (run1A c i arg2 harg2 arg3 harg3 arg4 harg4 arg5 harg5 arg6 harg6 hc0 hc1 x0 x1 x2).2.1 S4096x64.size (by sl_kernel_rfl) y

/-- What the point leaves in the accumulator: its pieces read back. -/
def sout1A (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : first1 i) (hc1 : ¬last1 i) (x0 : Vec F S1x4096x128 .f32) (x1 : Vec F S1x128x64 .f32) (x2 : Vec F S1x1x64 .f32) : Vec F S4096x64 .f32 :=
  accV1.read (Elt F) (accV1.writes (Elt F) accV1.junk (run1A c i arg2 harg2 arg3 harg3 arg4 harg4 arg5 harg5 arg6 harg6 hc0 hc1 x0 x1 x2).2.1)

/-- The accumulator's pieces at such a point tile it. -/
theorem scover1B (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : ¬last1 i) (x0 : Vec F S1x4096x128 .f32) (x1 : Vec F S1x128x64 .f32) (x2 : Vec F S1x1x64 .f32) (xs : Vec F S4096x64 .f32) (y : S4096x64.Idx) :
    ∃ pc ∈ (run1B c i arg2 harg2 arg3 harg3 arg4 harg4 arg5 harg5 arg6 harg6 hc0 hc1 x0 x1 x2 xs).2.1, y ∈ pc.1.set :=
  View.cover_of_tiledL (run1B c i arg2 harg2 arg3 harg3 arg4 harg4 arg5 harg5 arg6 harg6 hc0 hc1 x0 x1 x2 xs).2.1 S4096x64.size (by sl_kernel_rfl) y

/-- What the point leaves in the accumulator: its pieces read back. -/
def sout1B (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : ¬last1 i) (x0 : Vec F S1x4096x128 .f32) (x1 : Vec F S1x128x64 .f32) (x2 : Vec F S1x1x64 .f32) (xs : Vec F S4096x64 .f32) : Vec F S4096x64 .f32 :=
  accV1.read (Elt F) (accV1.writes (Elt F) accV1.junk (run1B c i arg2 harg2 arg3 harg3 arg4 harg4 arg5 harg5 arg6 harg6 hc0 hc1 x0 x1 x2 xs).2.1)

/-- The accumulator's pieces at such a point tile it. -/
theorem scover1C (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : last1 i) (x0 : Vec F S1x4096x128 .f32) (x1 : Vec F S1x128x64 .f32) (x2 : Vec F S1x1x64 .f32) (xs : Vec F S4096x64 .f32) (y : S4096x64.Idx) :
    ∃ pc ∈ (run1C c i arg2 harg2 arg3 harg3 arg4 harg4 arg5 harg5 arg6 harg6 hc0 hc1 x0 x1 x2 xs).2.1, y ∈ pc.1.set :=
  View.cover_of_tiledL (run1C c i arg2 harg2 arg3 harg3 arg4 harg4 arg5 harg5 arg6 harg6 hc0 hc1 x0 x1 x2 xs).2.1 S4096x64.size (by sl_kernel_rfl) y

/-- What the point leaves in the accumulator: its pieces read back. -/
def sout1C (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : last1 i) (x0 : Vec F S1x4096x128 .f32) (x1 : Vec F S1x128x64 .f32) (x2 : Vec F S1x1x64 .f32) (xs : Vec F S4096x64 .f32) : Vec F S4096x64 .f32 :=
  accV1.read (Elt F) (accV1.writes (Elt F) accV1.junk (run1C c i arg2 harg2 arg3 harg3 arg4 harg4 arg5 harg5 arg6 harg6 hc0 hc1 x0 x1 x2 xs).2.1)

/-- The output block's pieces at the last point of a tile tile it. -/
theorem cover1C (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : last1 i) (x0 : Vec F S1x4096x128 .f32) (x1 : Vec F S1x128x64 .f32) (x2 : Vec F S1x1x64 .f32) (xs : Vec F S4096x64 .f32) (y : S4096x64.Idx) :
    ∃ pc ∈ (run1C c i arg2 harg2 arg3 harg3 arg4 harg4 arg5 harg5 arg6 harg6 hc0 hc1 x0 x1 x2 xs).1, y ∈ pc.1.set :=
  View.cover_of_tiledL (run1C c i arg2 harg2 arg3 harg3 arg4 harg4 arg5 harg5 arg6 harg6 hc0 hc1 x0 x1 x2 xs).1 S4096x64.size (by sl_kernel_rfl) y

/-- What the last point of a tile leaves in the output block's staging buffer. -/
def out1C (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : last1 i) (x0 : Vec F S1x4096x128 .f32) (x1 : Vec F S1x128x64 .f32) (x2 : Vec F S1x1x64 .f32) (xs : Vec F S4096x64 .f32) : Vec F S4096x64 .f32 :=
  outV1.read (Elt F) (outV1.writes (Elt F) outV1.junk (run1C c i arg2 harg2 arg3 harg3 arg4 harg4 arg5 harg5 arg6 harg6 hc0 hc1 x0 x1 x2 xs).1)

/-! ## The accumulation along the grid -/

/-- What the output block's staging buffer and the accumulator hold after the body at position `n`: the case the
    position is in (first / middle / last of its row tile), run at the point's memrefs and input blocks, over what
    the position before left in the accumulator. -/
def outsAt1 (c : Dev nD) : (n : ℕ) → n < cfg1.N → Vec F S4096x64 .f32 × Vec F S4096x64 .f32
  | 0, hn => (outIdle1, sout1A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) acc1 (Memref.isWhole_whole _) ((hfirst1 ⟨0, hn⟩).mpr (Nat.zero_mod _)) (fun h => (fun h => by (try dsimp only at h); omega) ((hlast1 ⟨0, hn⟩).mp h)) (iblk1 V c 0 ⟨0, hn⟩) (iblk1 V c 1 ⟨0, hn⟩) (iblk1 V c 2 ⟨0, hn⟩))
  | n + 1, hn =>
    if h0 : (n + 1) % 64 = 0 then
      if h1 : (n + 1) % 64 = 63 then
        False.elim (by omega)
      else
        (outIdle1, sout1A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) ((hfirst1 ⟨n + 1, hn⟩).mpr h0) (fun h => h1 ((hlast1 ⟨n + 1, hn⟩).mp h)) (iblk1 V c 0 ⟨n + 1, hn⟩) (iblk1 V c 1 ⟨n + 1, hn⟩) (iblk1 V c 2 ⟨n + 1, hn⟩))
    else
      if h1 : (n + 1) % 64 = 63 then
        (out1C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) (fun h => h0 ((hfirst1 ⟨n + 1, hn⟩).mp h)) ((hlast1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) (fun h => h0 ((hfirst1 ⟨n + 1, hn⟩).mp h)) ((hlast1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outIdle1, sout1B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) (fun h => h0 ((hfirst1 ⟨n + 1, hn⟩).mp h)) (fun h => h1 ((hlast1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 64 = 0) (h1 : ¬t.val % 64 = 63) :
    outsAt1 V c t.val t.isLt = (outIdle1, sout1A c (grid1.coords t) (ms1_0 t) (hs1_0 t) (ms1_1 t) (hs1_1 t) (ms1_2 t) (hs1_2 t) (ms1_3 t) (hs1_3 t) acc1 (Memref.isWhole_whole _) ((hfirst1 t).mpr h0) (fun h => h1 ((hlast1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 64 = 0) (h1 : ¬t.val % 64 = 63) :
    outsAt1 V c t.val t.isLt = (outIdle1, sout1B c (grid1.coords t) (ms1_0 t) (hs1_0 t) (ms1_1 t) (hs1_1 t) (ms1_2 t) (hs1_2 t) (ms1_3 t) (hs1_3 t) acc1 (Memref.isWhole_whole _) (fun h => h0 ((hfirst1 t).mp h)) (fun h => h1 ((hlast1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 64 = 0) (h1 : t.val % 64 = 63) :
    outsAt1 V c t.val t.isLt = (out1C c (grid1.coords t) (ms1_0 t) (hs1_0 t) (ms1_1 t) (hs1_1 t) (ms1_2 t) (hs1_2 t) (ms1_3 t) (hs1_3 t) acc1 (Memref.isWhole_whole _) (fun h => h0 ((hfirst1 t).mp h)) ((hlast1 t).mpr h1) (iblk1 V c 0 t) (iblk1 V c 1 t) (iblk1 V c 2 t) (outsAt1 V c (t.val - 1) (Nat.lt_of_le_of_lt (Nat.sub_le _ _) t.isLt)).2,
      sout1C c (grid1.coords t) (ms1_0 t) (hs1_0 t) (ms1_1 t) (hs1_1 t) (ms1_2 t) (hs1_2 t) (ms1_3 t) (hs1_3 t) acc1 (Memref.isWhole_whole _) (fun h => h0 ((hfirst1 t).mp h)) ((hlast1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the class's invariant (every scoped buffer that is no staging buffer at something); afterwards
    the accumulator at what the point before left in it, the other such buffers at something, the generator register at
    some state. -/
def PhiS1 (c : Dev nD) : (n : ℕ) → n ≤ cfg1.N → sProp 𝕄
  | 0, _ => Pipeline.ΦA spec1 c
  | n + 1, hn => iprop(iprop(owns (c : Thread nD τ) acc1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) acc1 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) acc1 fullShare ((outsAt1 V c (n - 1) (by omega)).2) ∗ rest1 c) ∗ (∃ r, prngReg c r)) := by
  cases n with
  | zero => exact absurd rfl hz
  | succ n => rfl

/-! ## The proof data -/

/-- The arrays as the region finds them; after the body at a point each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position says which of the three cases the
    point is in; the invariant hands the body the accumulator at what the point before left (at anything at the very
    first point) and takes it back at this point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val % 64 = 0
  · by_cases h1 : t.val % 64 = 63
    · exfalso; omega
    · rw [show (dat1 V c).leavesExact 0 t = owns (c : Thread nD τ) (ms1_0 t) fullShare ((dat1 V c).after 0 t) from by unfold Dat.leavesExact; rw [live1_0 t], after1_0]
      rw [show (dat1 V c).leavesExact 1 t = owns (c : Thread nD τ) (ms1_1 t) fullShare ((dat1 V c).after 1 t) from by unfold Dat.leavesExact; rw [live1_1 t], after1_1]
      rw [show (dat1 V c).leavesExact 2 t = owns (c : Thread nD τ) (ms1_2 t) fullShare ((dat1 V c).after 2 t) from by unfold Dat.leavesExact; rw [live1_2 t], after1_2]
      rw [Dat.leavesExact_idle (dat1 V c) 3 t (idle1_3 t (fun h => h1 ((hlast1 t).mp h))) (noFlush1_3 t (fun h => h1 ((hlast1 t).mp h)))]
      rw [outsAt1_A V c t h0 h1]
      unfold sout1A; (try dsimp only)
      by_cases hz : t.val = 0
      · rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩⟩
        iapply ((run1A c (grid1.coords t) _ _ _ _ _ _ _ _ _ _ ((hfirst1 t).mpr h0) (fun h => h1 ((hlast1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (scover1A c _ _ _ _ _ _ _ _ _ _ _ _ _ _ _ _ )
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩⟩
        iapply ((run1A c (grid1.coords t) _ _ _ _ _ _ _ _ _ _ ((hfirst1 t).mpr h0) (fun h => h1 ((hlast1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (scover1A c _ _ _ _ _ _ _ _ _ _ _ _ _ _ _ _ )
            iexact HR
          iexact Hg
        isplitl [Ho]; · iexact Ho
        isplitl [H0]; · iexact H0
        isplitl [H1]; · iexact H1
        isplitl [H2]; · iexact H2
        iexists _; iexact H3
  · by_cases h1 : t.val % 64 = 63
    · rw [show (dat1 V c).leavesExact 0 t = owns (c : Thread nD τ) (ms1_0 t) fullShare ((dat1 V c).after 0 t) from by unfold Dat.leavesExact; rw [live1_0 t], after1_0]
      rw [show (dat1 V c).leavesExact 1 t = owns (c : Thread nD τ) (ms1_1 t) fullShare ((dat1 V c).after 1 t) from by unfold Dat.leavesExact; rw [live1_1 t], after1_1]
      rw [show (dat1 V c).leavesExact 2 t = owns (c : Thread nD τ) (ms1_2 t) fullShare ((dat1 V c).after 2 t) from by unfold Dat.leavesExact; rw [live1_2 t], after1_2]
      rw [show (dat1 V c).leavesExact 3 t = owns (c : Thread nD τ) (ms1_3 t) fullShare ((dat1 V c).after 3 t) from by unfold Dat.leavesExact; rw [live1_3 t ((hlast1 t).mpr h1)], after1_3]
      rw [outsAt1_C V c t h0 h1]
      unfold out1C sout1C; (try dsimp only)
      have hz : t.val ≠ 0 := by omega
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((run1C c (grid1.coords t) _ _ _ _ _ _ _ _ _ _ (fun h => h0 ((hfirst1 t).mp h)) ((hlast1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1C c _ _ _ _ _ _ _ _ _ _ _ _ _ _ _ _ _ )
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1C c _ _ _ _ _ _ _ _ _ _ _ _ _ _ _ _ _ )
    · rw [show (dat1 V c).leavesExact 0 t = owns (c : Thread nD τ) (ms1_0 t) fullShare ((dat1 V c).after 0 t) from by unfold Dat.leavesExact; rw [live1_0 t], after1_0]
      rw [show (dat1 V c).leavesExact 1 t = owns (c : Thread nD τ) (ms1_1 t) fullShare ((dat1 V c).after 1 t) from by unfold Dat.leavesExact; rw [live1_1 t], after1_1]
      rw [show (dat1 V c).leavesExact 2 t = owns (c : Thread nD τ) (ms1_2 t) fullShare ((dat1 V c).after 2 t) from by unfold Dat.leavesExact; rw [live1_2 t], after1_2]
      rw [Dat.leavesExact_idle (dat1 V c) 3 t (idle1_3 t (fun h => h1 ((hlast1 t).mp h))) (noFlush1_3 t (fun h => h1 ((hlast1 t).mp h)))]
      rw [outsAt1_B V c t h0 h1]
      unfold sout1B; (try dsimp only)
      by_cases hz : t.val = 0
      · exfalso; omega
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩⟩
        iapply ((run1B c (grid1.coords t) _ _ _ _ _ _ _ _ _ _ (fun h => h0 ((hfirst1 t).mp h)) (fun h => h1 ((hlast1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (scover1B c _ _ _ _ _ _ _ _ _ _ _ _ _ _ _ _ _ )
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

theorem hout1 (c : Dev nD) : (dat1 V c).Φ (Fin.last cfg1.N) ⊢ Pipeline.ΦA spec1 c :=
  Phi_out1 V c _ (by rw [Fin.val_last]; have : cfg1.N = 256 := N_1; omega)

/-- The invariant after the last point, in the shape a region's record asks: the generator register, no semaphore of the
    kernel's own, and the scoped buffers that are no staging buffer. -/
theorem hout1' (c : Dev nD) : (dat1 V c).Φ (Fin.last cfg1.N)
    ⊢ iprop((∃ r, prngReg c r) ∗ (BI.emp : sProp 𝕄) ∗ Pipeline.scopedRest (Ix := Unit) (Name := ℕ) (U := UR sig nD τ) (Lvl := ℕ) (Val := Elt F) spec1 c) := by
  have h2 : (Pipeline.ΦA spec1 c : sProp 𝕄)
      ⊢ iprop((∃ r, prngReg c r) ∗ (BI.emp : sProp 𝕄) ∗ Pipeline.scopedRest (Ix := Unit) (Name := ℕ) (U := UR sig nD τ) (Lvl := ℕ) (Val := Elt F) spec1 c) := by
    unfold Pipeline.ΦA
    iintro ⟨Hr, Hp⟩
    isplitl [Hp]; · iexact Hp
    isplitr; · iempintro
    iexact Hr
  exact BI.Entails.trans (hout1 V c) h2

end Cert.Kernel.Hand

end
-- ==== Proof.KB.Run2.lean ====
/-
  The BiLSTM kernel's body (one grid point per tile of 4096 rows; both directions' gates, the elementwise chain and the
  join of the two halves): run from its four input blocks to the pieces it stores into the output block.
-/
import proofs.«145989_j32908039422281_1_alg».proof.Proof.KB.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging memref at point `t`, and that it is a whole buffer. -/
abbrev ms2_0 (t : Fin cfg2.N) : Memref sig .tc .vmem S4096x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2x128x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x64 .f32 := win2_4.stage (cfg2.slots t 4)
abbrev hs2_4 (t : Fin cfg2.N) : (ms2_4 t).IsWhole := hstage2_4 ((cfg2.slots t 4).cast nbuf2_4)
/-- One staging buffer of the output window, through which its contents are stated. -/
abbrev outV2 : View sig .tc .vmem S4096x64 .f32 := (Memref.whole cc2_stg4_0 : Memref sig .tc .vmem S4096x64 .f32).view

set_option maxHeartbeats 1000000 in
noncomputable def run2 (c : Dev nD) (i : grid2.Coords) (arg1 : Memref sig .tc .vmem S4096x64 .f32) (harg1 : arg1.IsWhole) (arg2 : Memref sig .tc .vmem S2x128x64 .f32) (harg2 : arg2.IsWhole) (arg3 : Memref sig .tc .vmem S2x128 .f32) (harg3 : arg3.IsWhole) (arg4 : Memref sig .tc .vmem S2x128 .f32) (harg4 : arg4.IsWhole) (arg5 : Memref sig .tc .vmem S4096x64 .f32) (harg5 : arg5.IsWhole)
    (x0 : Vec F S4096x64 .f32) (x1 : Vec F S2x128x64 .f32) (x2 : Vec F S2x128 .f32) (x3 : Vec F S2x128 .f32) :
    { L4 : List (View.Piece (Elt F) S4096x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc2__bilstm_kernel i arg1 harg1 arg2 harg2 arg3 harg3 arg4 harg4 arg5 harg5) K } := by
  refine ⟨?_, fun E K => ?run⟩
  case run =>
    simp only [cc2__bilstm_kernel_eq_skeleton]; unfold cc2__bilstm_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.KB.Region2.lean ====
/-
  The BiLSTM region (pipeline 2) at any contents `V` of the TensorCore's buffers when the region is entered: what a point
  leaves in the output block (its stored pieces read back), the proof data, and the body obligation at every point. The
  weights and the two bias arrays are fetched once (their block index does not move) and found in place afterwards.
-/
import proofs.«145989_j32908039422281_1_alg».proof.Proof.KB.Run2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The output block's pieces tile it. -/
theorem cover2 (c : Dev nD) (i : grid2.Coords) (arg1 : Memref sig .tc .vmem S4096x64 .f32) (harg1 : arg1.IsWhole) (arg2 : Memref sig .tc .vmem S2x128x64 .f32) (harg2 : arg2.IsWhole) (arg3 : Memref sig .tc .vmem S2x128 .f32) (harg3 : arg3.IsWhole) (arg4 : Memref sig .tc .vmem S2x128 .f32) (harg4 : arg4.IsWhole) (arg5 : Memref sig .tc .vmem S4096x64 .f32) (harg5 : arg5.IsWhole) (x0 : Vec F S4096x64 .f32) (x1 : Vec F S2x128x64 .f32) (x2 : Vec F S2x128 .f32) (x3 : Vec F S2x128 .f32) (y : S4096x64.Idx) :
    ∃ pc ∈ (run2 c i arg1 harg1 arg2 harg2 arg3 harg3 arg4 harg4 arg5 harg5 x0 x1 x2 x3).1, y ∈ pc.1.set :=
  View.cover_of_tiledL (run2 c i arg1 harg1 arg2 harg2 arg3 harg3 arg4 harg4 arg5 harg5 x0 x1 x2 x3).1 S4096x64.size (by sl_kernel_rfl) y

/-- What a point leaves in the output block's staging buffer. -/
def out2 (c : Dev nD) (i : grid2.Coords) (arg1 : Memref sig .tc .vmem S4096x64 .f32) (harg1 : arg1.IsWhole) (arg2 : Memref sig .tc .vmem S2x128x64 .f32) (harg2 : arg2.IsWhole) (arg3 : Memref sig .tc .vmem S2x128 .f32) (harg3 : arg3.IsWhole) (arg4 : Memref sig .tc .vmem S2x128 .f32) (harg4 : arg4.IsWhole) (arg5 : Memref sig .tc .vmem S4096x64 .f32) (harg5 : arg5.IsWhole) (x0 : Vec F S4096x64 .f32) (x1 : Vec F S2x128x64 .f32) (x2 : Vec F S2x128 .f32) (x3 : Vec F S2x128 .f32) : Vec F S4096x64 .f32 :=
  outV2.read (Elt F) (outV2.writes (Elt F) outV2.junk (run2 c i arg1 harg1 arg2 harg2 arg3 harg3 arg4 harg4 arg5 harg5 x0 x1 x2 x3).1)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  unfold out2
  iintro ⟨HΦ, Ho, ⟨%d0, H0⟩, ⟨%d1, H1⟩, ⟨%d2, H2⟩, ⟨%d3, H3⟩, ⟨%d4, H4⟩⟩
  iapply ((run2 c (grid2.coords t) _ _ _ _ _ _ _ _ _ _ (iblk2 V c 0 t) (iblk2 V c 1 t) (iblk2 V c 2 t) (iblk2 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2 c _ _ _ _ _ _ _ _ _ _ _ _ _ _ _ )

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.RunCond.lean ====
/-
  The whole run of @main from one segment record per kernel region. Each stretch of host operations runs from the
  contents the item before it left; each region is entered from the thread state before it and left at the one after it,
  as its record says; the launch hands every core its unscoped buffers at the launch contents. What is read at the end is
  every unscoped buffer of the core at the last valuation `V16`, so that the result array is read beside the arguments.
-/
import proofs.«145989_j32908039422281_1_alg».proof.Proof.Gen.Kernel.Regions

set_option maxRecDepth 1180

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V14 m outs c) ∗ E 2 c) ⊢ R2.pre c)
    (hpost2 : ∀ c : Dev nD, R2.post c ⊢ iprop(StableHlo.held (c : Thread nD τ) (Pipeline.ucRefs τ sig) (V15 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V16 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, .rfl, .rfl, .rfl, .rfl, hpre0 c, hpost0 c, .rfl, .rfl, hpre1 c, hpost1 c, .rfl, hpre2 c, hpost2 c, sep_mono .rfl (hE3 c)⟩)
    (hinit := ?_) (QY := fun c s => ∀ b ∈ Pipeline.ucRefs τ sig, s.mem (((c : Thread nD τ)).1, b) = V16 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    imodintro
    iapply (pointsTo_read_all (Pipeline.ucRefs τ sig) (fun b => ((c : Thread nD τ).1, b)) (V16 m outs c) s')
    isplitl [Hh] <;> iassumption

end Cert.Kernel.Hand

end
-- ==== Proof.KB.Whole.lean ====
/-
  The whole program: @main is sixteen items, thirteen stretches of host operations around three kernel regions (graph
  convolution 1, graph convolution 2, the BiLSTM). What a region leaves in its output array is what the pipeline library
  computes from that region's proof data (`X0`, `X1`, `X2`: the write-backs folded over the entry contents); the contents
  between items are the generated fold `V0 … V16` at those three arrays. Each region is entered from the contents the
  items before it leave, so its proof data is stated at them: region 1's at what region 0 left, region 2's at what
  regions 0 and 1 left. The run ends with every unscoped buffer at `V16`; the arguments are read back as launched and
  the result array as `V16` at it.
-/
import proofs.«145989_j32908039422281_1_alg».proof.Proof.KB.Region0
import proofs.«145989_j32908039422281_1_alg».proof.Proof.KB.Region1
import proofs.«145989_j32908039422281_1_alg».proof.Proof.KB.Region2
import proofs.«145989_j32908039422281_1_alg».proof.Proof.KB.RunCond
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, one after the other -/

/-- The TensorCore's buffers when graph convolution 1 is entered. -/
abbrev E7 : (c : Dev nD) → (b : Ref sig .tc) → Buf (Elt F) ((c : Thread nD τ).loc b) := fun c b => V7 m c b
/-- What graph convolution 1 leaves in its output array. -/
def X0 (c : Dev nD) : Buf (Elt F) ((c : Thread nD τ).loc main_v63) := (dat0 (E7 m) c).arrAt 3 cfg0.N
/-- The regions' outputs known so far: graph convolution 1's. -/
def outsA : Outs (F := F) := fun _ r c =>
  if h : r = main_v63 then h ▸ X0 m c else m ((c : Thread nD τ).loc r)
/-- The TensorCore's buffers when graph convolution 2 is entered. -/
abbrev E11 : (c : Dev nD) → (b : Ref sig .tc) → Buf (Elt F) ((c : Thread nD τ).loc b) := fun c b => V11 m (outsA m) c b
/-- What graph convolution 2 leaves in its output array. -/
def X1 (c : Dev nD) : Buf (Elt F) ((c : Thread nD τ).loc main_v92) := (dat1 (E11 m) c).arrAt 3 cfg1.N
def outsB : Outs (F := F) := fun _ r c =>
  if h : r = main_v63 then h ▸ X0 m c else if h : r = main_v92 then h ▸ X1 m c else m ((c : Thread nD τ).loc r)
/-- The TensorCore's buffers when the BiLSTM region is entered. -/
abbrev E14 : (c : Dev nD) → (b : Ref sig .tc) → Buf (Elt F) ((c : Thread nD τ).loc b) := fun c b => V14 m (outsB m) c b
/-- What the BiLSTM region leaves in its output array. -/
def X2 (c : Dev nD) : Buf (Elt F) ((c : Thread nD τ).loc main_v95) := (dat2 (E14 m) c).arrAt 4 cfg2.N
/-- All three regions' outputs. -/
def outsC : Outs (F := F) := fun _ r c =>
  if h : r = main_v63 then h ▸ X0 m c else if h : r = main_v92 then h ▸ X1 m c else if h : r = main_v95 then h ▸ X2 m c else m ((c : Thread nD τ).loc r)

theorem outsA_63 (J : ℕ) (c : Dev nD) : outsA m J main_v63 c = X0 m c := by unfold outsA; rw [dif_pos rfl]
theorem outsB_63 (J : ℕ) (c : Dev nD) : outsB m J main_v63 c = X0 m c := by unfold outsB; rw [dif_pos rfl]
theorem outsC_63 (J : ℕ) (c : Dev nD) : outsC m J main_v63 c = X0 m c := by unfold outsC; rw [dif_pos rfl]
theorem outsB_92 (J : ℕ) (c : Dev nD) : outsB m J main_v92 c = X1 m c := by
  unfold outsB; rw [dif_neg (by decide), dif_pos rfl]
theorem outsC_92 (J : ℕ) (c : Dev nD) : outsC m J main_v92 c = X1 m c := by
  unfold outsC; rw [dif_neg (by decide), dif_pos rfl]
theorem outsC_95 (J : ℕ) (c : Dev nD) : outsC m J main_v95 c = X2 m c := by
  unfold outsC; rw [dif_neg (by decide), dif_neg (by decide), dif_pos rfl]

/-- The contents before graph convolution 2 depend on the regions' outputs through graph convolution 1's only. -/
theorem V11_eq (c : Dev nD) : V11 m (outsC m) c = V11 m (outsA m) c := by
  unfold V11 V10 V9 V8; rw [outsC_63, outsA_63]
/-- The contents before the BiLSTM region depend on them through the two graph convolutions' only. -/
theorem V14_eq (c : Dev nD) : V14 m (outsC m) c = V14 m (outsB m) c := by
  unfold V14 V13 V12 V11 V10 V9 V8; rw [outsC_63, outsB_63, outsC_92, outsB_92]

/-! ## The proof data family -/

def pdats : (p : Fin 3) → (c : Dev nD) → Dat τ (Elt F) Unit ℕ (UR sig nD τ) ℕ (cfgs p) c
  | ⟨0, _⟩ => fun c => dat0 (E7 m) c
  | ⟨1, _⟩ => fun c => dat1 (E11 m) c
  | ⟨2, _⟩ => fun c => dat2 (E14 m) c

abbrev L : GSem nD τ sig → Finset Unit := fun _ => ∅
abbrev lv : GSem nD τ sig → Unit → ℕ := fun _ _ => 0
/-- What rides beside the buffers through every item: the generator register at some state and the core owing nothing. -/
abbrev RR (c : Dev nD) : sProp 𝕄 := iprop((∃ r, prngReg c r) ∗ ∃ W, owes (c : Thread nD τ) (0 : CellTallies nD τ sig Unit) W)

/-! ## Each region's arrays at its exit -/

theorem hF0 (c : Dev nD) (w : Fin cfg0.W) : (dat0 (E7 m) c).arrAt w cfg0.N = V8 m (outsC m) c (Pipeline.arrRef spec0 w) := by
  fin_cases w
  · exact ((dat0 (E7 m) c).arrAt_in 0 rfl _).trans ((A_eq0 (E7 m) c 0).trans (V8_of m (outsC m) c _ (by decide)).symm)
  · exact ((dat0 (E7 m) c).arrAt_in 1 rfl _).trans ((A_eq0 (E7 m) c 1).trans (V8_of m (outsC m) c _ (by decide)).symm)
  · exact ((dat0 (E7 m) c).arrAt_in 2 rfl _).trans ((A_eq0 (E7 m) c 2).trans (V8_of m (outsC m) c _ (by decide)).symm)
  · show (dat0 (E7 m) c).arrAt 3 cfg0.N = V8 m (outsC m) c main_v63
    unfold V8; rw [Function.update_self, outsC_63]; rfl

theorem hrest0 (c : Dev nD) : ∀ b, b ∉ Finset.univ.image (Pipeline.arrRef spec0) → V8 m (outsC m) c b = E7 m c b := fun b hb => by
  have hne : b ∉ ([main_v63] : List (Ref sig .tc)) := fun h => hb (by
    rw [List.mem_singleton] at h; subst h; exact Finset.mem_image.mpr ⟨3, Finset.mem_univ _, rfl⟩)
  exact V8_of m (outsC m) c b hne

theorem hF1 (c : Dev nD) (w : Fin cfg1.W) : (dat1 (E11 m) c).arrAt w cfg1.N = V12 m (outsC m) c (Pipeline.arrRef spec1 w) := by
  fin_cases w
  · exact ((dat1 (E11 m) c).arrAt_in 0 rfl _).trans ((A_eq1 (E11 m) c 0).trans (((V12_of m (outsC m) c _ (by decide)).trans (congrFun (V11_eq m c) _)).symm))
  · exact ((dat1 (E11 m) c).arrAt_in 1 rfl _).trans ((A_eq1 (E11 m) c 1).trans (((V12_of m (outsC m) c _ (by decide)).trans (congrFun (V11_eq m c) _)).symm))
  · exact ((dat1 (E11 m) c).arrAt_in 2 rfl _).trans ((A_eq1 (E11 m) c 2).trans (((V12_of m (outsC m) c _ (by decide)).trans (congrFun (V11_eq m c) _)).symm))
  · show (dat1 (E11 m) c).arrAt 3 cfg1.N = V12 m (outsC m) c main_v92
    unfold V12; rw [Function.update_self, outsC_92]; rfl

theorem hrest1 (c : Dev nD) : ∀ b, b ∉ Finset.univ.image (Pipeline.arrRef spec1) → V12 m (outsC m) c b = E11 m c b := fun b hb => by
  have hne : b ∉ ([main_v92] : List (Ref sig .tc)) := fun h => hb (by
    rw [List.mem_singleton] at h; subst h; exact Finset.mem_image.mpr ⟨3, Finset.mem_univ _, rfl⟩)
  exact (V12_of m (outsC m) c b hne).trans (congrFun (V11_eq m c) _)

theorem hF2 (c : Dev nD) (w : Fin cfg2.W) : (dat2 (E14 m) c).arrAt w cfg2.N = V15 m (outsC m) c (Pipeline.arrRef spec2 w) := by
  fin_cases w
  · exact ((dat2 (E14 m) c).arrAt_in 0 rfl _).trans ((A_eq2 (E14 m) c 0).trans (((V15_of m (outsC m) c _ (by decide)).trans (congrFun (V14_eq m c) _)).symm))
  · exact ((dat2 (E14 m) c).arrAt_in 1 rfl _).trans ((A_eq2 (E14 m) c 1).trans (((V15_of m (outsC m) c _ (by decide)).trans (congrFun (V14_eq m c) _)).symm))
  · exact ((dat2 (E14 m) c).arrAt_in 2 rfl _).trans ((A_eq2 (E14 m) c 2).trans (((V15_of m (outsC m) c _ (by decide)).trans (congrFun (V14_eq m c) _)).symm))
  · exact ((dat2 (E14 m) c).arrAt_in 3 rfl _).trans ((A_eq2 (E14 m) c 3).trans (((V15_of m (outsC m) c _ (by decide)).trans (congrFun (V14_eq m c) _)).symm))
  · show (dat2 (E14 m) c).arrAt 4 cfg2.N = V15 m (outsC m) c main_v95
    unfold V15; rw [Function.update_self, outsC_95]; rfl

theorem hrest2 (c : Dev nD) : ∀ b, b ∉ Finset.univ.image (Pipeline.arrRef spec2) → V15 m (outsC m) c b = E14 m c b := fun b hb => by
  have hne : b ∉ ([main_v95] : List (Ref sig .tc)) := fun h => hb (by
    rw [List.mem_singleton] at h; subst h; exact Finset.mem_image.mpr ⟨4, Finset.mem_univ _, rfl⟩)
  exact (V15_of m (outsC m) c b hne).trans (congrFun (V14_eq m c) _)

/-! ## The regions as segments -/

set_option backward.isDefEq.respectTransparency.types false in
/-- Region 0 over the thread state "every unscoped buffer at the boundary's contents, the generator register at some state,
    nothing owed": its arrays split out of the unscoped buffers at entry and put back at the exit contents; the generator
    register into the invariant and out; no semaphore of the kernel's own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E7 m) c).loose
  hwaits := Pipeline.hwaits_of_owed_zero _ _ _ _ L lv 0 fun _ _ => rfl
  pre c := iprop(StableHlo.held (c : Thread nD τ) (Pipeline.ucRefs τ sig) (V7 m c) ∗ RR c)
  post c := iprop(StableHlo.held (c : Thread nD τ) (Pipeline.ucRefs τ sig) (V8 m (outsC m) c) ∗ RR c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact hout0' (E7 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E7 m c) (fun b => V8 m (outsC m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some state,
    nothing owed": its arrays split out of the unscoped buffers at entry and put back at the exit contents; the generator
    register into the invariant and out; no semaphore of the kernel's own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E11 m) c).loose
  hwaits := Pipeline.hwaits_of_owed_zero _ _ _ _ L lv 1 fun _ _ => rfl
  pre c := iprop(StableHlo.held (c : Thread nD τ) (Pipeline.ucRefs τ sig) (V11 m (outsA m) c) ∗ RR c)
  post c := iprop(StableHlo.held (c : Thread nD τ) (Pipeline.ucRefs τ sig) (V12 m (outsC m) c) ∗ RR c)
  X c := iprop(∃ r, prngReg c r)
  Y c := iprop(∃ r, prngReg c r)
  Z c := Pipeline.unscopedRest (Ix := Unit) (Name := ℕ) (U := UR sig nD τ) (Lvl := ℕ) spec1 c (E11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact hout1' (E11 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E11 m c) (fun b => V12 m (outsC m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some state,
    nothing owed": its arrays split out of the unscoped buffers at entry and put back at the exit contents; the generator
    register into the invariant and out; no semaphore of the kernel's own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (E14 m) c).loose
  hwaits := Pipeline.hwaits_of_owed_zero _ _ _ _ L lv 2 fun _ _ => rfl
  pre c := iprop(StableHlo.held (c : Thread nD τ) (Pipeline.ucRefs τ sig) (V14 m (outsB m) c) ∗ RR c)
  post c := iprop(StableHlo.held (c : Thread nD τ) (Pipeline.ucRefs τ sig) (V15 m (outsC m) c) ∗ RR c)
  X c := iprop(∃ r, prngReg c r)
  Y c := iprop(∃ r, prngReg c r)
  Z c := Pipeline.unscopedRest (Ix := Unit) (Name := ℕ) (U := UR sig nD τ) (Lvl := ℕ) spec2 c (E14 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E14 m c) (fun b => V15 m (outsC m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- At the launch a core's generator register and its empty dues make what rides beside the buffers. -/
theorem hRR (c : Dev nD) : (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
    ⊢ RR (F := F) c := by
  iintro ⟨-, HO, -, Hp, -⟩
  isplitl [Hp]; · iexists _; iexact Hp
  iexists ∅; iexact HO

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => RR (F := F) c) : sProp 𝕄) := by
  have h1 : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
      ⊢ (bigSep Finset.univ (fun c : Dev nD => RR (F := F) c) : sProp 𝕄) :=
    bigSep_mono fun c _ => hRR ρ c
  iintro ⟨H, -⟩
  imodintro
  iapply h1
  iexact H

set_option backward.isDefEq.respectTransparency.types false in
/-- Every weakly fair execution of @main from `m` with zero counters terminates, and every final memory holds every
    unscoped buffer of each core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V16 m (outsC m) c b) :=
  run_cond m (outsC m) emb₁ () Variants.none L lv (fun _ _ => rfl) ρ (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => RR c)
    (hE0 ρ)
    (fun c => by iintro ⟨-, HO⟩; iexact HO)
    (reg0 m) (fun c => .rfl) (fun c => .rfl)
    (reg1 m) (fun c => by rw [V11_eq]; exact .rfl) (fun c => .rfl)
    (reg2 m) (fun c => by rw [V14_eq]; exact .rfl) (fun c => .rfl)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the result array and the arguments read off the last valuation: the result array ends at `V16` at it, every
    argument as launched (no host stretch writes an argument and no region may change one). -/
theorem run_value : θ_run defs (onTc (τ := τ) (main (F := F))) ⟨m, fun _ => 0, ρ⟩ (fun r => ∀ c : Dev nD,
      r.2.mem ((c.tc : Thread nD τ).loc main_v96) = V16 m (outsC m) c main_v96
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v96 (by decide)),
      (h c _ (mem_uc main_arg0 (by decide))).trans (V16_main_arg0 m (outsC m) c),
      (h c _ (mem_uc main_arg1 (by decide))).trans (V16_main_arg1 m (outsC m) c),
      (h c _ (mem_uc main_arg2 (by decide))).trans (V16_main_arg2 m (outsC m) c),
      (h c _ (mem_uc main_arg3 (by decide))).trans (V16_main_arg3 m (outsC m) c),
      (h c _ (mem_uc main_arg4 (by decide))).trans (V16_main_arg4 m (outsC m) c),
      (h c _ (mem_uc main_arg5 (by decide))).trans (V16_main_arg5 m (outsC m) c),
      (h c _ (mem_uc main_arg6 (by decide))).trans (V16_main_arg6 m (outsC m) c),
      (h c _ (mem_uc main_arg7 (by decide))).trans (V16_main_arg7 m (outsC m) c),
      (h c _ (mem_uc main_arg8 (by decide))).trans (V16_main_arg8 m (outsC m) c),
      (h c _ (mem_uc main_arg9 (by decide))).trans (V16_main_arg9 m (outsC m) c),
      (h c _ (mem_uc main_arg10 (by decide))).trans (V16_main_arg10 m (outsC m) c),
      (h c _ (mem_uc main_arg11 (by decide))).trans (V16_main_arg11 m (outsC m) c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_value m ρ)

end Cert.Kernel.Hand

end
-- ==== Proof.KI.Shared.lean ====
/-
  The two graph-convolution kernels run over a grid of 4 row tiles × 64 relations, the relation axis innermost.
  A point is the first of its tile's 64 when its relation index is 0 (the accumulator is cleared there) and the
  last when it is 63 (the mean is stored to the output block there). This module decides those conditions over
  the grid, says where the output window is idle (every point but the last of a tile), names each window's
  current staging memref at a point, and splits the accumulator out of the kernel's scoped rest.
-/
import proofs.«145989_j32908039422281_1_alg».proof.Proof.Gen.KernelIdeal.Launch
import proofs.«145989_j32908039422281_1_alg».proof.Proof.Gen.KernelIdeal.Skeleton
import proofs.«145989_j32908039422281_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Graph convolution 1 (pipeline 0) -/

/-- The point is the first of its row tile: relation index 0. -/
abbrev first0 (i : grid0.Coords) : Prop := (Scalar.cmpi .ne (Scalar.extui (Scalar.cmpi .eq (BitVec.ofNat 32 (i 1).val) 0#32)) 0#32) = 1#1
theorem hfirst0 : ∀ t : Fin cfg0.N, first0 (grid0.coords t) ↔ t.val % 64 = 0 :=
  (by decide +kernel : ∀ t : Fin grid0.N, first0 (grid0.coords t) ↔ t.val % 64 = 0)
/-- The point is the last of its row tile: relation index 63. -/
abbrev last0 (i : grid0.Coords) : Prop := k0_cond2 i = 1#1
theorem hlast0 : ∀ t : Fin cfg0.N, last0 (grid0.coords t) ↔ t.val % 64 = 63 :=
  (by decide +kernel : ∀ t : Fin grid0.N, last0 (grid0.coords t) ↔ t.val % 64 = 63)

theorem live0_0 : ∀ t : Fin cfg0.N, cfg0.idle 0 (grid0.coords t) = false := (by decide +kernel : ∀ t : Fin grid0.N, cfg0.idle 0 (grid0.coords t) = false)
theorem live0_1 : ∀ t : Fin cfg0.N, cfg0.idle 1 (grid0.coords t) = false := (by decide +kernel : ∀ t : Fin grid0.N, cfg0.idle 1 (grid0.coords t) = false)
theorem live0_2 : ∀ t : Fin cfg0.N, cfg0.idle 2 (grid0.coords t) = false := (by decide +kernel : ∀ t : Fin grid0.N, cfg0.idle 2 (grid0.coords t) = false)
/-- Before the last point of a tile nothing is stored to the output block: the window is idle and not written back. -/
theorem idle0_3 : ∀ t : Fin cfg0.N, ¬last0 (grid0.coords t) → cfg0.idle 3 (grid0.coords t) = true :=
  (by decide +kernel : ∀ t : Fin grid0.N, ¬last0 (grid0.coords t) → cfg0.idle 3 (grid0.coords t) = true)
theorem noFlush0_3 : ∀ t : Fin cfg0.N, ¬last0 (grid0.coords t) → (cfg0.win 3).flush t = false :=
  (by decide +kernel : ∀ t : Fin grid0.N, ¬last0 (grid0.coords t) → win0_3.flush t = false)
theorem live0_3 : ∀ t : Fin cfg0.N, last0 (grid0.coords t) → cfg0.idle 3 (grid0.coords t) = false :=
  (by decide +kernel : ∀ t : Fin grid0.N, last0 (grid0.coords t) → cfg0.idle 3 (grid0.coords t) = false)

/-- Each window's current staging memref at point `t`, and that it is a whole buffer. -/
abbrev ms0_0 (t : Fin cfg0.N) : Memref sig .tc .vmem S1x4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev acc0 : Memref sig .tc .vmem S4096x128 .f32 := Memref.whole cc0_scratch0
abbrev accV0 : View sig .tc .vmem S4096x128 .f32 := (acc0).view
/-- One staging buffer of the output window, through which its contents are stated. -/
abbrev outV0 : View sig .tc .vmem S4096x128 .f32 := (Memref.whole cc0_stg3_0 : Memref sig .tc .vmem S4096x128 .f32).view

/-- The scoped buffers that are neither a staging buffer of this call nor its accumulator, each at some contents. -/
abbrev rest0 (c : Dev nD) : sProp 𝕄 :=
  Pipeline.scopedRestBut (Ix := Unit) (Name := ℕ) (U := UR sig nD τ) (Lvl := ℕ) (Val := Elt F) spec0 c [cc0_scratch0]

/-- The class invariant with the accumulator split out as an owned memref. -/
theorem PhiA0_eq (c : Dev nD) :
    (Pipeline.ΦA spec0 c : sProp 𝕄)
      = iprop(iprop((∃ d, owns (c : Thread nD τ) acc0 fullShare d) ∗ rest0 c) ∗ (∃ r, prngReg c r)) := by
  unfold Pipeline.ΦA
  rw [Pipeline.scopedRest_split_of_list spec0 c [cc0_scratch0] (by decide) (by decide)]
  simp only [acc0, owns_whole, bigSepL]
  rfl

/-! ## Graph convolution 2 (pipeline 1) -/

/-- The point is the first of its row tile: relation index 0. -/
abbrev first1 (i : grid1.Coords) : Prop := (Scalar.cmpi .ne (Scalar.extui (Scalar.cmpi .eq (BitVec.ofNat 32 (i 1).val) 0#32)) 0#32) = 1#1
theorem hfirst1 : ∀ t : Fin cfg1.N, first1 (grid1.coords t) ↔ t.val % 64 = 0 :=
  (by decide +kernel : ∀ t : Fin grid1.N, first1 (grid1.coords t) ↔ t.val % 64 = 0)
/-- The point is the last of its row tile: relation index 63. -/
abbrev last1 (i : grid1.Coords) : Prop := k1_cond2 i = 1#1
theorem hlast1 : ∀ t : Fin cfg1.N, last1 (grid1.coords t) ↔ t.val % 64 = 63 :=
  (by decide +kernel : ∀ t : Fin grid1.N, last1 (grid1.coords t) ↔ t.val % 64 = 63)

theorem live1_0 : ∀ t : Fin cfg1.N, cfg1.idle 0 (grid1.coords t) = false := (by decide +kernel : ∀ t : Fin grid1.N, cfg1.idle 0 (grid1.coords t) = false)
theorem live1_1 : ∀ t : Fin cfg1.N, cfg1.idle 1 (grid1.coords t) = false := (by decide +kernel : ∀ t : Fin grid1.N, cfg1.idle 1 (grid1.coords t) = false)
theorem live1_2 : ∀ t : Fin cfg1.N, cfg1.idle 2 (grid1.coords t) = false := (by decide +kernel : ∀ t : Fin grid1.N, cfg1.idle 2 (grid1.coords t) = false)
/-- Before the last point of a tile nothing is stored to the output block: the window is idle and not written back. -/
theorem idle1_3 : ∀ t : Fin cfg1.N, ¬last1 (grid1.coords t) → cfg1.idle 3 (grid1.coords t) = true :=
  (by decide +kernel : ∀ t : Fin grid1.N, ¬last1 (grid1.coords t) → cfg1.idle 3 (grid1.coords t) = true)
theorem noFlush1_3 : ∀ t : Fin cfg1.N, ¬last1 (grid1.coords t) → (cfg1.win 3).flush t = false :=
  (by decide +kernel : ∀ t : Fin grid1.N, ¬last1 (grid1.coords t) → win1_3.flush t = false)
theorem live1_3 : ∀ t : Fin cfg1.N, last1 (grid1.coords t) → cfg1.idle 3 (grid1.coords t) = false :=
  (by decide +kernel : ∀ t : Fin grid1.N, last1 (grid1.coords t) → cfg1.idle 3 (grid1.coords t) = false)

/-- Each window's current staging memref at point `t`, and that it is a whole buffer. -/
abbrev ms1_0 (t : Fin cfg1.N) : Memref sig .tc .vmem S1x4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x64 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev acc1 : Memref sig .tc .vmem S4096x64 .f32 := Memref.whole cc1_scratch0
abbrev accV1 : View sig .tc .vmem S4096x64 .f32 := (acc1).view
/-- One staging buffer of the output window, through which its contents are stated. -/
abbrev outV1 : View sig .tc .vmem S4096x64 .f32 := (Memref.whole cc1_stg3_0 : Memref sig .tc .vmem S4096x64 .f32).view

/-- The scoped buffers that are neither a staging buffer of this call nor its accumulator, each at some contents. -/
abbrev rest1 (c : Dev nD) : sProp 𝕄 :=
  Pipeline.scopedRestBut (Ix := Unit) (Name := ℕ) (U := UR sig nD τ) (Lvl := ℕ) (Val := Elt F) spec1 c [cc1_scratch0]

/-- The class invariant with the accumulator split out as an owned memref. -/
theorem PhiA1_eq (c : Dev nD) :
    (Pipeline.ΦA spec1 c : sProp 𝕄)
      = iprop(iprop((∃ d, owns (c : Thread nD τ) acc1 fullShare d) ∗ rest1 c) ∗ (∃ r, prngReg c r)) := by
  unfold Pipeline.ΦA
  rw [Pipeline.scopedRest_split_of_list spec1 c [cc1_scratch0] (by decide) (by decide)]
  simp only [acc1, owns_whole, bigSepL]
  rfl

end Cert.KernelIdeal.Hand

end
-- ==== Proof.KI.Run0A.lean ====
/-
  Graph convolution 1: the kernel body run at the FIRST point of a row tile (the accumulator is cleared, then the relation's term added; nothing is stored to the output block). The witness is the list of pieces
  (rectangle, stored value), last store first, that the run leaves in the accumulator.
-/
import proofs.«145989_j32908039422281_1_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run0A (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : first0 i) (hc1 : ¬last0 i)
    (x0 : Vec F S1x4096x128 .f32) (x1 : Vec F S1x128x128 .f32) (x2 : Vec F S1x1x128 .f32) :
    Σ' (L3 : List (View.Piece (Elt F) S4096x128 .f32)), { LS : List (View.Piece (Elt F) S4096x128 .f32) //
      ∀ (xi3 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__graph_conv_kernel i arg2 harg2 arg3 harg3 arg4 harg4 arg5 harg5 arg6 harg6) K } := by
  refine ⟨[], ?_, fun xi3 E K => ?run⟩
  case run =>
    simp only [cc0__graph_conv_kernel_eq_skeleton]; unfold cc0__graph_conv_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.Run0B.lean ====
/-
  Graph convolution 1: the kernel body run at a MIDDLE point of a row tile (the relation's term is added to the accumulator; nothing is stored to the output block). The witness is the list of pieces
  (rectangle, stored value), last store first, that the run leaves in the accumulator.
-/
import proofs.«145989_j32908039422281_1_alg».proof.Proof.KI.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run0B (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : ¬last0 i)
    (x0 : Vec F S1x4096x128 .f32) (x1 : Vec F S1x128x128 .f32) (x2 : Vec F S1x1x128 .f32) (xs : Vec F S4096x128 .f32) :
    Σ' (L3 : List (View.Piece (Elt F) S4096x128 .f32)), { LS : List (View.Piece (Elt F) S4096x128 .f32) //
      ∀ (xi3 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__graph_conv_kernel i arg2 harg2 arg3 harg3 arg4 harg4 arg5 harg5 arg6 harg6) K } := by
  refine ⟨[], ?_, fun xi3 E K => ?run⟩
  case run =>
    simp only [cc0__graph_conv_kernel_eq_skeleton]; unfold cc0__graph_conv_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.Run0C.lean ====
/-
  Graph convolution 1: the kernel body run at the LAST point of a row tile (the relation's term is added to the accumulator, and the accumulator times 1/64 is stored to the output block). The witness is the list of pieces
  (rectangle, stored value), last store first, that the run leaves in the accumulator and in the output block.
-/
import proofs.«145989_j32908039422281_1_alg».proof.Proof.KI.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run0C (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : last0 i)
    (x0 : Vec F S1x4096x128 .f32) (x1 : Vec F S1x128x128 .f32) (x2 : Vec F S1x1x128 .f32) (xs : Vec F S4096x128 .f32) :
    Σ' (L3 : List (View.Piece (Elt F) S4096x128 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__graph_conv_kernel i arg2 harg2 arg3 harg3 arg4 harg4 arg5 harg5 arg6 harg6) K } := by
  refine ⟨?_, ?_, fun E K => ?run⟩
  case run =>
    simp only [cc0__graph_conv_kernel_eq_skeleton]; unfold cc0__graph_conv_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.KI.Region0.lean ====
/-
  Graph convolution 1 (pipeline 0) at any contents `V` of the TensorCore's buffers when the region is entered.
  From the three runs of the body: what a point leaves in the accumulator and, at the last point of a row tile, in
  the output block (the stored pieces read back); the accumulation along the grid (`outsAt0`: a point's contents
  from the contents the point before left); the invariant between points (the accumulator at what the point before
  left, every other scoped buffer at something); the proof data; and the body obligation at every point.
-/
import proofs.«145989_j32908039422281_1_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is `V`'s
    and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is `V`'s
    and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What a point leaves -/

/-- A placeholder for the output block's buffer at a point that stores nothing into it: nothing consults it. -/
def outIdle0 : Vec F S4096x128 .f32 := outV0.read (Elt F) (outV0.writes (Elt F) outV0.junk [])

/-- The accumulator's pieces at such a point tile it. -/
theorem scover0A (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : first0 i) (hc1 : ¬last0 i) (x0 : Vec F S1x4096x128 .f32) (x1 : Vec F S1x128x128 .f32) (x2 : Vec F S1x1x128 .f32) (y : S4096x128.Idx) :
    ∃ pc ∈ (run0A c i arg2 harg2 arg3 harg3 arg4 harg4 arg5 harg5 arg6 harg6 hc0 hc1 x0 x1 x2).2.1, y ∈ pc.1.set :=
  View.cover_of_tiledL (run0A c i arg2 harg2 arg3 harg3 arg4 harg4 arg5 harg5 arg6 harg6 hc0 hc1 x0 x1 x2).2.1 S4096x128.size (by sl_kernel_rfl) y

/-- What the point leaves in the accumulator: its pieces read back. -/
def sout0A (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : first0 i) (hc1 : ¬last0 i) (x0 : Vec F S1x4096x128 .f32) (x1 : Vec F S1x128x128 .f32) (x2 : Vec F S1x1x128 .f32) : Vec F S4096x128 .f32 :=
  accV0.read (Elt F) (accV0.writes (Elt F) accV0.junk (run0A c i arg2 harg2 arg3 harg3 arg4 harg4 arg5 harg5 arg6 harg6 hc0 hc1 x0 x1 x2).2.1)

/-- The accumulator's pieces at such a point tile it. -/
theorem scover0B (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : ¬last0 i) (x0 : Vec F S1x4096x128 .f32) (x1 : Vec F S1x128x128 .f32) (x2 : Vec F S1x1x128 .f32) (xs : Vec F S4096x128 .f32) (y : S4096x128.Idx) :
    ∃ pc ∈ (run0B c i arg2 harg2 arg3 harg3 arg4 harg4 arg5 harg5 arg6 harg6 hc0 hc1 x0 x1 x2 xs).2.1, y ∈ pc.1.set :=
  View.cover_of_tiledL (run0B c i arg2 harg2 arg3 harg3 arg4 harg4 arg5 harg5 arg6 harg6 hc0 hc1 x0 x1 x2 xs).2.1 S4096x128.size (by sl_kernel_rfl) y

/-- What the point leaves in the accumulator: its pieces read back. -/
def sout0B (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : ¬last0 i) (x0 : Vec F S1x4096x128 .f32) (x1 : Vec F S1x128x128 .f32) (x2 : Vec F S1x1x128 .f32) (xs : Vec F S4096x128 .f32) : Vec F S4096x128 .f32 :=
  accV0.read (Elt F) (accV0.writes (Elt F) accV0.junk (run0B c i arg2 harg2 arg3 harg3 arg4 harg4 arg5 harg5 arg6 harg6 hc0 hc1 x0 x1 x2 xs).2.1)

/-- The accumulator's pieces at such a point tile it. -/
theorem scover0C (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : last0 i) (x0 : Vec F S1x4096x128 .f32) (x1 : Vec F S1x128x128 .f32) (x2 : Vec F S1x1x128 .f32) (xs : Vec F S4096x128 .f32) (y : S4096x128.Idx) :
    ∃ pc ∈ (run0C c i arg2 harg2 arg3 harg3 arg4 harg4 arg5 harg5 arg6 harg6 hc0 hc1 x0 x1 x2 xs).2.1, y ∈ pc.1.set :=
  View.cover_of_tiledL (run0C c i arg2 harg2 arg3 harg3 arg4 harg4 arg5 harg5 arg6 harg6 hc0 hc1 x0 x1 x2 xs).2.1 S4096x128.size (by sl_kernel_rfl) y

/-- What the point leaves in the accumulator: its pieces read back. -/
def sout0C (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : last0 i) (x0 : Vec F S1x4096x128 .f32) (x1 : Vec F S1x128x128 .f32) (x2 : Vec F S1x1x128 .f32) (xs : Vec F S4096x128 .f32) : Vec F S4096x128 .f32 :=
  accV0.read (Elt F) (accV0.writes (Elt F) accV0.junk (run0C c i arg2 harg2 arg3 harg3 arg4 harg4 arg5 harg5 arg6 harg6 hc0 hc1 x0 x1 x2 xs).2.1)

/-- The output block's pieces at the last point of a tile tile it. -/
theorem cover0C (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : last0 i) (x0 : Vec F S1x4096x128 .f32) (x1 : Vec F S1x128x128 .f32) (x2 : Vec F S1x1x128 .f32) (xs : Vec F S4096x128 .f32) (y : S4096x128.Idx) :
    ∃ pc ∈ (run0C c i arg2 harg2 arg3 harg3 arg4 harg4 arg5 harg5 arg6 harg6 hc0 hc1 x0 x1 x2 xs).1, y ∈ pc.1.set :=
  View.cover_of_tiledL (run0C c i arg2 harg2 arg3 harg3 arg4 harg4 arg5 harg5 arg6 harg6 hc0 hc1 x0 x1 x2 xs).1 S4096x128.size (by sl_kernel_rfl) y

/-- What the last point of a tile leaves in the output block's staging buffer. -/
def out0C (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : last0 i) (x0 : Vec F S1x4096x128 .f32) (x1 : Vec F S1x128x128 .f32) (x2 : Vec F S1x1x128 .f32) (xs : Vec F S4096x128 .f32) : Vec F S4096x128 .f32 :=
  outV0.read (Elt F) (outV0.writes (Elt F) outV0.junk (run0C c i arg2 harg2 arg3 harg3 arg4 harg4 arg5 harg5 arg6 harg6 hc0 hc1 x0 x1 x2 xs).1)

/-! ## The accumulation along the grid -/

/-- What the output block's staging buffer and the accumulator hold after the body at position `n`: the case the
    position is in (first / middle / last of its row tile), run at the point's memrefs and input blocks, over what
    the position before left in the accumulator. -/
def outsAt0 (c : Dev nD) : (n : ℕ) → n < cfg0.N → Vec F S4096x128 .f32 × Vec F S4096x128 .f32
  | 0, hn => (outIdle0, sout0A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) acc0 (Memref.isWhole_whole _) ((hfirst0 ⟨0, hn⟩).mpr (Nat.zero_mod _)) (fun h => (fun h => by (try dsimp only at h); omega) ((hlast0 ⟨0, hn⟩).mp h)) (iblk0 V c 0 ⟨0, hn⟩) (iblk0 V c 1 ⟨0, hn⟩) (iblk0 V c 2 ⟨0, hn⟩))
  | n + 1, hn =>
    if h0 : (n + 1) % 64 = 0 then
      if h1 : (n + 1) % 64 = 63 then
        False.elim (by omega)
      else
        (outIdle0, sout0A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) ((hfirst0 ⟨n + 1, hn⟩).mpr h0) (fun h => h1 ((hlast0 ⟨n + 1, hn⟩).mp h)) (iblk0 V c 0 ⟨n + 1, hn⟩) (iblk0 V c 1 ⟨n + 1, hn⟩) (iblk0 V c 2 ⟨n + 1, hn⟩))
    else
      if h1 : (n + 1) % 64 = 63 then
        (out0C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) (fun h => h0 ((hfirst0 ⟨n + 1, hn⟩).mp h)) ((hlast0 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) (fun h => h0 ((hfirst0 ⟨n + 1, hn⟩).mp h)) ((hlast0 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (outIdle0, sout0B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) (fun h => h0 ((hfirst0 ⟨n + 1, hn⟩).mp h)) (fun h => h1 ((hlast0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 64 = 0) (h1 : ¬t.val % 64 = 63) :
    outsAt0 V c t.val t.isLt = (outIdle0, sout0A c (grid0.coords t) (ms0_0 t) (hs0_0 t) (ms0_1 t) (hs0_1 t) (ms0_2 t) (hs0_2 t) (ms0_3 t) (hs0_3 t) acc0 (Memref.isWhole_whole _) ((hfirst0 t).mpr h0) (fun h => h1 ((hlast0 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 64 = 0) (h1 : ¬t.val % 64 = 63) :
    outsAt0 V c t.val t.isLt = (outIdle0, sout0B c (grid0.coords t) (ms0_0 t) (hs0_0 t) (ms0_1 t) (hs0_1 t) (ms0_2 t) (hs0_2 t) (ms0_3 t) (hs0_3 t) acc0 (Memref.isWhole_whole _) (fun h => h0 ((hfirst0 t).mp h)) (fun h => h1 ((hlast0 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 64 = 0) (h1 : t.val % 64 = 63) :
    outsAt0 V c t.val t.isLt = (out0C c (grid0.coords t) (ms0_0 t) (hs0_0 t) (ms0_1 t) (hs0_1 t) (ms0_2 t) (hs0_2 t) (ms0_3 t) (hs0_3 t) acc0 (Memref.isWhole_whole _) (fun h => h0 ((hfirst0 t).mp h)) ((hlast0 t).mpr h1) (iblk0 V c 0 t) (iblk0 V c 1 t) (iblk0 V c 2 t) (outsAt0 V c (t.val - 1) (Nat.lt_of_le_of_lt (Nat.sub_le _ _) t.isLt)).2,
      sout0C c (grid0.coords t) (ms0_0 t) (hs0_0 t) (ms0_1 t) (hs0_1 t) (ms0_2 t) (hs0_2 t) (ms0_3 t) (hs0_3 t) acc0 (Memref.isWhole_whole _) (fun h => h0 ((hfirst0 t).mp h)) ((hlast0 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the class's invariant (every scoped buffer that is no staging buffer at something); afterwards
    the accumulator at what the point before left in it, the other such buffers at something, the generator register at
    some state. -/
def PhiS0 (c : Dev nD) : (n : ℕ) → n ≤ cfg0.N → sProp 𝕄
  | 0, _ => Pipeline.ΦA spec0 c
  | n + 1, hn => iprop(iprop(owns (c : Thread nD τ) acc0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) acc0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) acc0 fullShare ((outsAt0 V c (n - 1) (by omega)).2) ∗ rest0 c) ∗ (∃ r, prngReg c r)) := by
  cases n with
  | zero => exact absurd rfl hz
  | succ n => rfl

/-! ## The proof data -/

/-- The arrays as the region finds them; after the body at a point each input's buffer at its block and the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the position says which of the three cases the
    point is in; the invariant hands the body the accumulator at what the point before left (at anything at the very
    first point) and takes it back at this point's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  by_cases h0 : t.val % 64 = 0
  · by_cases h1 : t.val % 64 = 63
    · exfalso; omega
    · rw [show (dat0 V c).leavesExact 0 t = owns (c : Thread nD τ) (ms0_0 t) fullShare ((dat0 V c).after 0 t) from by unfold Dat.leavesExact; rw [live0_0 t], after0_0]
      rw [show (dat0 V c).leavesExact 1 t = owns (c : Thread nD τ) (ms0_1 t) fullShare ((dat0 V c).after 1 t) from by unfold Dat.leavesExact; rw [live0_1 t], after0_1]
      rw [show (dat0 V c).leavesExact 2 t = owns (c : Thread nD τ) (ms0_2 t) fullShare ((dat0 V c).after 2 t) from by unfold Dat.leavesExact; rw [live0_2 t], after0_2]
      rw [Dat.leavesExact_idle (dat0 V c) 3 t (idle0_3 t (fun h => h1 ((hlast0 t).mp h))) (noFlush0_3 t (fun h => h1 ((hlast0 t).mp h)))]
      rw [outsAt0_A V c t h0 h1]
      unfold sout0A; (try dsimp only)
      by_cases hz : t.val = 0
      · rw [PhiS0_castSucc V c t, PhiS0_zero V c _ _ hz, PhiA0_eq]
        iintro ⟨⟨⟨HS, HR⟩, Hg⟩, Ho, ⟨%d0, H0⟩, ⟨%d1, H1⟩, ⟨%d2, H2⟩, ⟨%d3, H3⟩⟩
        iapply ((run0A c (grid0.coords t) _ _ _ _ _ _ _ _ _ _ ((hfirst0 t).mpr h0) (fun h => h1 ((hlast0 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (scover0A c _ _ _ _ _ _ _ _ _ _ _ _ _ _ _ _ )
            iexact HR
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS, HR⟩, Hg⟩, Ho, ⟨%d0, H0⟩, ⟨%d1, H1⟩, ⟨%d2, H2⟩, ⟨%d3, H3⟩⟩
        iapply ((run0A c (grid0.coords t) _ _ _ _ _ _ _ _ _ _ ((hfirst0 t).mpr h0) (fun h => h1 ((hlast0 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (scover0A c _ _ _ _ _ _ _ _ _ _ _ _ _ _ _ _ )
            iexact HR
          iexact Hg
        isplitl [Ho]; · iexact Ho
        isplitl [H0]; · iexact H0
        isplitl [H1]; · iexact H1
        isplitl [H2]; · iexact H2
        iexists _; iexact H3
  · by_cases h1 : t.val % 64 = 63
    · rw [show (dat0 V c).leavesExact 0 t = owns (c : Thread nD τ) (ms0_0 t) fullShare ((dat0 V c).after 0 t) from by unfold Dat.leavesExact; rw [live0_0 t], after0_0]
      rw [show (dat0 V c).leavesExact 1 t = owns (c : Thread nD τ) (ms0_1 t) fullShare ((dat0 V c).after 1 t) from by unfold Dat.leavesExact; rw [live0_1 t], after0_1]
      rw [show (dat0 V c).leavesExact 2 t = owns (c : Thread nD τ) (ms0_2 t) fullShare ((dat0 V c).after 2 t) from by unfold Dat.leavesExact; rw [live0_2 t], after0_2]
      rw [show (dat0 V c).leavesExact 3 t = owns (c : Thread nD τ) (ms0_3 t) fullShare ((dat0 V c).after 3 t) from by unfold Dat.leavesExact; rw [live0_3 t ((hlast0 t).mpr h1)], after0_3]
      rw [outsAt0_C V c t h0 h1]
      unfold out0C sout0C; (try dsimp only)
      have hz : t.val ≠ 0 := by omega
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply ((run0C c (grid0.coords t) _ _ _ _ _ _ _ _ _ _ (fun h => h0 ((hfirst0 t).mp h)) ((hlast0 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover0C c _ _ _ _ _ _ _ _ _ _ _ _ _ _ _ _ _ )
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0C c _ _ _ _ _ _ _ _ _ _ _ _ _ _ _ _ _ )
    · rw [show (dat0 V c).leavesExact 0 t = owns (c : Thread nD τ) (ms0_0 t) fullShare ((dat0 V c).after 0 t) from by unfold Dat.leavesExact; rw [live0_0 t], after0_0]
      rw [show (dat0 V c).leavesExact 1 t = owns (c : Thread nD τ) (ms0_1 t) fullShare ((dat0 V c).after 1 t) from by unfold Dat.leavesExact; rw [live0_1 t], after0_1]
      rw [show (dat0 V c).leavesExact 2 t = owns (c : Thread nD τ) (ms0_2 t) fullShare ((dat0 V c).after 2 t) from by unfold Dat.leavesExact; rw [live0_2 t], after0_2]
      rw [Dat.leavesExact_idle (dat0 V c) 3 t (idle0_3 t (fun h => h1 ((hlast0 t).mp h))) (noFlush0_3 t (fun h => h1 ((hlast0 t).mp h)))]
      rw [outsAt0_B V c t h0 h1]
      unfold sout0B; (try dsimp only)
      by_cases hz : t.val = 0
      · exfalso; omega
      · rw [PhiS0_castSucc V c t, PhiS0_pos V c _ _ hz]
        iintro ⟨⟨⟨HS, HR⟩, Hg⟩, Ho, ⟨%d0, H0⟩, ⟨%d1, H1⟩, ⟨%d2, H2⟩, ⟨%d3, H3⟩⟩
        iapply ((run0B c (grid0.coords t) _ _ _ _ _ _ _ _ _ _ (fun h => h0 ((hfirst0 t).mp h)) (fun h => h1 ((hlast0 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (scover0B c _ _ _ _ _ _ _ _ _ _ _ _ _ _ _ _ _ )
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

theorem hout0 (c : Dev nD) : (dat0 V c).Φ (Fin.last cfg0.N) ⊢ Pipeline.ΦA spec0 c :=
  Phi_out0 V c _ (by rw [Fin.val_last]; have : cfg0.N = 256 := N_0; omega)

/-- The invariant after the last point, in the shape a region's record asks: the generator register, no semaphore of the
    kernel's own, and the scoped buffers that are no staging buffer. -/
theorem hout0' (c : Dev nD) : (dat0 V c).Φ (Fin.last cfg0.N)
    ⊢ iprop((∃ r, prngReg c r) ∗ (BI.emp : sProp 𝕄) ∗ Pipeline.scopedRest (Ix := Unit) (Name := ℕ) (U := UR sig nD τ) (Lvl := ℕ) (Val := Elt F) spec0 c) := by
  have h2 : (Pipeline.ΦA spec0 c : sProp 𝕄)
      ⊢ iprop((∃ r, prngReg c r) ∗ (BI.emp : sProp 𝕄) ∗ Pipeline.scopedRest (Ix := Unit) (Name := ℕ) (U := UR sig nD τ) (Lvl := ℕ) (Val := Elt F) spec0 c) := by
    unfold Pipeline.ΦA
    iintro ⟨Hr, Hp⟩
    isplitl [Hp]; · iexact Hp
    isplitr; · iempintro
    iexact Hr
  exact BI.Entails.trans (hout0 V c) h2

end Cert.KernelIdeal.Hand

end
-- ==== Proof.KI.Run1A.lean ====
/-
  Graph convolution 2: the kernel body run at the FIRST point of a row tile (the accumulator is cleared, then the relation's term added; nothing is stored to the output block). The witness is the list of pieces
  (rectangle, stored value), last store first, that the run leaves in the accumulator.
-/
import proofs.«145989_j32908039422281_1_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run1A (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : first1 i) (hc1 : ¬last1 i)
    (x0 : Vec F S1x4096x128 .f32) (x1 : Vec F S1x128x64 .f32) (x2 : Vec F S1x1x64 .f32) :
    Σ' (L3 : List (View.Piece (Elt F) S4096x64 .f32)), { LS : List (View.Piece (Elt F) S4096x64 .f32) //
      ∀ (xi3 : Vec F S4096x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__graph_conv_kernel i arg2 harg2 arg3 harg3 arg4 harg4 arg5 harg5 arg6 harg6) K } := by
  refine ⟨[], ?_, fun xi3 E K => ?run⟩
  case run =>
    simp only [cc1__graph_conv_kernel_eq_skeleton]; unfold cc1__graph_conv_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.Run1B.lean ====
/-
  Graph convolution 2: the kernel body run at a MIDDLE point of a row tile (the relation's term is added to the accumulator; nothing is stored to the output block). The witness is the list of pieces
  (rectangle, stored value), last store first, that the run leaves in the accumulator.
-/
import proofs.«145989_j32908039422281_1_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run1B (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : ¬last1 i)
    (x0 : Vec F S1x4096x128 .f32) (x1 : Vec F S1x128x64 .f32) (x2 : Vec F S1x1x64 .f32) (xs : Vec F S4096x64 .f32) :
    Σ' (L3 : List (View.Piece (Elt F) S4096x64 .f32)), { LS : List (View.Piece (Elt F) S4096x64 .f32) //
      ∀ (xi3 : Vec F S4096x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__graph_conv_kernel i arg2 harg2 arg3 harg3 arg4 harg4 arg5 harg5 arg6 harg6) K } := by
  refine ⟨[], ?_, fun xi3 E K => ?run⟩
  case run =>
    simp only [cc1__graph_conv_kernel_eq_skeleton]; unfold cc1__graph_conv_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.Run1C.lean ====
/-
  Graph convolution 2: the kernel body run at the LAST point of a row tile (the relation's term is added to the accumulator, and the accumulator times 1/64 is stored to the output block). The witness is the list of pieces
  (rectangle, stored value), last store first, that the run leaves in the accumulator and in the output block.
-/
import proofs.«145989_j32908039422281_1_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run1C (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : last1 i)
    (x0 : Vec F S1x4096x128 .f32) (x1 : Vec F S1x128x64 .f32) (x2 : Vec F S1x1x64 .f32) (xs : Vec F S4096x64 .f32) :
    Σ' (L3 : List (View.Piece (Elt F) S4096x64 .f32)), { LS : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__graph_conv_kernel i arg2 harg2 arg3 harg3 arg4 harg4 arg5 harg5 arg6 harg6) K } := by
  refine ⟨?_, ?_, fun E K => ?run⟩
  case run =>
    simp only [cc1__graph_conv_kernel_eq_skeleton]; unfold cc1__graph_conv_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.KI.Region1.lean ====
/-
  Graph convolution 2 (pipeline 1) at any contents `V` of the TensorCore's buffers when the region is entered.
  From the three runs of the body: what a point leaves in the accumulator and, at the last point of a row tile, in
  the output block (the stored pieces read back); the accumulation along the grid (`outsAt1`: a point's contents
  from the contents the point before left); the invariant between points (the accumulator at what the point before
  left, every other scoped buffer at something); the proof data; and the body obligation at every point.
-/
import proofs.«145989_j32908039422281_1_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, for any proof data whose array is `V`'s
    and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, for any proof data whose array is `V`'s
    and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What a point leaves -/

/-- A placeholder for the output block's buffer at a point that stores nothing into it: nothing consults it. -/
def outIdle1 : Vec F S4096x64 .f32 := outV1.read (Elt F) (outV1.writes (Elt F) outV1.junk [])

/-- The accumulator's pieces at such a point tile it. -/
theorem scover1A (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : first1 i) (hc1 : ¬last1 i) (x0 : Vec F S1x4096x128 .f32) (x1 : Vec F S1x128x64 .f32) (x2 : Vec F S1x1x64 .f32) (y : S4096x64.Idx) :
    ∃ pc ∈ (run1A c i arg2 harg2 arg3 harg3 arg4 harg4 arg5 harg5 arg6 harg6 hc0 hc1 x0 x1 x2).2.1, y ∈ pc.1.set :=
  View.cover_of_tiledL (run1A c i arg2 harg2 arg3 harg3 arg4 harg4 arg5 harg5 arg6 harg6 hc0 hc1 x0 x1 x2).2.1 S4096x64.size (by sl_kernel_rfl) y

/-- What the point leaves in the accumulator: its pieces read back. -/
def sout1A (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : first1 i) (hc1 : ¬last1 i) (x0 : Vec F S1x4096x128 .f32) (x1 : Vec F S1x128x64 .f32) (x2 : Vec F S1x1x64 .f32) : Vec F S4096x64 .f32 :=
  accV1.read (Elt F) (accV1.writes (Elt F) accV1.junk (run1A c i arg2 harg2 arg3 harg3 arg4 harg4 arg5 harg5 arg6 harg6 hc0 hc1 x0 x1 x2).2.1)

/-- The accumulator's pieces at such a point tile it. -/
theorem scover1B (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : ¬last1 i) (x0 : Vec F S1x4096x128 .f32) (x1 : Vec F S1x128x64 .f32) (x2 : Vec F S1x1x64 .f32) (xs : Vec F S4096x64 .f32) (y : S4096x64.Idx) :
    ∃ pc ∈ (run1B c i arg2 harg2 arg3 harg3 arg4 harg4 arg5 harg5 arg6 harg6 hc0 hc1 x0 x1 x2 xs).2.1, y ∈ pc.1.set :=
  View.cover_of_tiledL (run1B c i arg2 harg2 arg3 harg3 arg4 harg4 arg5 harg5 arg6 harg6 hc0 hc1 x0 x1 x2 xs).2.1 S4096x64.size (by sl_kernel_rfl) y

/-- What the point leaves in the accumulator: its pieces read back. -/
def sout1B (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : ¬last1 i) (x0 : Vec F S1x4096x128 .f32) (x1 : Vec F S1x128x64 .f32) (x2 : Vec F S1x1x64 .f32) (xs : Vec F S4096x64 .f32) : Vec F S4096x64 .f32 :=
  accV1.read (Elt F) (accV1.writes (Elt F) accV1.junk (run1B c i arg2 harg2 arg3 harg3 arg4 harg4 arg5 harg5 arg6 harg6 hc0 hc1 x0 x1 x2 xs).2.1)

/-- The accumulator's pieces at such a point tile it. -/
theorem scover1C (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : last1 i) (x0 : Vec F S1x4096x128 .f32) (x1 : Vec F S1x128x64 .f32) (x2 : Vec F S1x1x64 .f32) (xs : Vec F S4096x64 .f32) (y : S4096x64.Idx) :
    ∃ pc ∈ (run1C c i arg2 harg2 arg3 harg3 arg4 harg4 arg5 harg5 arg6 harg6 hc0 hc1 x0 x1 x2 xs).2.1, y ∈ pc.1.set :=
  View.cover_of_tiledL (run1C c i arg2 harg2 arg3 harg3 arg4 harg4 arg5 harg5 arg6 harg6 hc0 hc1 x0 x1 x2 xs).2.1 S4096x64.size (by sl_kernel_rfl) y

/-- What the point leaves in the accumulator: its pieces read back. -/
def sout1C (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : last1 i) (x0 : Vec F S1x4096x128 .f32) (x1 : Vec F S1x128x64 .f32) (x2 : Vec F S1x1x64 .f32) (xs : Vec F S4096x64 .f32) : Vec F S4096x64 .f32 :=
  accV1.read (Elt F) (accV1.writes (Elt F) accV1.junk (run1C c i arg2 harg2 arg3 harg3 arg4 harg4 arg5 harg5 arg6 harg6 hc0 hc1 x0 x1 x2 xs).2.1)

/-- The output block's pieces at the last point of a tile tile it. -/
theorem cover1C (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : last1 i) (x0 : Vec F S1x4096x128 .f32) (x1 : Vec F S1x128x64 .f32) (x2 : Vec F S1x1x64 .f32) (xs : Vec F S4096x64 .f32) (y : S4096x64.Idx) :
    ∃ pc ∈ (run1C c i arg2 harg2 arg3 harg3 arg4 harg4 arg5 harg5 arg6 harg6 hc0 hc1 x0 x1 x2 xs).1, y ∈ pc.1.set :=
  View.cover_of_tiledL (run1C c i arg2 harg2 arg3 harg3 arg4 harg4 arg5 harg5 arg6 harg6 hc0 hc1 x0 x1 x2 xs).1 S4096x64.size (by sl_kernel_rfl) y

/-- What the last point of a tile leaves in the output block's staging buffer. -/
def out1C (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : last1 i) (x0 : Vec F S1x4096x128 .f32) (x1 : Vec F S1x128x64 .f32) (x2 : Vec F S1x1x64 .f32) (xs : Vec F S4096x64 .f32) : Vec F S4096x64 .f32 :=
  outV1.read (Elt F) (outV1.writes (Elt F) outV1.junk (run1C c i arg2 harg2 arg3 harg3 arg4 harg4 arg5 harg5 arg6 harg6 hc0 hc1 x0 x1 x2 xs).1)

/-! ## The accumulation along the grid -/

/-- What the output block's staging buffer and the accumulator hold after the body at position `n`: the case the
    position is in (first / middle / last of its row tile), run at the point's memrefs and input blocks, over what
    the position before left in the accumulator. -/
def outsAt1 (c : Dev nD) : (n : ℕ) → n < cfg1.N → Vec F S4096x64 .f32 × Vec F S4096x64 .f32
  | 0, hn => (outIdle1, sout1A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) acc1 (Memref.isWhole_whole _) ((hfirst1 ⟨0, hn⟩).mpr (Nat.zero_mod _)) (fun h => (fun h => by (try dsimp only at h); omega) ((hlast1 ⟨0, hn⟩).mp h)) (iblk1 V c 0 ⟨0, hn⟩) (iblk1 V c 1 ⟨0, hn⟩) (iblk1 V c 2 ⟨0, hn⟩))
  | n + 1, hn =>
    if h0 : (n + 1) % 64 = 0 then
      if h1 : (n + 1) % 64 = 63 then
        False.elim (by omega)
      else
        (outIdle1, sout1A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) ((hfirst1 ⟨n + 1, hn⟩).mpr h0) (fun h => h1 ((hlast1 ⟨n + 1, hn⟩).mp h)) (iblk1 V c 0 ⟨n + 1, hn⟩) (iblk1 V c 1 ⟨n + 1, hn⟩) (iblk1 V c 2 ⟨n + 1, hn⟩))
    else
      if h1 : (n + 1) % 64 = 63 then
        (out1C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) (fun h => h0 ((hfirst1 ⟨n + 1, hn⟩).mp h)) ((hlast1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) (fun h => h0 ((hfirst1 ⟨n + 1, hn⟩).mp h)) ((hlast1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outIdle1, sout1B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) (fun h => h0 ((hfirst1 ⟨n + 1, hn⟩).mp h)) (fun h => h1 ((hlast1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 64 = 0) (h1 : ¬t.val % 64 = 63) :
    outsAt1 V c t.val t.isLt = (outIdle1, sout1A c (grid1.coords t) (ms1_0 t) (hs1_0 t) (ms1_1 t) (hs1_1 t) (ms1_2 t) (hs1_2 t) (ms1_3 t) (hs1_3 t) acc1 (Memref.isWhole_whole _) ((hfirst1 t).mpr h0) (fun h => h1 ((hlast1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 64 = 0) (h1 : ¬t.val % 64 = 63) :
    outsAt1 V c t.val t.isLt = (outIdle1, sout1B c (grid1.coords t) (ms1_0 t) (hs1_0 t) (ms1_1 t) (hs1_1 t) (ms1_2 t) (hs1_2 t) (ms1_3 t) (hs1_3 t) acc1 (Memref.isWhole_whole _) (fun h => h0 ((hfirst1 t).mp h)) (fun h => h1 ((hlast1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 64 = 0) (h1 : t.val % 64 = 63) :
    outsAt1 V c t.val t.isLt = (out1C c (grid1.coords t) (ms1_0 t) (hs1_0 t) (ms1_1 t) (hs1_1 t) (ms1_2 t) (hs1_2 t) (ms1_3 t) (hs1_3 t) acc1 (Memref.isWhole_whole _) (fun h => h0 ((hfirst1 t).mp h)) ((hlast1 t).mpr h1) (iblk1 V c 0 t) (iblk1 V c 1 t) (iblk1 V c 2 t) (outsAt1 V c (t.val - 1) (Nat.lt_of_le_of_lt (Nat.sub_le _ _) t.isLt)).2,
      sout1C c (grid1.coords t) (ms1_0 t) (hs1_0 t) (ms1_1 t) (hs1_1 t) (ms1_2 t) (hs1_2 t) (ms1_3 t) (hs1_3 t) acc1 (Memref.isWhole_whole _) (fun h => h0 ((hfirst1 t).mp h)) ((hlast1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the class's invariant (every scoped buffer that is no staging buffer at something); afterwards
    the accumulator at what the point before left in it, the other such buffers at something, the generator register at
    some state. -/
def PhiS1 (c : Dev nD) : (n : ℕ) → n ≤ cfg1.N → sProp 𝕄
  | 0, _ => Pipeline.ΦA spec1 c
  | n + 1, hn => iprop(iprop(owns (c : Thread nD τ) acc1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) acc1 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) acc1 fullShare ((outsAt1 V c (n - 1) (by omega)).2) ∗ rest1 c) ∗ (∃ r, prngReg c r)) := by
  cases n with
  | zero => exact absurd rfl hz
  | succ n => rfl

/-! ## The proof data -/

/-- The arrays as the region finds them; after the body at a point each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position says which of the three cases the
    point is in; the invariant hands the body the accumulator at what the point before left (at anything at the very
    first point) and takes it back at this point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val % 64 = 0
  · by_cases h1 : t.val % 64 = 63
    · exfalso; omega
    · rw [show (dat1 V c).leavesExact 0 t = owns (c : Thread nD τ) (ms1_0 t) fullShare ((dat1 V c).after 0 t) from by unfold Dat.leavesExact; rw [live1_0 t], after1_0]
      rw [show (dat1 V c).leavesExact 1 t = owns (c : Thread nD τ) (ms1_1 t) fullShare ((dat1 V c).after 1 t) from by unfold Dat.leavesExact; rw [live1_1 t], after1_1]
      rw [show (dat1 V c).leavesExact 2 t = owns (c : Thread nD τ) (ms1_2 t) fullShare ((dat1 V c).after 2 t) from by unfold Dat.leavesExact; rw [live1_2 t], after1_2]
      rw [Dat.leavesExact_idle (dat1 V c) 3 t (idle1_3 t (fun h => h1 ((hlast1 t).mp h))) (noFlush1_3 t (fun h => h1 ((hlast1 t).mp h)))]
      rw [outsAt1_A V c t h0 h1]
      unfold sout1A; (try dsimp only)
      by_cases hz : t.val = 0
      · rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩⟩
        iapply ((run1A c (grid1.coords t) _ _ _ _ _ _ _ _ _ _ ((hfirst1 t).mpr h0) (fun h => h1 ((hlast1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (scover1A c _ _ _ _ _ _ _ _ _ _ _ _ _ _ _ _ )
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩⟩
        iapply ((run1A c (grid1.coords t) _ _ _ _ _ _ _ _ _ _ ((hfirst1 t).mpr h0) (fun h => h1 ((hlast1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (scover1A c _ _ _ _ _ _ _ _ _ _ _ _ _ _ _ _ )
            iexact HR
          iexact Hg
        isplitl [Ho]; · iexact Ho
        isplitl [H0]; · iexact H0
        isplitl [H1]; · iexact H1
        isplitl [H2]; · iexact H2
        iexists _; iexact H3
  · by_cases h1 : t.val % 64 = 63
    · rw [show (dat1 V c).leavesExact 0 t = owns (c : Thread nD τ) (ms1_0 t) fullShare ((dat1 V c).after 0 t) from by unfold Dat.leavesExact; rw [live1_0 t], after1_0]
      rw [show (dat1 V c).leavesExact 1 t = owns (c : Thread nD τ) (ms1_1 t) fullShare ((dat1 V c).after 1 t) from by unfold Dat.leavesExact; rw [live1_1 t], after1_1]
      rw [show (dat1 V c).leavesExact 2 t = owns (c : Thread nD τ) (ms1_2 t) fullShare ((dat1 V c).after 2 t) from by unfold Dat.leavesExact; rw [live1_2 t], after1_2]
      rw [show (dat1 V c).leavesExact 3 t = owns (c : Thread nD τ) (ms1_3 t) fullShare ((dat1 V c).after 3 t) from by unfold Dat.leavesExact; rw [live1_3 t ((hlast1 t).mpr h1)], after1_3]
      rw [outsAt1_C V c t h0 h1]
      unfold out1C sout1C; (try dsimp only)
      have hz : t.val ≠ 0 := by omega
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((run1C c (grid1.coords t) _ _ _ _ _ _ _ _ _ _ (fun h => h0 ((hfirst1 t).mp h)) ((hlast1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1C c _ _ _ _ _ _ _ _ _ _ _ _ _ _ _ _ _ )
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1C c _ _ _ _ _ _ _ _ _ _ _ _ _ _ _ _ _ )
    · rw [show (dat1 V c).leavesExact 0 t = owns (c : Thread nD τ) (ms1_0 t) fullShare ((dat1 V c).after 0 t) from by unfold Dat.leavesExact; rw [live1_0 t], after1_0]
      rw [show (dat1 V c).leavesExact 1 t = owns (c : Thread nD τ) (ms1_1 t) fullShare ((dat1 V c).after 1 t) from by unfold Dat.leavesExact; rw [live1_1 t], after1_1]
      rw [show (dat1 V c).leavesExact 2 t = owns (c : Thread nD τ) (ms1_2 t) fullShare ((dat1 V c).after 2 t) from by unfold Dat.leavesExact; rw [live1_2 t], after1_2]
      rw [Dat.leavesExact_idle (dat1 V c) 3 t (idle1_3 t (fun h => h1 ((hlast1 t).mp h))) (noFlush1_3 t (fun h => h1 ((hlast1 t).mp h)))]
      rw [outsAt1_B V c t h0 h1]
      unfold sout1B; (try dsimp only)
      by_cases hz : t.val = 0
      · exfalso; omega
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩⟩
        iapply ((run1B c (grid1.coords t) _ _ _ _ _ _ _ _ _ _ (fun h => h0 ((hfirst1 t).mp h)) (fun h => h1 ((hlast1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (scover1B c _ _ _ _ _ _ _ _ _ _ _ _ _ _ _ _ _ )
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

theorem hout1 (c : Dev nD) : (dat1 V c).Φ (Fin.last cfg1.N) ⊢ Pipeline.ΦA spec1 c :=
  Phi_out1 V c _ (by rw [Fin.val_last]; have : cfg1.N = 256 := N_1; omega)

/-- The invariant after the last point, in the shape a region's record asks: the generator register, no semaphore of the
    kernel's own, and the scoped buffers that are no staging buffer. -/
theorem hout1' (c : Dev nD) : (dat1 V c).Φ (Fin.last cfg1.N)
    ⊢ iprop((∃ r, prngReg c r) ∗ (BI.emp : sProp 𝕄) ∗ Pipeline.scopedRest (Ix := Unit) (Name := ℕ) (U := UR sig nD τ) (Lvl := ℕ) (Val := Elt F) spec1 c) := by
  have h2 : (Pipeline.ΦA spec1 c : sProp 𝕄)
      ⊢ iprop((∃ r, prngReg c r) ∗ (BI.emp : sProp 𝕄) ∗ Pipeline.scopedRest (Ix := Unit) (Name := ℕ) (U := UR sig nD τ) (Lvl := ℕ) (Val := Elt F) spec1 c) := by
    unfold Pipeline.ΦA
    iintro ⟨Hr, Hp⟩
    isplitl [Hp]; · iexact Hp
    isplitr; · iempintro
    iexact Hr
  exact BI.Entails.trans (hout1 V c) h2

end Cert.KernelIdeal.Hand

end
-- ==== Proof.KI.Run2.lean ====
/-
  The BiLSTM kernel's body (one grid point per tile of 4096 rows; both directions' gates, the elementwise chain and the
  join of the two halves): run from its four input blocks to the pieces it stores into the output block.
-/
import proofs.«145989_j32908039422281_1_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging memref at point `t`, and that it is a whole buffer. -/
abbrev ms2_0 (t : Fin cfg2.N) : Memref sig .tc .vmem S4096x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2x128x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x64 .f32 := win2_4.stage (cfg2.slots t 4)
abbrev hs2_4 (t : Fin cfg2.N) : (ms2_4 t).IsWhole := hstage2_4 ((cfg2.slots t 4).cast nbuf2_4)
/-- One staging buffer of the output window, through which its contents are stated. -/
abbrev outV2 : View sig .tc .vmem S4096x64 .f32 := (Memref.whole cc2_stg4_0 : Memref sig .tc .vmem S4096x64 .f32).view

set_option maxHeartbeats 1000000 in
noncomputable def run2 (c : Dev nD) (i : grid2.Coords) (arg1 : Memref sig .tc .vmem S4096x64 .f32) (harg1 : arg1.IsWhole) (arg2 : Memref sig .tc .vmem S2x128x64 .f32) (harg2 : arg2.IsWhole) (arg3 : Memref sig .tc .vmem S2x128 .f32) (harg3 : arg3.IsWhole) (arg4 : Memref sig .tc .vmem S2x128 .f32) (harg4 : arg4.IsWhole) (arg5 : Memref sig .tc .vmem S4096x64 .f32) (harg5 : arg5.IsWhole)
    (x0 : Vec F S4096x64 .f32) (x1 : Vec F S2x128x64 .f32) (x2 : Vec F S2x128 .f32) (x3 : Vec F S2x128 .f32) :
    { L4 : List (View.Piece (Elt F) S4096x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc2__bilstm_kernel i arg1 harg1 arg2 harg2 arg3 harg3 arg4 harg4 arg5 harg5) K } := by
  refine ⟨?_, fun E K => ?run⟩
  case run =>
    simp only [cc2__bilstm_kernel_eq_skeleton]; unfold cc2__bilstm_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.KI.Region2.lean ====
/-
  The BiLSTM region (pipeline 2) at any contents `V` of the TensorCore's buffers when the region is entered: what a point
  leaves in the output block (its stored pieces read back), the proof data, and the body obligation at every point. The
  weights and the two bias arrays are fetched once (their block index does not move) and found in place afterwards.
-/
import proofs.«145989_j32908039422281_1_alg».proof.Proof.KI.Run2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The output block's pieces tile it. -/
theorem cover2 (c : Dev nD) (i : grid2.Coords) (arg1 : Memref sig .tc .vmem S4096x64 .f32) (harg1 : arg1.IsWhole) (arg2 : Memref sig .tc .vmem S2x128x64 .f32) (harg2 : arg2.IsWhole) (arg3 : Memref sig .tc .vmem S2x128 .f32) (harg3 : arg3.IsWhole) (arg4 : Memref sig .tc .vmem S2x128 .f32) (harg4 : arg4.IsWhole) (arg5 : Memref sig .tc .vmem S4096x64 .f32) (harg5 : arg5.IsWhole) (x0 : Vec F S4096x64 .f32) (x1 : Vec F S2x128x64 .f32) (x2 : Vec F S2x128 .f32) (x3 : Vec F S2x128 .f32) (y : S4096x64.Idx) :
    ∃ pc ∈ (run2 c i arg1 harg1 arg2 harg2 arg3 harg3 arg4 harg4 arg5 harg5 x0 x1 x2 x3).1, y ∈ pc.1.set :=
  View.cover_of_tiledL (run2 c i arg1 harg1 arg2 harg2 arg3 harg3 arg4 harg4 arg5 harg5 x0 x1 x2 x3).1 S4096x64.size (by sl_kernel_rfl) y

/-- What a point leaves in the output block's staging buffer. -/
def out2 (c : Dev nD) (i : grid2.Coords) (arg1 : Memref sig .tc .vmem S4096x64 .f32) (harg1 : arg1.IsWhole) (arg2 : Memref sig .tc .vmem S2x128x64 .f32) (harg2 : arg2.IsWhole) (arg3 : Memref sig .tc .vmem S2x128 .f32) (harg3 : arg3.IsWhole) (arg4 : Memref sig .tc .vmem S2x128 .f32) (harg4 : arg4.IsWhole) (arg5 : Memref sig .tc .vmem S4096x64 .f32) (harg5 : arg5.IsWhole) (x0 : Vec F S4096x64 .f32) (x1 : Vec F S2x128x64 .f32) (x2 : Vec F S2x128 .f32) (x3 : Vec F S2x128 .f32) : Vec F S4096x64 .f32 :=
  outV2.read (Elt F) (outV2.writes (Elt F) outV2.junk (run2 c i arg1 harg1 arg2 harg2 arg3 harg3 arg4 harg4 arg5 harg5 x0 x1 x2 x3).1)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  unfold out2
  iintro ⟨HΦ, Ho, ⟨%d0, H0⟩, ⟨%d1, H1⟩, ⟨%d2, H2⟩, ⟨%d3, H3⟩, ⟨%d4, H4⟩⟩
  iapply ((run2 c (grid2.coords t) _ _ _ _ _ _ _ _ _ _ (iblk2 V c 0 t) (iblk2 V c 1 t) (iblk2 V c 2 t) (iblk2 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2 c _ _ _ _ _ _ _ _ _ _ _ _ _ _ _ )

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.RunCond.lean ====
/-
  The whole run of @main from one segment record per kernel region. Each stretch of host operations runs from the
  contents the item before it left; each region is entered from the thread state before it and left at the one after it,
  as its record says; the launch hands every core its unscoped buffers at the launch contents. What is read at the end is
  every unscoped buffer of the core at the last valuation `V16`, so that the result array is read beside the arguments.
-/
import proofs.«145989_j32908039422281_1_alg».proof.Proof.Gen.KernelIdeal.Regions

set_option maxRecDepth 1180

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V14 m outs c) ∗ E 2 c) ⊢ R2.pre c)
    (hpost2 : ∀ c : Dev nD, R2.post c ⊢ iprop(StableHlo.held (c : Thread nD τ) (Pipeline.ucRefs τ sig) (V15 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V16 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, .rfl, .rfl, .rfl, .rfl, hpre0 c, hpost0 c, .rfl, .rfl, hpre1 c, hpost1 c, .rfl, hpre2 c, hpost2 c, sep_mono .rfl (hE3 c)⟩)
    (hinit := ?_) (QY := fun c s => ∀ b ∈ Pipeline.ucRefs τ sig, s.mem (((c : Thread nD τ)).1, b) = V16 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    imodintro
    iapply (pointsTo_read_all (Pipeline.ucRefs τ sig) (fun b => ((c : Thread nD τ).1, b)) (V16 m outs c) s')
    isplitl [Hh] <;> iassumption

end Cert.KernelIdeal.Hand

end
-- ==== Proof.KI.Whole.lean ====
/-
  The whole program: @main is sixteen items, thirteen stretches of host operations around three kernel regions (graph
  convolution 1, graph convolution 2, the BiLSTM). What a region leaves in its output array is what the pipeline library
  computes from that region's proof data (`X0`, `X1`, `X2`: the write-backs folded over the entry contents); the contents
  between items are the generated fold `V0 … V16` at those three arrays. Each region is entered from the contents the
  items before it leave, so its proof data is stated at them: region 1's at what region 0 left, region 2's at what
  regions 0 and 1 left. The run ends with every unscoped buffer at `V16`; the arguments are read back as launched and
  the result array as `V16` at it.
-/
import proofs.«145989_j32908039422281_1_alg».proof.Proof.KI.Region0
import proofs.«145989_j32908039422281_1_alg».proof.Proof.KI.Region1
import proofs.«145989_j32908039422281_1_alg».proof.Proof.KI.Region2
import proofs.«145989_j32908039422281_1_alg».proof.Proof.KI.RunCond
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, one after the other -/

/-- The TensorCore's buffers when graph convolution 1 is entered. -/
abbrev E7 : (c : Dev nD) → (b : Ref sig .tc) → Buf (Elt F) ((c : Thread nD τ).loc b) := fun c b => V7 m c b
/-- What graph convolution 1 leaves in its output array. -/
def X0 (c : Dev nD) : Buf (Elt F) ((c : Thread nD τ).loc main_v63) := (dat0 (E7 m) c).arrAt 3 cfg0.N
/-- The regions' outputs known so far: graph convolution 1's. -/
def outsA : Outs (F := F) := fun _ r c =>
  if h : r = main_v63 then h ▸ X0 m c else m ((c : Thread nD τ).loc r)
/-- The TensorCore's buffers when graph convolution 2 is entered. -/
abbrev E11 : (c : Dev nD) → (b : Ref sig .tc) → Buf (Elt F) ((c : Thread nD τ).loc b) := fun c b => V11 m (outsA m) c b
/-- What graph convolution 2 leaves in its output array. -/
def X1 (c : Dev nD) : Buf (Elt F) ((c : Thread nD τ).loc main_v92) := (dat1 (E11 m) c).arrAt 3 cfg1.N
def outsB : Outs (F := F) := fun _ r c =>
  if h : r = main_v63 then h ▸ X0 m c else if h : r = main_v92 then h ▸ X1 m c else m ((c : Thread nD τ).loc r)
/-- The TensorCore's buffers when the BiLSTM region is entered. -/
abbrev E14 : (c : Dev nD) → (b : Ref sig .tc) → Buf (Elt F) ((c : Thread nD τ).loc b) := fun c b => V14 m (outsB m) c b
/-- What the BiLSTM region leaves in its output array. -/
def X2 (c : Dev nD) : Buf (Elt F) ((c : Thread nD τ).loc main_v95) := (dat2 (E14 m) c).arrAt 4 cfg2.N
/-- All three regions' outputs. -/
def outsC : Outs (F := F) := fun _ r c =>
  if h : r = main_v63 then h ▸ X0 m c else if h : r = main_v92 then h ▸ X1 m c else if h : r = main_v95 then h ▸ X2 m c else m ((c : Thread nD τ).loc r)

theorem outsA_63 (J : ℕ) (c : Dev nD) : outsA m J main_v63 c = X0 m c := by unfold outsA; rw [dif_pos rfl]
theorem outsB_63 (J : ℕ) (c : Dev nD) : outsB m J main_v63 c = X0 m c := by unfold outsB; rw [dif_pos rfl]
theorem outsC_63 (J : ℕ) (c : Dev nD) : outsC m J main_v63 c = X0 m c := by unfold outsC; rw [dif_pos rfl]
theorem outsB_92 (J : ℕ) (c : Dev nD) : outsB m J main_v92 c = X1 m c := by
  unfold outsB; rw [dif_neg (by decide), dif_pos rfl]
theorem outsC_92 (J : ℕ) (c : Dev nD) : outsC m J main_v92 c = X1 m c := by
  unfold outsC; rw [dif_neg (by decide), dif_pos rfl]
theorem outsC_95 (J : ℕ) (c : Dev nD) : outsC m J main_v95 c = X2 m c := by
  unfold outsC; rw [dif_neg (by decide), dif_neg (by decide), dif_pos rfl]

/-- The contents before graph convolution 2 depend on the regions' outputs through graph convolution 1's only. -/
theorem V11_eq (c : Dev nD) : V11 m (outsC m) c = V11 m (outsA m) c := by
  unfold V11 V10 V9 V8; rw [outsC_63, outsA_63]
/-- The contents before the BiLSTM region depend on them through the two graph convolutions' only. -/
theorem V14_eq (c : Dev nD) : V14 m (outsC m) c = V14 m (outsB m) c := by
  unfold V14 V13 V12 V11 V10 V9 V8; rw [outsC_63, outsB_63, outsC_92, outsB_92]

/-! ## The proof data family -/

def pdats : (p : Fin 3) → (c : Dev nD) → Dat τ (Elt F) Unit ℕ (UR sig nD τ) ℕ (cfgs p) c
  | ⟨0, _⟩ => fun c => dat0 (E7 m) c
  | ⟨1, _⟩ => fun c => dat1 (E11 m) c
  | ⟨2, _⟩ => fun c => dat2 (E14 m) c

abbrev L : GSem nD τ sig → Finset Unit := fun _ => ∅
abbrev lv : GSem nD τ sig → Unit → ℕ := fun _ _ => 0
/-- What rides beside the buffers through every item: the generator register at some state and the core owing nothing. -/
abbrev RR (c : Dev nD) : sProp 𝕄 := iprop((∃ r, prngReg c r) ∗ ∃ W, owes (c : Thread nD τ) (0 : CellTallies nD τ sig Unit) W)

/-! ## Each region's arrays at its exit -/

theorem hF0 (c : Dev nD) (w : Fin cfg0.W) : (dat0 (E7 m) c).arrAt w cfg0.N = V8 m (outsC m) c (Pipeline.arrRef spec0 w) := by
  fin_cases w
  · exact ((dat0 (E7 m) c).arrAt_in 0 rfl _).trans ((A_eq0 (E7 m) c 0).trans (V8_of m (outsC m) c _ (by decide)).symm)
  · exact ((dat0 (E7 m) c).arrAt_in 1 rfl _).trans ((A_eq0 (E7 m) c 1).trans (V8_of m (outsC m) c _ (by decide)).symm)
  · exact ((dat0 (E7 m) c).arrAt_in 2 rfl _).trans ((A_eq0 (E7 m) c 2).trans (V8_of m (outsC m) c _ (by decide)).symm)
  · show (dat0 (E7 m) c).arrAt 3 cfg0.N = V8 m (outsC m) c main_v63
    unfold V8; rw [Function.update_self, outsC_63]; rfl

theorem hrest0 (c : Dev nD) : ∀ b, b ∉ Finset.univ.image (Pipeline.arrRef spec0) → V8 m (outsC m) c b = E7 m c b := fun b hb => by
  have hne : b ∉ ([main_v63] : List (Ref sig .tc)) := fun h => hb (by
    rw [List.mem_singleton] at h; subst h; exact Finset.mem_image.mpr ⟨3, Finset.mem_univ _, rfl⟩)
  exact V8_of m (outsC m) c b hne

theorem hF1 (c : Dev nD) (w : Fin cfg1.W) : (dat1 (E11 m) c).arrAt w cfg1.N = V12 m (outsC m) c (Pipeline.arrRef spec1 w) := by
  fin_cases w
  · exact ((dat1 (E11 m) c).arrAt_in 0 rfl _).trans ((A_eq1 (E11 m) c 0).trans (((V12_of m (outsC m) c _ (by decide)).trans (congrFun (V11_eq m c) _)).symm))
  · exact ((dat1 (E11 m) c).arrAt_in 1 rfl _).trans ((A_eq1 (E11 m) c 1).trans (((V12_of m (outsC m) c _ (by decide)).trans (congrFun (V11_eq m c) _)).symm))
  · exact ((dat1 (E11 m) c).arrAt_in 2 rfl _).trans ((A_eq1 (E11 m) c 2).trans (((V12_of m (outsC m) c _ (by decide)).trans (congrFun (V11_eq m c) _)).symm))
  · show (dat1 (E11 m) c).arrAt 3 cfg1.N = V12 m (outsC m) c main_v92
    unfold V12; rw [Function.update_self, outsC_92]; rfl

theorem hrest1 (c : Dev nD) : ∀ b, b ∉ Finset.univ.image (Pipeline.arrRef spec1) → V12 m (outsC m) c b = E11 m c b := fun b hb => by
  have hne : b ∉ ([main_v92] : List (Ref sig .tc)) := fun h => hb (by
    rw [List.mem_singleton] at h; subst h; exact Finset.mem_image.mpr ⟨3, Finset.mem_univ _, rfl⟩)
  exact (V12_of m (outsC m) c b hne).trans (congrFun (V11_eq m c) _)

theorem hF2 (c : Dev nD) (w : Fin cfg2.W) : (dat2 (E14 m) c).arrAt w cfg2.N = V15 m (outsC m) c (Pipeline.arrRef spec2 w) := by
  fin_cases w
  · exact ((dat2 (E14 m) c).arrAt_in 0 rfl _).trans ((A_eq2 (E14 m) c 0).trans (((V15_of m (outsC m) c _ (by decide)).trans (congrFun (V14_eq m c) _)).symm))
  · exact ((dat2 (E14 m) c).arrAt_in 1 rfl _).trans ((A_eq2 (E14 m) c 1).trans (((V15_of m (outsC m) c _ (by decide)).trans (congrFun (V14_eq m c) _)).symm))
  · exact ((dat2 (E14 m) c).arrAt_in 2 rfl _).trans ((A_eq2 (E14 m) c 2).trans (((V15_of m (outsC m) c _ (by decide)).trans (congrFun (V14_eq m c) _)).symm))
  · exact ((dat2 (E14 m) c).arrAt_in 3 rfl _).trans ((A_eq2 (E14 m) c 3).trans (((V15_of m (outsC m) c _ (by decide)).trans (congrFun (V14_eq m c) _)).symm))
  · show (dat2 (E14 m) c).arrAt 4 cfg2.N = V15 m (outsC m) c main_v95
    unfold V15; rw [Function.update_self, outsC_95]; rfl

theorem hrest2 (c : Dev nD) : ∀ b, b ∉ Finset.univ.image (Pipeline.arrRef spec2) → V15 m (outsC m) c b = E14 m c b := fun b hb => by
  have hne : b ∉ ([main_v95] : List (Ref sig .tc)) := fun h => hb (by
    rw [List.mem_singleton] at h; subst h; exact Finset.mem_image.mpr ⟨4, Finset.mem_univ _, rfl⟩)
  exact (V15_of m (outsC m) c b hne).trans (congrFun (V14_eq m c) _)

/-! ## The regions as segments -/

set_option backward.isDefEq.respectTransparency.types false in
/-- Region 0 over the thread state "every unscoped buffer at the boundary's contents, the generator register at some state,
    nothing owed": its arrays split out of the unscoped buffers at entry and put back at the exit contents; the generator
    register into the invariant and out; no semaphore of the kernel's own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E7 m) c).loose
  hwaits := Pipeline.hwaits_of_owed_zero _ _ _ _ L lv 0 fun _ _ => rfl
  pre c := iprop(StableHlo.held (c : Thread nD τ) (Pipeline.ucRefs τ sig) (V7 m c) ∗ RR c)
  post c := iprop(StableHlo.held (c : Thread nD τ) (Pipeline.ucRefs τ sig) (V8 m (outsC m) c) ∗ RR c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact hout0' (E7 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E7 m c) (fun b => V8 m (outsC m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some state,
    nothing owed": its arrays split out of the unscoped buffers at entry and put back at the exit contents; the generator
    register into the invariant and out; no semaphore of the kernel's own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E11 m) c).loose
  hwaits := Pipeline.hwaits_of_owed_zero _ _ _ _ L lv 1 fun _ _ => rfl
  pre c := iprop(StableHlo.held (c : Thread nD τ) (Pipeline.ucRefs τ sig) (V11 m (outsA m) c) ∗ RR c)
  post c := iprop(StableHlo.held (c : Thread nD τ) (Pipeline.ucRefs τ sig) (V12 m (outsC m) c) ∗ RR c)
  X c := iprop(∃ r, prngReg c r)
  Y c := iprop(∃ r, prngReg c r)
  Z c := Pipeline.unscopedRest (Ix := Unit) (Name := ℕ) (U := UR sig nD τ) (Lvl := ℕ) spec1 c (E11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact hout1' (E11 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E11 m c) (fun b => V12 m (outsC m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some state,
    nothing owed": its arrays split out of the unscoped buffers at entry and put back at the exit contents; the generator
    register into the invariant and out; no semaphore of the kernel's own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (E14 m) c).loose
  hwaits := Pipeline.hwaits_of_owed_zero _ _ _ _ L lv 2 fun _ _ => rfl
  pre c := iprop(StableHlo.held (c : Thread nD τ) (Pipeline.ucRefs τ sig) (V14 m (outsB m) c) ∗ RR c)
  post c := iprop(StableHlo.held (c : Thread nD τ) (Pipeline.ucRefs τ sig) (V15 m (outsC m) c) ∗ RR c)
  X c := iprop(∃ r, prngReg c r)
  Y c := iprop(∃ r, prngReg c r)
  Z c := Pipeline.unscopedRest (Ix := Unit) (Name := ℕ) (U := UR sig nD τ) (Lvl := ℕ) spec2 c (E14 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E14 m c) (fun b => V15 m (outsC m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- At the launch a core's generator register and its empty dues make what rides beside the buffers. -/
theorem hRR (c : Dev nD) : (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
    ⊢ RR (F := F) c := by
  iintro ⟨-, HO, -, Hp, -⟩
  isplitl [Hp]; · iexists _; iexact Hp
  iexists ∅; iexact HO

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => RR (F := F) c) : sProp 𝕄) := by
  have h1 : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
      ⊢ (bigSep Finset.univ (fun c : Dev nD => RR (F := F) c) : sProp 𝕄) :=
    bigSep_mono fun c _ => hRR ρ c
  iintro ⟨H, -⟩
  imodintro
  iapply h1
  iexact H

set_option backward.isDefEq.respectTransparency.types false in
/-- Every weakly fair execution of @main from `m` with zero counters terminates, and every final memory holds every
    unscoped buffer of each core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V16 m (outsC m) c b) :=
  run_cond m (outsC m) emb₁ () Variants.none L lv (fun _ _ => rfl) ρ (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => RR c)
    (hE0 ρ)
    (fun c => by iintro ⟨-, HO⟩; iexact HO)
    (reg0 m) (fun c => .rfl) (fun c => .rfl)
    (reg1 m) (fun c => by rw [V11_eq]; exact .rfl) (fun c => .rfl)
    (reg2 m) (fun c => by rw [V14_eq]; exact .rfl) (fun c => .rfl)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the result array and the arguments read off the last valuation: the result array ends at `V16` at it, every
    argument as launched (no host stretch writes an argument and no region may change one). -/
theorem run_value : θ_run defs (onTc (τ := τ) (main (F := F))) ⟨m, fun _ => 0, ρ⟩ (fun r => ∀ c : Dev nD,
      r.2.mem ((c.tc : Thread nD τ).loc main_v96) = V16 m (outsC m) c main_v96
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v96 (by decide)),
      (h c _ (mem_uc main_arg0 (by decide))).trans (V16_main_arg0 m (outsC m) c),
      (h c _ (mem_uc main_arg1 (by decide))).trans (V16_main_arg1 m (outsC m) c),
      (h c _ (mem_uc main_arg2 (by decide))).trans (V16_main_arg2 m (outsC m) c),
      (h c _ (mem_uc main_arg3 (by decide))).trans (V16_main_arg3 m (outsC m) c),
      (h c _ (mem_uc main_arg4 (by decide))).trans (V16_main_arg4 m (outsC m) c),
      (h c _ (mem_uc main_arg5 (by decide))).trans (V16_main_arg5 m (outsC m) c),
      (h c _ (mem_uc main_arg6 (by decide))).trans (V16_main_arg6 m (outsC m) c),
      (h c _ (mem_uc main_arg7 (by decide))).trans (V16_main_arg7 m (outsC m) c),
      (h c _ (mem_uc main_arg8 (by decide))).trans (V16_main_arg8 m (outsC m) c),
      (h c _ (mem_uc main_arg9 (by decide))).trans (V16_main_arg9 m (outsC m) c),
      (h c _ (mem_uc main_arg10 (by decide))).trans (V16_main_arg10 m (outsC m) c),
      (h c _ (mem_uc main_arg11 (by decide))).trans (V16_main_arg11 m (outsC m) c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_value m ρ)

end Cert.KernelIdeal.Hand

end
-- ==== Proof.KI.Value0.lean ====
/-
  Graph convolution 1: what a point leaves, as values. The pieces a run found are its stores' payloads over what its
  loads read: a middle or last point leaves in the accumulator the point's term added to what it found there; the first
  point of a row tile the term added to the zero block it has just stored; the last point leaves in the output block the
  accumulator it has just updated, scaled by 1/64 and clipped below at zero.
-/
import proofs.«145989_j32908039422281_1_alg».proof.Proof.KI.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem sout0B_eq (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : ¬last0 i)
    (x0 : Vec F S1x4096x128 .f32) (x1 : Vec F S1x128x128 .f32) (x2 : Vec F S1x1x128 .f32) (xs : Vec F S4096x128 .f32) :
    sout0B c i arg2 harg2 arg3 harg3 arg4 harg4 arg5 harg5 arg6 harg6 hc0 hc1 x0 x1 x2 xs = k0_pay2 x0 x1 x2 xs := by
  unfold sout0B
  rw [View.read_writes_eq_canon _ _ _ (scover0B c i arg2 harg2 arg3 harg3 arg4 harg4 arg5 harg5 arg6 harg6 hc0 hc1 x0 x1 x2 xs)]
  unfold run0B
  dsimp only
  (try sl_unfold_words)
  rw [View.canon_unit_zero hz2]
  simp only [View.readAt_eq_ld, harg2.read_unread, harg3.read_unread, harg4.read_unread, harg5.read_unread, harg6.read_unread, View.ld_unit_zero (S := S1x4096x128) hz3, View.ld_unit_zero (S := S1x128x128) hz3, View.ld_unit_zero (S := S1x1x128) hz3, View.ld_unit_zero (S := S4096x128) hz2]

theorem sout0C_eq (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : last0 i)
    (x0 : Vec F S1x4096x128 .f32) (x1 : Vec F S1x128x128 .f32) (x2 : Vec F S1x1x128 .f32) (xs : Vec F S4096x128 .f32) :
    sout0C c i arg2 harg2 arg3 harg3 arg4 harg4 arg5 harg5 arg6 harg6 hc0 hc1 x0 x1 x2 xs = k0_pay2 x0 x1 x2 xs := by
  unfold sout0C
  rw [View.read_writes_eq_canon _ _ _ (scover0C c i arg2 harg2 arg3 harg3 arg4 harg4 arg5 harg5 arg6 harg6 hc0 hc1 x0 x1 x2 xs)]
  unfold run0C
  dsimp only
  (try sl_unfold_words)
  rw [View.canon_unit_zero hz2]
  simp only [View.readAt_eq_ld, harg2.read_unread, harg3.read_unread, harg4.read_unread, harg5.read_unread, harg6.read_unread, View.ld_unit_zero (S := S1x4096x128) hz3, View.ld_unit_zero (S := S1x128x128) hz3, View.ld_unit_zero (S := S1x1x128) hz3, View.ld_unit_zero (S := S4096x128) hz2]

theorem out0C_eq (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : ¬first0 i) (hc1 : last0 i)
    (x0 : Vec F S1x4096x128 .f32) (x1 : Vec F S1x128x128 .f32) (x2 : Vec F S1x1x128 .f32) (xs : Vec F S4096x128 .f32) :
    out0C c i arg2 harg2 arg3 harg3 arg4 harg4 arg5 harg5 arg6 harg6 hc0 hc1 x0 x1 x2 xs = k0_pay3 (k0_pay2 x0 x1 x2 xs) := by
  unfold out0C
  rw [View.read_writes_eq_canon _ _ _ (cover0C c i arg2 harg2 arg3 harg3 arg4 harg4 arg5 harg5 arg6 harg6 hc0 hc1 x0 x1 x2 xs)]
  unfold run0C
  dsimp only
  sl_unfold_words

  rw [View.canon_unit_zero hz2, View.readCov_unit_zero (S := S4096x128) _ hz2]
  simp only [View.readAt_eq_ld, harg2.read_unread, harg3.read_unread, harg4.read_unread, harg5.read_unread, harg6.read_unread, View.ld_unit_zero (S := S1x4096x128) hz3, View.ld_unit_zero (S := S1x128x128) hz3, View.ld_unit_zero (S := S1x1x128) hz3, View.ld_unit_zero (S := S4096x128) hz2]

theorem sout0A_eq (c : Dev nD) (i : grid0.Coords) (arg2 : Memref sig .tc .vmem S1x4096x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4096x128 .f32) (harg5 : arg5.IsWhole) (arg6 : Memref sig .tc .vmem S4096x128 .f32) (harg6 : arg6.IsWhole) (hc0 : first0 i) (hc1 : ¬last0 i)
    (x0 : Vec F S1x4096x128 .f32) (x1 : Vec F S1x128x128 .f32) (x2 : Vec F S1x1x128 .f32) :
    sout0A c i arg2 harg2 arg3 harg3 arg4 harg4 arg5 harg5 arg6 harg6 hc0 hc1 x0 x1 x2 = k0_pay2 x0 x1 x2 (k0_pay1 (F := F)) := by
  unfold sout0A
  rw [View.read_writes_eq_canon _ _ _ (scover0A c i arg2 harg2 arg3 harg3 arg4 harg4 arg5 harg5 arg6 harg6 hc0 hc1 x0 x1 x2)]
  unfold run0A
  dsimp only
  sl_unfold_words

  rw [View.canon_cons_unit_zero (S := S4096x128) hz2, View.readCov_unit_zero (S := S4096x128) _ hz2]
  simp only [View.readAt_eq_ld, harg2.read_unread, harg3.read_unread, harg4.read_unread, harg5.read_unread, harg6.read_unread, View.ld_unit_zero (S := S1x4096x128) hz3, View.ld_unit_zero (S := S1x128x128) hz3, View.ld_unit_zero (S := S1x1x128) hz3, View.ld_unit_zero (S := S4096x128) hz2]

/-! ## The accumulator along the grid, as values -/

variable (V : (c : Dev nD) → (b : Ref sig .tc) → Buf (Elt F) ((c : Thread nD τ).loc b))

/-- The accumulator after position `n`: the position's term added to what the position before left, or to the zero block
    at the first position of a row tile. -/
def accAt0 (c : Dev nD) : (n : ℕ) → n < cfg0.N → Vec F S4096x128 .f32
  | 0, hn => k0_pay2 (iblk0 V c 0 ⟨0, hn⟩) (iblk0 V c 1 ⟨0, hn⟩) (iblk0 V c 2 ⟨0, hn⟩) (k0_pay1 (F := F))
  | n + 1, hn => k0_pay2 (iblk0 V c 0 ⟨n + 1, hn⟩) (iblk0 V c 1 ⟨n + 1, hn⟩) (iblk0 V c 2 ⟨n + 1, hn⟩) (if (n + 1) % 64 = 0 then k0_pay1 (F := F) else accAt0 c n (Nat.lt_of_succ_lt hn))

/-- What the runs leave in the accumulator is that, by induction on the position. -/
theorem outsAt0_snd (c : Dev nD) : ∀ (n : ℕ) (hn : n < cfg0.N), (outsAt0 V c n hn).2 = accAt0 V c n hn
  | 0, hn => by
    rw [outsAt0_A V c ⟨0, hn⟩ (Nat.zero_mod _) (by dsimp only; omega)]
    dsimp only
    rw [sout0A_eq]
    simp only [accAt0]
  | n + 1, hn => by
    by_cases h0 : (n + 1) % 64 = 0
    · have h1 : ¬(n + 1) % 64 = 63 := by omega
      rw [outsAt0_A V c ⟨n + 1, hn⟩ h0 h1]
      dsimp only
      rw [sout0A_eq]
      simp only [accAt0, if_pos h0]
    · by_cases h1 : (n + 1) % 64 = 63
      · rw [outsAt0_C V c ⟨n + 1, hn⟩ h0 h1]
        dsimp only
        rw [sout0C_eq]
        simp only [accAt0, if_neg h0]
        exact congrArg _ (outsAt0_snd c n _)
      · rw [outsAt0_B V c ⟨n + 1, hn⟩ h0 h1]
        dsimp only
        rw [sout0B_eq]
        simp only [accAt0, if_neg h0]
        exact congrArg _ (outsAt0_snd c n _)

/-- At the last position of a row tile the output block's buffer is left at the updated accumulator, scaled. -/
theorem outsAt0_fst (c : Dev nD) (t : Fin cfg0.N) (h1 : t.val % 64 = 63) :
    (outsAt0 V c t.val t.isLt).1 = k0_pay3 (accAt0 V c t.val t.isLt) := by
  have h0 : ¬t.val % 64 = 0 := by omega
  rw [outsAt0_C V c t h0 h1]
  dsimp only
  rw [out0C_eq]
  obtain ⟨n, hn⟩ := t
  cases n with
  | zero => exact absurd (Nat.zero_mod _) h0
  | succ n =>
    simp only [accAt0, if_neg h0]
    exact congrArg _ (congrArg _ (outsAt0_snd V c n _))

end Cert.KernelIdeal.Hand

end
-- ==== Proof.Spec.lean ====
/-
  The arithmetic both programs are read against, over the extended reals.
  * One relation's term of a graph-convolution entry: the node's row of aggregated features times the relation's weight
    column, plus the relation's bias entry.
  * A one-step LSTM cell from zero initial state: with the 128 gate pre-activations laid out input | forget | cell |
    output (32 each), the cell state is σ(i)·tanh(g) (the forget gate multiplies the zero initial state and drops out) and
    the output σ(o)·tanh(cell state).
-/
import Idealize.ShloMosaic.PureOps.Ideal

noncomputable section

namespace Cert.Spec

open Idealize.ShloMosaic

/-- Σ_f a(f)·w(f) + b over the extended reals. -/
def relTerm {K : ℕ} (a w : Fin K → EReal) (b : EReal) : EReal := (∑ f : Fin K, a f * w f) + b

/-- The gate pre-activation q of a direction: Σ_k x(k)·w(q,k) + b_ih(q) + b_hh(q), grouped as the programs group it. -/
def gate {K : ℕ} (x : Fin K → EReal) (w : Fin 128 → Fin K → EReal) (bih bhh : Fin 128 → EReal) (q : Fin 128) : EReal :=
  ((∑ k : Fin K, x k * w q k) + bih q) + bhh q

/-- σ(o)·tanh(σ(i)·tanh(g)) at hidden unit j, from the 128 pre-activations. -/
def cell (g : Fin 128 → EReal) (j : Fin 32) : EReal :=
  Ideal.logistic (g ⟨96 + j.val, by omega⟩) * Ideal.tanh (Ideal.logistic (g ⟨j.val, by omega⟩) * Ideal.tanh (g ⟨64 + j.val, by omega⟩))

end Cert.Spec

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.KI.Pay.lean ====
/-
  The three kernels' arithmetic over the extended reals, read at one entry.

  * Graph convolution (both layers): the accumulator starts at zero; one relation's step adds to the accumulator the
    node's aggregated row times the relation's weight column plus the relation's bias entry (the narrowing of both
    operands before the product is the identity over the extended reals, the product into a zero matrix is the plain
    sum over the 128 features, the bias row is flattened, restored and repeated over the rows); the epilogue scales by
    1/64 (kept as its word) and, in the first layer only, takes the maximum with zero.
  * One-step bidirectional LSTM from zero state: per direction the 128 gate pre-activations are the input row times the
    transposed weight plus the two bias rows; the gates are the column ranges 0–31 (input), 64–95 (cell) and 96–127
    (output); the direction's output is σ(o)·tanh(σ(i)·tanh(g)); the forward direction fills columns 0–31 of the result
    row and the backward direction columns 32–63.
-/
import proofs.«145989_j32908039422281_1_alg».proof.Proof.Gen.KernelIdeal.Skeleton
import proofs.«145989_j32908039422281_1_alg».proof.Proof.Spec
import proofs.«145989_j32908039422281_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## Graph convolution -/

/-- The first graph convolution's initial accumulator is zero at every entry. -/
theorem k0_pay1_apply (p : Fin 4096) (o : Fin 128) : k0_pay1 (F := Ideal) (ix2 p o) = 0 := by
  unfold k0_pay1
  rw [shapeCast_self]
  exact Ideal.ofBits_zero_f32

/-- The second graph convolution's initial accumulator is zero at every entry. -/
theorem k1_pay1_apply (p : Fin 4096) (o : Fin 64) : k1_pay1 (F := Ideal) (ix2 p o) = 0 := by
  unfold k1_pay1
  rw [shapeCast_self]
  exact Ideal.ofBits_zero_f32

/-- The first graph convolution's epilogue: the accumulated sum times 1/64, then the maximum with zero. -/
theorem k0_pay3_apply (acc : Vec Ideal S4096x128 .f32) (p : Fin 4096) (o : Fin 128) :
    k0_pay3 (F := Ideal) acc (ix2 p o) = max (acc (ix2 p o) * Ideal.ofBits .f32 0x3C800000#32) 0 := by
  unfold k0_pay3
  rw [maximumf_apply, mulf_apply, broadcast_apply, broadcast_apply]
  show max (acc (ix2 p o) * Ideal.ofBits .f32 0x3C800000#32) (Ideal.ofBits .f32 0x00000000#32) = _
  rw [Ideal.ofBits_zero_f32]

/-- The second graph convolution's epilogue: the accumulated sum times 1/64. -/
theorem k1_pay3_apply (acc : Vec Ideal S4096x64 .f32) (p : Fin 4096) (o : Fin 64) :
    k1_pay3 (F := Ideal) acc (ix2 p o) = acc (ix2 p o) * Ideal.ofBits .f32 0x3C800000#32 := by
  unfold k1_pay3
  rfl

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- One relation's step of the first graph convolution: the accumulator plus the node's aggregated row times the
    relation's weight column plus the relation's bias entry. -/
theorem k0_pay2_apply (x : Vec Ideal S1x4096x128 .f32) (w : Vec Ideal S1x128x128 .f32) (b : Vec Ideal S1x1x128 .f32)
    (acc : Vec Ideal S4096x128 .f32) (p : Fin 4096) (o : Fin 128) :
    k0_pay2 (F := Ideal) x w b acc (ix2 p o)
      = acc (ix2 p o) + Cert.Spec.relTerm (fun f : Fin 128 => x (ix3 0 p f)) (fun f => w (ix3 0 f o)) (b (ix3 0 0 o)) := by
  unfold k0_pay2
  rw [shapeCast_self, addf_apply, addf_apply,
    LibPlainMatmul.matmul_eq_plain_zero_apply dot_S4096x128_S128x128_S4096x128_1_0_0_1_n_n rfl,
    broadcastTo_1b_ab_apply, shapeCast_a_1a_apply, shapeCast_11a_a_apply]
  simp only [truncf_apply, shapeCast_1ab_ab_apply]
  rfl

/-- One relation's step of the second graph convolution (64 output columns). -/
theorem k1_pay2_apply (x : Vec Ideal S1x4096x128 .f32) (w : Vec Ideal S1x128x64 .f32) (b : Vec Ideal S1x1x64 .f32)
    (acc : Vec Ideal S4096x64 .f32) (p : Fin 4096) (o : Fin 64) :
    k1_pay2 (F := Ideal) x w b acc (ix2 p o)
      = acc (ix2 p o) + Cert.Spec.relTerm (fun f : Fin 128 => x (ix3 0 p f)) (fun f => w (ix3 0 f o)) (b (ix3 0 0 o)) := by
  unfold k1_pay2
  rw [shapeCast_self, addf_apply, addf_apply,
    LibPlainMatmul.matmul_eq_plain_zero_apply dot_S4096x128_S128x64_S4096x64_1_0_0_1_n_n rfl,
    broadcastTo_1b_ab_apply, shapeCast_a_1a_apply, shapeCast_11a_a_apply]
  simp only [truncf_apply, shapeCast_1ab_ab_apply]
  rfl

/-! ## The bidirectional LSTM step -/

/-- The logistic function of a vector, read at an index. -/
theorem logistic_apply {s : Shape} {φ : FTy} (a : FVec Ideal s φ) (i : s.Idx) : logistic a i = Ideal.logistic (a i) := rfl

/-- The hyperbolic tangent of a vector, read at an index. -/
theorem tanh_apply {s : Shape} {φ : FTy} (a : FVec Ideal s φ) (i : s.Idx) :
    Idealize.ShloMosaic.tanh a i = Ideal.tanh (a i) := rfl

/-- A bias row `[1, 128]`, flattened, restored and broadcast over the 4096 rows, read at `(p, q)`. -/
theorem bias_row_apply (b : Vec Ideal S1x128 .f32) (p : Fin 4096) (q : Fin 128) :
    broadcastTo S4096x128 (shapeCast S1x128 (shapeCast S128 b shapeCasts_S1x128_S128) shapeCasts_S128_S1x128)
      broadcasts_S1x128_S4096x128 (ix2 p q) = b (ix2 0 q) := by
  rw [broadcastTo_1b_ab_apply, shapeCast_a_1a_apply, shapeCast_1a_a_apply]

/-- The input row times a direction's transposed weight, read at `(p, q)`: Σ_k x(p,k)·w(q,k). -/
theorem gate_dot_apply (v0 : Vec Ideal S4096x64 .f32) (w : Vec Ideal S1x128x64 .f32) (p : Fin 4096) (q : Fin 128) :
    matmul dot_S4096x64_S64x128_S4096x128_1_0_0_1_n_n none (k2_pay2 (F := Ideal) v0)
      (transpose S64x128 [1, 0] (truncf .bf16 (shapeCast S128x64 w shapeCasts_S1x128x64_S128x64) bitsLt_bf16_f32)
        transposes_S128x64_p1_0_S64x128)
      (constant (F := Ideal) S4096x128 .f32 0x00000000#32) (ix2 p q)
      = ∑ k : Fin 64, v0 (ix2 p k) * w (ix3 0 q k) := by
  rw [LibPlainMatmul.matmul_eq_plain_zero_apply dot_S4096x64_S64x128_S4096x128_1_0_0_1_n_n rfl]
  refine Finset.sum_congr rfl fun k _ => ?_
  unfold k2_pay2
  rw [truncf_apply, shapeCast_self]
  exact congrArg (v0 (ix2 p k) * ·)
    ((transpose_ix2_apply _ transposes_S128x64_p1_0_S64x128 k q).trans (shapeCast_1ab_ab_apply w _ q k))

/-- The forward direction's 128 gate pre-activations at row `p`. -/
theorem pre_fwd_apply (v0 : Vec Ideal S4096x64 .f32) (v3 : Vec Ideal S1x128x64 .f32) (v8 v13 : Vec Ideal S1x128 .f32)
    (p : Fin 4096) (q : Fin 128) :
    addf (addf
      (matmul dot_S4096x64_S64x128_S4096x128_1_0_0_1_n_n none (k2_pay2 (F := Ideal) v0)
        (transpose S64x128 [1, 0] (truncf .bf16 (shapeCast S128x64 v3 shapeCasts_S1x128x64_S128x64) bitsLt_bf16_f32)
          transposes_S128x64_p1_0_S64x128)
        (constant (F := Ideal) S4096x128 .f32 0x00000000#32))
      (broadcastTo S4096x128 (shapeCast S1x128 (shapeCast S128 v8 shapeCasts_S1x128_S128) shapeCasts_S128_S1x128)
        broadcasts_S1x128_S4096x128))
      (broadcastTo S4096x128 (shapeCast S1x128 (shapeCast S128 v13 shapeCasts_S1x128_S128) shapeCasts_S128_S1x128)
        broadcasts_S1x128_S4096x128) (ix2 p q)
      = Cert.Spec.gate (fun k : Fin 64 => v0 (ix2 p k)) (fun q k => v3 (ix3 0 q k)) (fun q => v8 (ix2 0 q))
          (fun q => v13 (ix2 0 q)) q := by
  rw [addf_apply, addf_apply, gate_dot_apply, bias_row_apply, bias_row_apply]
  rfl

/-- The forward direction's cell output at hidden unit `j`. -/
theorem k2_pay3_apply (v0 : Vec Ideal S4096x64 .f32) (v3 : Vec Ideal S1x128x64 .f32) (v8 v13 : Vec Ideal S1x128 .f32)
    (p : Fin 4096) (j : Fin 32) :
    k2_pay3 (F := Ideal) v0 v3 v8 v13 (ix2 p j)
      = Cert.Spec.cell (Cert.Spec.gate (fun k : Fin 64 => v0 (ix2 p k)) (fun q k => v3 (ix3 0 q k))
          (fun q => v8 (ix2 0 q)) (fun q => v13 (ix2 0 q))) j := by
  unfold k2_pay3
  rw [mulf_apply, logistic_apply, tanh_apply, mulf_apply, logistic_apply, tanh_apply,
    slice2_axis1_eq, slice2_axis1_eq, slice2_axis1_eq, pre_fwd_apply, pre_fwd_apply, pre_fwd_apply]
  unfold Cert.Spec.cell
  simp only [Nat.zero_add]

/-- The backward direction's 128 gate pre-activations at row `p`: the product and the first bias, then the second
    bias row. -/
theorem pre_bwd_apply (v0 : Vec Ideal S4096x64 .f32) (v28 : Vec Ideal S1x128x64 .f32) (v33 v38 : Vec Ideal S1x128 .f32)
    (p : Fin 4096) (q : Fin 128) :
    addf (k2_pay4 (F := Ideal) v0 v28 v33) (broadcastTo S4096x128 (k2_pay5 (F := Ideal) v38) broadcasts_S1x128_S4096x128)
      (ix2 p q)
      = Cert.Spec.gate (fun k : Fin 64 => v0 (ix2 p k)) (fun q k => v28 (ix3 0 q k)) (fun q => v33 (ix2 0 q))
          (fun q => v38 (ix2 0 q)) q := by
  unfold k2_pay4 k2_pay5
  rw [addf_apply, addf_apply, gate_dot_apply, bias_row_apply, bias_row_apply]
  rfl

/-- The left half of the output row (columns 0–31) is the forward direction's cell output. -/
theorem k2_pay1_fwd (v0 : Vec Ideal S4096x64 .f32) (v3 v28 : Vec Ideal S1x128x64 .f32)
    (v8 v13 v33 v38 : Vec Ideal S1x128 .f32) (p : Fin 4096) (j : Fin 32) :
    k2_pay1 (F := Ideal) (k2_pay3 v0 v3 v8 v13) (k2_pay4 v0 v28 v33) (k2_pay5 v38)
        (ix2 p (⟨j.val, by omega⟩ : Fin 64))
      = Cert.Spec.cell (Cert.Spec.gate (fun k : Fin 64 => v0 (ix2 p k)) (fun q k => v3 (ix3 0 q k))
          (fun q => v8 (ix2 0 q)) (fun q => v13 (ix2 0 q))) j := by
  unfold k2_pay1
  rw [concatenate_pair_apply_left _ _ _ concatenates_S4096x32_S4096x32_S4096x64_d1 _ rfl (ix2 p j)
    (fun b => by match b with | ⟨0, _⟩ => rfl | ⟨1, _⟩ => rfl)]
  exact k2_pay3_apply v0 v3 v8 v13 p j

/-- The right half of the output row (columns 32–63) is the backward direction's cell output. -/
theorem k2_pay1_bwd (v0 : Vec Ideal S4096x64 .f32) (v3 v28 : Vec Ideal S1x128x64 .f32)
    (v8 v13 v33 v38 : Vec Ideal S1x128 .f32) (p : Fin 4096) (j : Fin 32) :
    k2_pay1 (F := Ideal) (k2_pay3 v0 v3 v8 v13) (k2_pay4 v0 v28 v33) (k2_pay5 v38)
        (ix2 p (⟨32 + j.val, by omega⟩ : Fin 64))
      = Cert.Spec.cell (Cert.Spec.gate (fun k : Fin 64 => v0 (ix2 p k)) (fun q k => v28 (ix3 0 q k))
          (fun q => v33 (ix2 0 q)) (fun q => v38 (ix2 0 q))) j := by
  unfold k2_pay1
  rw [concatenate_pair_apply_right _ _ _ concatenates_S4096x32_S4096x32_S4096x64_d1 _ rfl rfl (ix2 p j)
    (fun b hb => by match b, hb with | ⟨0, _⟩, _ => rfl | ⟨1, _⟩, hb => exact absurd rfl hb)
    (by show j.val + 32 = 32 + j.val; omega)]
  rw [mulf_apply, logistic_apply, tanh_apply, mulf_apply, logistic_apply, tanh_apply,
    slice2_axis1_eq, slice2_axis1_eq, slice2_axis1_eq, pre_bwd_apply, pre_bwd_apply, pre_bwd_apply]
  unfold Cert.Spec.cell
  simp only [Nat.zero_add]

end Cert.KernelIdeal.Pay

end
-- ==== Proof.LibRunningTotal.lean ====
/-
  A running total over an additive commutative monoid (no subtraction, no order, nothing asked to be finite — the
  extended reals are an instance): starting from zero and adding one term at a time on the right, in order, gives
  the sum of the terms; and the same when the first step overwrites whatever was there with `0 + s 0` instead of
  reading it.  This is the arithmetic of an accumulator that is cleared at the first of `n` consecutive steps and
  added into at every step, for example an output block kept resident while a contraction is taken in `n` blocks.
-/
import Mathlib.Algebra.BigOperators.Fin
import Mathlib.Algebra.BigOperators.Group.Finset.Basic
import Mathlib.Data.Fintype.BigOperators

open scoped BigOperators

namespace Cert.LibRunningTotal

/-- A running total `a` over `n` terms: `a 0 = 0` and each step adds the next term on the right, `a (k + 1) = a k + s k`.
    After `m ≤ n` steps it is the sum of the first `m` terms. -/
theorem acc_prefix {M : Type*} [AddCommMonoid M] {n : ℕ} (s : Fin n → M) (a : ℕ → M) (h0 : a 0 = 0)
    (hstep : ∀ k (hk : k < n), a (k + 1) = a k + s ⟨k, hk⟩) :
    ∀ m (hm : m ≤ n), a m = ∑ k : Fin m, s (Fin.castLE hm k) := by
  intro m
  induction m with
  | zero => intro _; rw [h0]; exact (Finset.sum_empty).symm
  | succ m ih =>
    intro hm
    rw [hstep m hm, ih (Nat.le_of_succ_le hm), Fin.sum_univ_castSucc]
    rfl

/-- After all `n` steps the running total is the sum of all the terms. -/
theorem acc_total {M : Type*} [AddCommMonoid M] {n : ℕ} (s : Fin n → M) (a : ℕ → M) (h0 : a 0 = 0)
    (hstep : ∀ k (hk : k < n), a (k + 1) = a k + s ⟨k, hk⟩) : a n = ∑ k : Fin n, s k :=
  (acc_prefix s a h0 hstep n le_rfl).trans (Finset.sum_congr rfl fun _ _ => congrArg s (Fin.ext rfl))

/-- The same when the first step does not read what was there before but writes `0 + s 0` (the total is cleared, then
    the first term added), and every later step adds its term on the right. -/
theorem acc_total_cleared {M : Type*} [AddCommMonoid M] {n : ℕ} (s : Fin (n + 1) → M) (a : ℕ → M)
    (hfirst : a 1 = 0 + s 0)
    (hstep : ∀ k (hk : k < n + 1), 0 < k → a (k + 1) = a k + s ⟨k, hk⟩) : a (n + 1) = ∑ k : Fin (n + 1), s k := by
  let a' : ℕ → M := fun k => if k = 0 then 0 else a k
  have h0 : a' 0 = 0 := if_pos rfl
  have hs : ∀ k (hk : k < n + 1), a' (k + 1) = a' k + s ⟨k, hk⟩ := by
    intro k hk
    show (if k + 1 = 0 then 0 else a (k + 1)) = (if k = 0 then 0 else a k) + s ⟨k, hk⟩
    rw [if_neg (Nat.succ_ne_zero k)]
    by_cases hk0 : k = 0
    · subst hk0; rw [if_pos rfl]; exact hfirst
    · rw [if_neg hk0]; exact hstep k hk (Nat.pos_of_ne_zero hk0)
  have := acc_total s a' h0 hs
  rwa [show a' (n + 1) = a (n + 1) from if_neg (Nat.succ_ne_zero n)] at this

end Cert.LibRunningTotal
-- ==== Proof.KI.Conv0.lean ====
/-
  Graph convolution 1 over the extended reals, entry by entry. Point t of the grid is row tile t / 64 at relation
  t % 64: its feature block is rows 4096·(t/64) … of relation t%64's aggregated features, its weight block that relation's
  matrix, its bias block that relation's row. One step adds the relation's term to the accumulator's entry; the first
  relation of a tile adds it to zero. So after the tile's last relation the accumulator's entry is the sum of the 64
  relations' terms (a running total cleared at its first step).
-/
import proofs.«145989_j32908039422281_1_alg».proof.Proof.KI.Value0
import proofs.«145989_j32908039422281_1_alg».proof.Proof.KI.Pay
import proofs.«145989_j32908039422281_1_alg».proof.Proof.LibRunningTotal
import proofs.«145989_j32908039422281_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid. -/
theorem idx0 : ∀ t : Fin cfg0.N,
    win0_0.index t (0 : Fin 3) = t.val % 64 ∧ win0_0.index t (1 : Fin 3) = t.val / 64 ∧ win0_0.index t (2 : Fin 3) = 0
    ∧ win0_1.index t (0 : Fin 3) = t.val % 64 ∧ win0_1.index t (1 : Fin 3) = 0 ∧ win0_1.index t (2 : Fin 3) = 0
    ∧ win0_2.index t (0 : Fin 3) = t.val % 64 ∧ win0_2.index t (1 : Fin 3) = 0 ∧ win0_2.index t (2 : Fin 3) = 0
    ∧ win0_3.index t (0 : Fin 2) = t.val / 64 ∧ win0_3.index t (1 : Fin 2) = 0 :=
  (by decide +kernel : ∀ t : Fin grid0.N, _)

theorem tlt0 (t : Fin cfg0.N) : t.val < 256 := lt_of_lt_of_eq t.isLt (show cfg0.N = 256 from N_0)

/-- The feature block at point t: relation t % 64, rows 4096·(t / 64) + p. -/
theorem iblk0_x (c : Dev nD) (t : Fin cfg0.N) (p : Fin 4096) (f : Fin 128) :
    iblk0 V c 0 t (ix3 0 p f)
      = V c main_v61 (ix3 (⟨t.val % 64, Nat.mod_lt _ (by decide)⟩ : Fin 64) (⟨t.val / 64 * 4096 + p.val, by have := tlt0 t; omega⟩ : Fin 16384) f) := by
  obtain ⟨e0, e1, e2, -⟩ := idx0 t
  unfold iblk0
  rw [View.read_apply]
  refine congrArg (V c main_v61) ?_
  funext a; apply Fin.ext
  match a with
  | ⟨0, _⟩ => show win0_0.index t (0 : Fin 3) * 1 + 1 * 0 = t.val % 64; omega
  | ⟨1, _⟩ => show win0_0.index t (1 : Fin 3) * 4096 + 1 * p.val = t.val / 64 * 4096 + p.val; omega
  | ⟨2, _⟩ => show win0_0.index t (2 : Fin 3) * 128 + 1 * f.val = f.val; omega

/-- The weight block at point t: relation t % 64's matrix. -/
theorem iblk0_w (c : Dev nD) (t : Fin cfg0.N) (f : Fin 128) (o : Fin 128) :
    iblk0 V c 1 t (ix3 0 f o) = V c main_arg4 (ix3 (⟨t.val % 64, Nat.mod_lt _ (by decide)⟩ : Fin 64) f o) := by
  obtain ⟨-, -, -, e0, e1, e2, -⟩ := idx0 t
  unfold iblk0
  rw [View.read_apply]
  refine congrArg (V c main_arg4) ?_
  funext a; apply Fin.ext
  match a with
  | ⟨0, _⟩ => show win0_1.index t (0 : Fin 3) * 1 + 1 * 0 = t.val % 64; omega
  | ⟨1, _⟩ => show win0_1.index t (1 : Fin 3) * 128 + 1 * f.val = f.val; omega
  | ⟨2, _⟩ => show win0_1.index t (2 : Fin 3) * 128 + 1 * o.val = o.val; omega

/-- The bias block at point t: relation t % 64's row. -/
theorem iblk0_b (c : Dev nD) (t : Fin cfg0.N) (o : Fin 128) :
    iblk0 V c 2 t (ix3 0 0 o) = V c main_v62 (ix3 (⟨t.val % 64, Nat.mod_lt _ (by decide)⟩ : Fin 64) (0 : Fin 1) o) := by
  obtain ⟨-, -, -, -, -, -, e0, e1, e2, -⟩ := idx0 t
  unfold iblk0
  rw [View.read_apply]
  refine congrArg (V c main_v62) ?_
  funext a; apply Fin.ext
  match a with
  | ⟨0, _⟩ => show win0_2.index t (0 : Fin 3) * 1 + 1 * 0 = t.val % 64; omega
  | ⟨1, _⟩ => show win0_2.index t (1 : Fin 3) * 1 + 1 * 0 = 0; omega
  | ⟨2, _⟩ => show win0_2.index t (2 : Fin 3) * 128 + 1 * o.val = o.val; omega

/-- Relation r's term of entry (n, o): the node's aggregated row times the relation's weight column, plus its bias entry. -/
def rel0 (c : Dev nD) (n : Fin 16384) (o : Fin 128) (r : Fin 64) : EReal :=
  Cert.Spec.relTerm (fun f : Fin 128 => V c main_v61 (ix3 r n f)) (fun f => V c main_arg4 (ix3 r f o)) (V c main_v62 (ix3 r (0 : Fin 1) o))

/-- The accumulator's entry after the first relation of a tile: zero plus that relation's term. -/
theorem accAt0_first (c : Dev nD) (n : ℕ) (hn : n < cfg0.N) (h0 : n % 64 = 0) (p : Fin 4096) (o : Fin 128) :
    accAt0 V c n hn (ix2 p o)
      = 0 + rel0 V c (⟨n / 64 * 4096 + p.val, by have := tlt0 ⟨n, hn⟩; dsimp only at this; omega⟩ : Fin 16384) o (⟨n % 64, Nat.mod_lt _ (by decide)⟩ : Fin 64) := by
  unfold rel0
  cases n with
  | zero => simp only [accAt0]; rw [k0_pay2_apply, k0_pay1_apply]; simp only [iblk0_x, iblk0_w, iblk0_b]
  | succ n => simp only [accAt0, if_pos h0]; rw [k0_pay2_apply, k0_pay1_apply]; simp only [iblk0_x, iblk0_w, iblk0_b]

/-- After any later relation: what the relation before left, plus this relation's term. -/
theorem accAt0_step (c : Dev nD) (n : ℕ) (hn : n + 1 < cfg0.N) (h0 : ¬(n + 1) % 64 = 0) (p : Fin 4096) (o : Fin 128) :
    accAt0 V c (n + 1) hn (ix2 p o)
      = accAt0 V c n (Nat.lt_of_succ_lt hn) (ix2 p o)
        + rel0 V c (⟨(n + 1) / 64 * 4096 + p.val, by have := tlt0 ⟨n + 1, hn⟩; dsimp only at this; omega⟩ : Fin 16384) o (⟨(n + 1) % 64, Nat.mod_lt _ (by decide)⟩ : Fin 64) := by
  unfold rel0
  simp only [accAt0, if_neg h0]; rw [k0_pay2_apply]; simp only [iblk0_x, iblk0_w, iblk0_b]

/-! ## A tile's total -/

theorem rel0_congr (c : Dev nD) {n n' : Fin 16384} {r r' : Fin 64} (o : Fin 128) (hn : n.val = n'.val) (hr : r.val = r'.val) :
    rel0 V c n o r = rel0 V c n' o r' := by
  obtain rfl : n = n' := Fin.ext hn
  obtain rfl : r = r' := Fin.ext hr
  rfl

/-- The accumulator's entry after position `n`, as a function on all naturals (zero past the grid). -/
def accN0 (c : Dev nD) (p : Fin 4096) (o : Fin 128) (n : ℕ) : EReal :=
  if h : n < cfg0.N then accAt0 V c n h (ix2 p o) else 0

theorem accN0_first (c : Dev nD) (q : Fin 4) (p : Fin 4096) (o : Fin 128) :
    accN0 V c p o (q.val * 64) = 0 + rel0 V c (⟨q.val * 4096 + p.val, by omega⟩ : Fin 16384) o (0 : Fin 64) := by
  have hN : cfg0.N = 256 := N_0
  unfold accN0
  rw [dif_pos (by omega)]
  rw [accAt0_first V c (q.val * 64) (by omega) (by omega) p o]
  exact congrArg (0 + ·) (rel0_congr V c o (by dsimp only; omega) (by dsimp only; omega))

theorem accN0_step (c : Dev nD) (q : Fin 4) (p : Fin 4096) (o : Fin 128) (j : ℕ) (hj : j + 1 < 64) :
    accN0 V c p o (q.val * 64 + (j + 1)) = accN0 V c p o (q.val * 64 + j) + rel0 V c (⟨q.val * 4096 + p.val, by omega⟩ : Fin 16384) o (⟨j + 1, hj⟩ : Fin 64) := by
  have hN : cfg0.N = 256 := N_0
  unfold accN0
  rw [dif_pos (by omega), dif_pos (by omega)]
  have h := accAt0_step V c (q.val * 64 + j) (by omega) (by omega) p o
  refine h.trans ?_
  exact congrArg (_ + ·) (rel0_congr V c o (by dsimp only; omega) (by dsimp only; omega))

/-- After a tile's last relation the accumulator's entry is the sum of the 64 relations' terms. -/
theorem acc_tile0 (c : Dev nD) (q : Fin 4) (p : Fin 4096) (o : Fin 128) :
    accN0 V c p o (q.val * 64 + 63) = ∑ r : Fin 64, rel0 V c (⟨q.val * 4096 + p.val, by omega⟩ : Fin 16384) o r := by
  have key := LibRunningTotal.acc_total_cleared (n := 63)
    (fun r : Fin 64 => rel0 V c (⟨q.val * 4096 + p.val, by omega⟩ : Fin 16384) o r)
    (fun j => accN0 V c p o (q.val * 64 + (j - 1)))
    (by show accN0 V c p o (q.val * 64 + (1 - 1)) = _; exact accN0_first V c q p o)
    (fun j hj hpos => by
      obtain ⟨j', rfl⟩ : ∃ j', j = j' + 1 := ⟨j - 1, by omega⟩
      show accN0 V c p o (q.val * 64 + (j' + 1 + 1 - 1)) = accN0 V c p o (q.val * 64 + (j' + 1 - 1)) + _
      exact accN0_step V c q p o j' hj)
  exact key

/-! ## The output array -/

/-- Entry (n, o) of the region's output array: the sum over the relations, times 1/64, clipped below at zero. -/
def conv0 (c : Dev nD) : S16384x128.Idx → EReal := fun i =>
  max ((∑ r : Fin 64, rel0 V c (i 0 : Fin 16384) (i 1 : Fin 128) r) * Ideal.ofBits .f32 0x3C800000#32) 0

/-- What the last point of tile q writes back is block q of that array. -/
theorem flushed0_eq (c : Dev nD) (t : Fin cfg0.N) (hf : (cfg0.win 3).flush t = true) :
    (dat0 V c).flushed 3 t = ((cfg0.win 3).blk t).view.read (Elt Ideal) (conv0 V c) := by
  have hN : cfg0.N = 256 := N_0
  have h63 : t.val % 64 = 63 := (flush0_3 t).mp hf
  obtain ⟨-, -, -, -, -, -, -, -, -, e0, e1⟩ := idx0 t
  show (cfg0.win 3).cut (grid0.coords t) ((dat0 V c).after 3 t) = _
  rw [after0_3, outsAt0_fst V c t h63]
  funext j
  obtain ⟨p, o, rfl⟩ : ∃ (p : Fin 4096) (o : Fin 128), j = ix2 p o := ⟨j 0, j 1, eq_ix2 j⟩
  rw [View.read_apply]
  show k0_pay3 (accAt0 V c t.val t.isLt) (ix2 p o) = conv0 V c (((cfg0.win 3).blk t).view.emb (ix2 p o))
  rw [k0_pay3_apply]
  have hq : t.val / 64 < 4 := by have := tlt0 t; omega
  have hacc : accAt0 V c t.val t.isLt (ix2 p o) = accN0 V c p o ((⟨t.val / 64, hq⟩ : Fin 4).val * 64 + 63) := by
    unfold accN0
    rw [dif_pos (by dsimp only; have := tlt0 t; omega)]
    congr 1
    · dsimp only; omega
  rw [hacc, acc_tile0]
  unfold conv0
  have hemb0 : ((((cfg0.win 3).blk t).view.emb (ix2 p o)) 0).val = t.val / 64 * 4096 + p.val := by
    show win0_3.index t (0 : Fin 2) * 4096 + 1 * p.val = _; omega
  have hemb1 : ((((cfg0.win 3).blk t).view.emb (ix2 p o)) 1).val = o.val := by
    show win0_3.index t (1 : Fin 2) * 128 + 1 * o.val = _; omega
  have hsum : (∑ r : Fin 64, rel0 V c (⟨(⟨t.val / 64, hq⟩ : Fin 4).val * 4096 + p.val, by dsimp only; omega⟩ : Fin 16384) o r)
      = ∑ r : Fin 64, rel0 V c ((((cfg0.win 3).blk t).view.emb (ix2 p o)) 0) ((((cfg0.win 3).blk t).view.emb (ix2 p o)) 1) r := by
    refine Finset.sum_congr rfl fun r _ => ?_
    have h1 : ((((cfg0.win 3).blk t).view.emb (ix2 p o)) 1) = o := Fin.ext hemb1
    rw [h1]
    exact rel0_congr V c o (by show t.val / 64 * 4096 + p.val = _; exact hemb0.symm) rfl
  rw [hsum]

/-- An index of the array is in point t's block iff each coordinate is in the block's range on its axis. -/
theorem mem_blk0 (t : Fin cfg0.N) (i : S16384x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v63).slice (win0_3.rect t)).set ↔ _
  rw [View.set_slice_whole, Rect.mem_set_unit]
  exact Iff.rfl

/-- Every entry of the array is in the block the last point of its row tile writes back. -/
theorem cover0 (i : S16384x128.Idx) :
    ∃ t : Fin cfg0.N, (cfg0.win 3).flush t = true ∧ i ∈ ((cfg0.win 3).blk t).view.set := by
  have hN : cfg0.N = 256 := N_0
  have hi0 : (i 0).val < 16384 := (i 0).isLt
  have hi1 : (i 1).val < 128 := (i 1).isLt
  have ht : (i 0).val / 4096 * 64 + 63 < cfg0.N := by omega
  obtain ⟨-, -, -, -, -, -, -, -, -, e0, e1⟩ := idx0 ⟨(i 0).val / 4096 * 64 + 63, ht⟩
  refine ⟨⟨(i 0).val / 4096 * 64 + 63, ht⟩, (flush0_3 _).mpr (by dsimp only; omega), ?_⟩
  rw [mem_blk0]
  intro a
  match a with
  | ⟨0, _⟩ =>
    show win0_3.index ⟨(i 0).val / 4096 * 64 + 63, ht⟩ (0 : Fin 2) * 4096 ≤ (i 0).val ∧ (i 0).val < win0_3.index ⟨(i 0).val / 4096 * 64 + 63, ht⟩ (0 : Fin 2) * 4096 + 4096
    rw [e0]; dsimp only; omega
  | ⟨1, _⟩ =>
    show win0_3.index ⟨(i 0).val / 4096 * 64 + 63, ht⟩ (1 : Fin 2) * 128 ≤ (i 1).val ∧ (i 1).val < win0_3.index ⟨(i 0).val / 4096 * 64 + 63, ht⟩ (1 : Fin 2) * 128 + 128
    rw [e1]; omega

/-- The region's output array after the region. -/
theorem final0 (c : Dev nD) : (dat0 V c).arrAt 3 cfg0.N = conv0 V c :=
  (dat0 V c).arrAt_eq_of_cover 3 (conv0 V c) (flushed0_eq V c) (cover0)

end Cert.KernelIdeal.Hand

end
-- ==== Proof.KI.Value1.lean ====
/-
  Graph convolution 2: what a point leaves, as values. The pieces a run found are its stores' payloads over what its
  loads read: a middle or last point leaves in the accumulator the point's term added to what it found there; the first
  point of a row tile the term added to the zero block it has just stored; the last point leaves in the output block the
  accumulator it has just updated, scaled by 1/64.
-/
import proofs.«145989_j32908039422281_1_alg».proof.Proof.KI.Region1
import proofs.«145989_j32908039422281_1_alg».proof.Proof.KI.Value0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem sout1B_eq (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : ¬last1 i)
    (x0 : Vec F S1x4096x128 .f32) (x1 : Vec F S1x128x64 .f32) (x2 : Vec F S1x1x64 .f32) (xs : Vec F S4096x64 .f32) :
    sout1B c i arg2 harg2 arg3 harg3 arg4 harg4 arg5 harg5 arg6 harg6 hc0 hc1 x0 x1 x2 xs = k1_pay2 x0 x1 x2 xs := by
  unfold sout1B
  rw [View.read_writes_eq_canon _ _ _ (scover1B c i arg2 harg2 arg3 harg3 arg4 harg4 arg5 harg5 arg6 harg6 hc0 hc1 x0 x1 x2 xs)]
  unfold run1B
  dsimp only
  (try sl_unfold_words)
  rw [View.canon_unit_zero hz2]
  simp only [View.readAt_eq_ld, harg2.read_unread, harg3.read_unread, harg4.read_unread, harg5.read_unread, harg6.read_unread, View.ld_unit_zero (S := S1x4096x128) hz3, View.ld_unit_zero (S := S1x128x64) hz3, View.ld_unit_zero (S := S1x1x64) hz3, View.ld_unit_zero (S := S4096x64) hz2]

theorem sout1C_eq (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : last1 i)
    (x0 : Vec F S1x4096x128 .f32) (x1 : Vec F S1x128x64 .f32) (x2 : Vec F S1x1x64 .f32) (xs : Vec F S4096x64 .f32) :
    sout1C c i arg2 harg2 arg3 harg3 arg4 harg4 arg5 harg5 arg6 harg6 hc0 hc1 x0 x1 x2 xs = k1_pay2 x0 x1 x2 xs := by
  unfold sout1C
  rw [View.read_writes_eq_canon _ _ _ (scover1C c i arg2 harg2 arg3 harg3 arg4 harg4 arg5 harg5 arg6 harg6 hc0 hc1 x0 x1 x2 xs)]
  unfold run1C
  dsimp only
  (try sl_unfold_words)
  rw [View.canon_unit_zero hz2]
  simp only [View.readAt_eq_ld, harg2.read_unread, harg3.read_unread, harg4.read_unread, harg5.read_unread, harg6.read_unread, View.ld_unit_zero (S := S1x4096x128) hz3, View.ld_unit_zero (S := S1x128x64) hz3, View.ld_unit_zero (S := S1x1x64) hz3, View.ld_unit_zero (S := S4096x64) hz2]

theorem out1C_eq (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : ¬first1 i) (hc1 : last1 i)
    (x0 : Vec F S1x4096x128 .f32) (x1 : Vec F S1x128x64 .f32) (x2 : Vec F S1x1x64 .f32) (xs : Vec F S4096x64 .f32) :
    out1C c i arg2 harg2 arg3 harg3 arg4 harg4 arg5 harg5 arg6 harg6 hc0 hc1 x0 x1 x2 xs = k1_pay3 (k1_pay2 x0 x1 x2 xs) := by
  unfold out1C
  rw [View.read_writes_eq_canon _ _ _ (cover1C c i arg2 harg2 arg3 harg3 arg4 harg4 arg5 harg5 arg6 harg6 hc0 hc1 x0 x1 x2 xs)]
  unfold run1C
  dsimp only
  sl_unfold_words

  rw [View.canon_unit_zero hz2, View.readCov_unit_zero (S := S4096x64) _ hz2]
  simp only [View.readAt_eq_ld, harg2.read_unread, harg3.read_unread, harg4.read_unread, harg5.read_unread, harg6.read_unread, View.ld_unit_zero (S := S1x4096x128) hz3, View.ld_unit_zero (S := S1x128x64) hz3, View.ld_unit_zero (S := S1x1x64) hz3, View.ld_unit_zero (S := S4096x64) hz2]

theorem sout1A_eq (c : Dev nD) (i : grid1.Coords) (arg2 : Memref sig .tc .vmem S1x4096x128 .f32) (harg2 : arg2.IsWhole) (arg3 : Memref sig .tc .vmem S1x128x64 .f32) (harg3 : arg3.IsWhole) (arg4 : Memref sig .tc .vmem S1x1x64 .f32) (harg4 : arg4.IsWhole) (arg5 : Memref sig .tc .vmem S4096x64 .f32) (harg5 : arg5.IsWhole) (arg6 : Memref sig .tc .vmem S4096x64 .f32) (harg6 : arg6.IsWhole) (hc0 : first1 i) (hc1 : ¬last1 i)
    (x0 : Vec F S1x4096x128 .f32) (x1 : Vec F S1x128x64 .f32) (x2 : Vec F S1x1x64 .f32) :
    sout1A c i arg2 harg2 arg3 harg3 arg4 harg4 arg5 harg5 arg6 harg6 hc0 hc1 x0 x1 x2 = k1_pay2 x0 x1 x2 (k1_pay1 (F := F)) := by
  unfold sout1A
  rw [View.read_writes_eq_canon _ _ _ (scover1A c i arg2 harg2 arg3 harg3 arg4 harg4 arg5 harg5 arg6 harg6 hc0 hc1 x0 x1 x2)]
  unfold run1A
  dsimp only
  sl_unfold_words

  rw [View.canon_cons_unit_zero (S := S4096x64) hz2, View.readCov_unit_zero (S := S4096x64) _ hz2]
  simp only [View.readAt_eq_ld, harg2.read_unread, harg3.read_unread, harg4.read_unread, harg5.read_unread, harg6.read_unread, View.ld_unit_zero (S := S1x4096x128) hz3, View.ld_unit_zero (S := S1x128x64) hz3, View.ld_unit_zero (S := S1x1x64) hz3, View.ld_unit_zero (S := S4096x64) hz2]

/-! ## The accumulator along the grid, as values -/

variable (V : (c : Dev nD) → (b : Ref sig .tc) → Buf (Elt F) ((c : Thread nD τ).loc b))

/-- The accumulator after position `n`: the position's term added to what the position before left, or to the zero block
    at the first position of a row tile. -/
def accAt1 (c : Dev nD) : (n : ℕ) → n < cfg1.N → Vec F S4096x64 .f32
  | 0, hn => k1_pay2 (iblk1 V c 0 ⟨0, hn⟩) (iblk1 V c 1 ⟨0, hn⟩) (iblk1 V c 2 ⟨0, hn⟩) (k1_pay1 (F := F))
  | n + 1, hn => k1_pay2 (iblk1 V c 0 ⟨n + 1, hn⟩) (iblk1 V c 1 ⟨n + 1, hn⟩) (iblk1 V c 2 ⟨n + 1, hn⟩) (if (n + 1) % 64 = 0 then k1_pay1 (F := F) else accAt1 c n (Nat.lt_of_succ_lt hn))

/-- What the runs leave in the accumulator is that, by induction on the position. -/
theorem outsAt1_snd (c : Dev nD) : ∀ (n : ℕ) (hn : n < cfg1.N), (outsAt1 V c n hn).2 = accAt1 V c n hn
  | 0, hn => by
    rw [outsAt1_A V c ⟨0, hn⟩ (Nat.zero_mod _) (by dsimp only; omega)]
    dsimp only
    rw [sout1A_eq]
    simp only [accAt1]
  | n + 1, hn => by
    by_cases h0 : (n + 1) % 64 = 0
    · have h1 : ¬(n + 1) % 64 = 63 := by omega
      rw [outsAt1_A V c ⟨n + 1, hn⟩ h0 h1]
      dsimp only
      rw [sout1A_eq]
      simp only [accAt1, if_pos h0]
    · by_cases h1 : (n + 1) % 64 = 63
      · rw [outsAt1_C V c ⟨n + 1, hn⟩ h0 h1]
        dsimp only
        rw [sout1C_eq]
        simp only [accAt1, if_neg h0]
        exact congrArg _ (outsAt1_snd c n _)
      · rw [outsAt1_B V c ⟨n + 1, hn⟩ h0 h1]
        dsimp only
        rw [sout1B_eq]
        simp only [accAt1, if_neg h0]
        exact congrArg _ (outsAt1_snd c n _)

/-- At the last position of a row tile the output block's buffer is left at the updated accumulator, scaled. -/
theorem outsAt1_fst (c : Dev nD) (t : Fin cfg1.N) (h1 : t.val % 64 = 63) :
    (outsAt1 V c t.val t.isLt).1 = k1_pay3 (accAt1 V c t.val t.isLt) := by
  have h0 : ¬t.val % 64 = 0 := by omega
  rw [outsAt1_C V c t h0 h1]
  dsimp only
  rw [out1C_eq]
  obtain ⟨n, hn⟩ := t
  cases n with
  | zero => exact absurd (Nat.zero_mod _) h0
  | succ n =>
    simp only [accAt1, if_neg h0]
    exact congrArg _ (congrArg _ (outsAt1_snd V c n _))

end Cert.KernelIdeal.Hand

end
-- ==== Proof.KI.Conv1.lean ====
/-
  Graph convolution 2 over the extended reals, entry by entry. Point t of the grid is row tile t / 64 at relation
  t % 64: its feature block is rows 4096·(t/64) … of relation t%64's aggregated features, its weight block that relation's
  matrix, its bias block that relation's row. One step adds the relation's term to the accumulator's entry; the first
  relation of a tile adds it to zero. So after the tile's last relation the accumulator's entry is the sum of the 64
  relations' terms (a running total cleared at its first step).
-/
import proofs.«145989_j32908039422281_1_alg».proof.Proof.KI.Value1
import proofs.«145989_j32908039422281_1_alg».proof.Proof.KI.Pay
import proofs.«145989_j32908039422281_1_alg».proof.Proof.LibRunningTotal
import proofs.«145989_j32908039422281_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid. -/
theorem idx1 : ∀ t : Fin cfg1.N,
    win1_0.index t (0 : Fin 3) = t.val % 64 ∧ win1_0.index t (1 : Fin 3) = t.val / 64 ∧ win1_0.index t (2 : Fin 3) = 0
    ∧ win1_1.index t (0 : Fin 3) = t.val % 64 ∧ win1_1.index t (1 : Fin 3) = 0 ∧ win1_1.index t (2 : Fin 3) = 0
    ∧ win1_2.index t (0 : Fin 3) = t.val % 64 ∧ win1_2.index t (1 : Fin 3) = 0 ∧ win1_2.index t (2 : Fin 3) = 0
    ∧ win1_3.index t (0 : Fin 2) = t.val / 64 ∧ win1_3.index t (1 : Fin 2) = 0 :=
  (by decide +kernel : ∀ t : Fin grid1.N, _)

theorem tlt1 (t : Fin cfg1.N) : t.val < 256 := lt_of_lt_of_eq t.isLt (show cfg1.N = 256 from N_1)

/-- The feature block at point t: relation t % 64, rows 4096·(t / 64) + p. -/
theorem iblk1_x (c : Dev nD) (t : Fin cfg1.N) (p : Fin 4096) (f : Fin 128) :
    iblk1 V c 0 t (ix3 0 p f)
      = V c main_v90 (ix3 (⟨t.val % 64, Nat.mod_lt _ (by decide)⟩ : Fin 64) (⟨t.val / 64 * 4096 + p.val, by have := tlt1 t; omega⟩ : Fin 16384) f) := by
  obtain ⟨e0, e1, e2, -⟩ := idx1 t
  unfold iblk1
  rw [View.read_apply]
  refine congrArg (V c main_v90) ?_
  funext a; apply Fin.ext
  match a with
  | ⟨0, _⟩ => show win1_0.index t (0 : Fin 3) * 1 + 1 * 0 = t.val % 64; omega
  | ⟨1, _⟩ => show win1_0.index t (1 : Fin 3) * 4096 + 1 * p.val = t.val / 64 * 4096 + p.val; omega
  | ⟨2, _⟩ => show win1_0.index t (2 : Fin 3) * 128 + 1 * f.val = f.val; omega

/-- The weight block at point t: relation t % 64's matrix. -/
theorem iblk1_w (c : Dev nD) (t : Fin cfg1.N) (f : Fin 128) (o : Fin 64) :
    iblk1 V c 1 t (ix3 0 f o) = V c main_arg6 (ix3 (⟨t.val % 64, Nat.mod_lt _ (by decide)⟩ : Fin 64) f o) := by
  obtain ⟨-, -, -, e0, e1, e2, -⟩ := idx1 t
  unfold iblk1
  rw [View.read_apply]
  refine congrArg (V c main_arg6) ?_
  funext a; apply Fin.ext
  match a with
  | ⟨0, _⟩ => show win1_1.index t (0 : Fin 3) * 1 + 1 * 0 = t.val % 64; omega
  | ⟨1, _⟩ => show win1_1.index t (1 : Fin 3) * 128 + 1 * f.val = f.val; omega
  | ⟨2, _⟩ => show win1_1.index t (2 : Fin 3) * 64 + 1 * o.val = o.val; omega

/-- The bias block at point t: relation t % 64's row. -/
theorem iblk1_b (c : Dev nD) (t : Fin cfg1.N) (o : Fin 64) :
    iblk1 V c 2 t (ix3 0 0 o) = V c main_v91 (ix3 (⟨t.val % 64, Nat.mod_lt _ (by decide)⟩ : Fin 64) (0 : Fin 1) o) := by
  obtain ⟨-, -, -, -, -, -, e0, e1, e2, -⟩ := idx1 t
  unfold iblk1
  rw [View.read_apply]
  refine congrArg (V c main_v91) ?_
  funext a; apply Fin.ext
  match a with
  | ⟨0, _⟩ => show win1_2.index t (0 : Fin 3) * 1 + 1 * 0 = t.val % 64; omega
  | ⟨1, _⟩ => show win1_2.index t (1 : Fin 3) * 1 + 1 * 0 = 0; omega
  | ⟨2, _⟩ => show win1_2.index t (2 : Fin 3) * 64 + 1 * o.val = o.val; omega

/-- Relation r's term of entry (n, o): the node's aggregated row times the relation's weight column, plus its bias entry. -/
def rel1 (c : Dev nD) (n : Fin 16384) (o : Fin 64) (r : Fin 64) : EReal :=
  Cert.Spec.relTerm (fun f : Fin 128 => V c main_v90 (ix3 r n f)) (fun f => V c main_arg6 (ix3 r f o)) (V c main_v91 (ix3 r (0 : Fin 1) o))

/-- The accumulator's entry after the first relation of a tile: zero plus that relation's term. -/
theorem accAt1_first (c : Dev nD) (n : ℕ) (hn : n < cfg1.N) (h0 : n % 64 = 0) (p : Fin 4096) (o : Fin 64) :
    accAt1 V c n hn (ix2 p o)
      = 0 + rel1 V c (⟨n / 64 * 4096 + p.val, by have := tlt1 ⟨n, hn⟩; dsimp only at this; omega⟩ : Fin 16384) o (⟨n % 64, Nat.mod_lt _ (by decide)⟩ : Fin 64) := by
  unfold rel1
  cases n with
  | zero => simp only [accAt1]; rw [k1_pay2_apply, k1_pay1_apply]; simp only [iblk1_x, iblk1_w, iblk1_b]
  | succ n => simp only [accAt1, if_pos h0]; rw [k1_pay2_apply, k1_pay1_apply]; simp only [iblk1_x, iblk1_w, iblk1_b]

/-- After any later relation: what the relation before left, plus this relation's term. -/
theorem accAt1_step (c : Dev nD) (n : ℕ) (hn : n + 1 < cfg1.N) (h0 : ¬(n + 1) % 64 = 0) (p : Fin 4096) (o : Fin 64) :
    accAt1 V c (n + 1) hn (ix2 p o)
      = accAt1 V c n (Nat.lt_of_succ_lt hn) (ix2 p o)
        + rel1 V c (⟨(n + 1) / 64 * 4096 + p.val, by have := tlt1 ⟨n + 1, hn⟩; dsimp only at this; omega⟩ : Fin 16384) o (⟨(n + 1) % 64, Nat.mod_lt _ (by decide)⟩ : Fin 64) := by
  unfold rel1
  simp only [accAt1, if_neg h0]; rw [k1_pay2_apply]; simp only [iblk1_x, iblk1_w, iblk1_b]

/-! ## A tile's total -/

theorem rel1_congr (c : Dev nD) {n n' : Fin 16384} {r r' : Fin 64} (o : Fin 64) (hn : n.val = n'.val) (hr : r.val = r'.val) :
    rel1 V c n o r = rel1 V c n' o r' := by
  obtain rfl : n = n' := Fin.ext hn
  obtain rfl : r = r' := Fin.ext hr
  rfl

/-- The accumulator's entry after position `n`, as a function on all naturals (zero past the grid). -/
def accN1 (c : Dev nD) (p : Fin 4096) (o : Fin 64) (n : ℕ) : EReal :=
  if h : n < cfg1.N then accAt1 V c n h (ix2 p o) else 0

theorem accN1_first (c : Dev nD) (q : Fin 4) (p : Fin 4096) (o : Fin 64) :
    accN1 V c p o (q.val * 64) = 0 + rel1 V c (⟨q.val * 4096 + p.val, by omega⟩ : Fin 16384) o (0 : Fin 64) := by
  have hN : cfg1.N = 256 := N_1
  unfold accN1
  rw [dif_pos (by omega)]
  rw [accAt1_first V c (q.val * 64) (by omega) (by omega) p o]
  exact congrArg (0 + ·) (rel1_congr V c o (by dsimp only; omega) (by dsimp only; omega))

theorem accN1_step (c : Dev nD) (q : Fin 4) (p : Fin 4096) (o : Fin 64) (j : ℕ) (hj : j + 1 < 64) :
    accN1 V c p o (q.val * 64 + (j + 1)) = accN1 V c p o (q.val * 64 + j) + rel1 V c (⟨q.val * 4096 + p.val, by omega⟩ : Fin 16384) o (⟨j + 1, hj⟩ : Fin 64) := by
  have hN : cfg1.N = 256 := N_1
  unfold accN1
  rw [dif_pos (by omega), dif_pos (by omega)]
  have h := accAt1_step V c (q.val * 64 + j) (by omega) (by omega) p o
  refine h.trans ?_
  exact congrArg (_ + ·) (rel1_congr V c o (by dsimp only; omega) (by dsimp only; omega))

/-- After a tile's last relation the accumulator's entry is the sum of the 64 relations' terms. -/
theorem acc_tile1 (c : Dev nD) (q : Fin 4) (p : Fin 4096) (o : Fin 64) :
    accN1 V c p o (q.val * 64 + 63) = ∑ r : Fin 64, rel1 V c (⟨q.val * 4096 + p.val, by omega⟩ : Fin 16384) o r := by
  have key := LibRunningTotal.acc_total_cleared (n := 63)
    (fun r : Fin 64 => rel1 V c (⟨q.val * 4096 + p.val, by omega⟩ : Fin 16384) o r)
    (fun j => accN1 V c p o (q.val * 64 + (j - 1)))
    (by show accN1 V c p o (q.val * 64 + (1 - 1)) = _; exact accN1_first V c q p o)
    (fun j hj hpos => by
      obtain ⟨j', rfl⟩ : ∃ j', j = j' + 1 := ⟨j - 1, by omega⟩
      show accN1 V c p o (q.val * 64 + (j' + 1 + 1 - 1)) = accN1 V c p o (q.val * 64 + (j' + 1 - 1)) + _
      exact accN1_step V c q p o j' hj)
  exact key

/-! ## The output array -/

/-- Entry (n, o) of the region's output array: the sum over the relations, times 1/64. -/
def conv1 (c : Dev nD) : S16384x64.Idx → EReal := fun i =>
  (∑ r : Fin 64, rel1 V c (i 0 : Fin 16384) (i 1 : Fin 64) r) * Ideal.ofBits .f32 0x3C800000#32

/-- What the last point of tile q writes back is block q of that array. -/
theorem flushed1_eq (c : Dev nD) (t : Fin cfg1.N) (hf : (cfg1.win 3).flush t = true) :
    (dat1 V c).flushed 3 t = ((cfg1.win 3).blk t).view.read (Elt Ideal) (conv1 V c) := by
  have hN : cfg1.N = 256 := N_1
  have h63 : t.val % 64 = 63 := (flush1_3 t).mp hf
  obtain ⟨-, -, -, -, -, -, -, -, -, e0, e1⟩ := idx1 t
  show (cfg1.win 3).cut (grid1.coords t) ((dat1 V c).after 3 t) = _
  rw [after1_3, outsAt1_fst V c t h63]
  funext j
  obtain ⟨p, o, rfl⟩ : ∃ (p : Fin 4096) (o : Fin 64), j = ix2 p o := ⟨j 0, j 1, eq_ix2 j⟩
  rw [View.read_apply]
  show k1_pay3 (accAt1 V c t.val t.isLt) (ix2 p o) = conv1 V c (((cfg1.win 3).blk t).view.emb (ix2 p o))
  rw [k1_pay3_apply]
  have hq : t.val / 64 < 4 := by have := tlt1 t; omega
  have hacc : accAt1 V c t.val t.isLt (ix2 p o) = accN1 V c p o ((⟨t.val / 64, hq⟩ : Fin 4).val * 64 + 63) := by
    unfold accN1
    rw [dif_pos (by dsimp only; have := tlt1 t; omega)]
    congr 1
    · dsimp only; omega
  rw [hacc, acc_tile1]
  unfold conv1
  have hemb0 : ((((cfg1.win 3).blk t).view.emb (ix2 p o)) 0).val = t.val / 64 * 4096 + p.val := by
    show win1_3.index t (0 : Fin 2) * 4096 + 1 * p.val = _; omega
  have hemb1 : ((((cfg1.win 3).blk t).view.emb (ix2 p o)) 1).val = o.val := by
    show win1_3.index t (1 : Fin 2) * 64 + 1 * o.val = _; omega
  have hsum : (∑ r : Fin 64, rel1 V c (⟨(⟨t.val / 64, hq⟩ : Fin 4).val * 4096 + p.val, by dsimp only; omega⟩ : Fin 16384) o r)
      = ∑ r : Fin 64, rel1 V c ((((cfg1.win 3).blk t).view.emb (ix2 p o)) 0) ((((cfg1.win 3).blk t).view.emb (ix2 p o)) 1) r := by
    refine Finset.sum_congr rfl fun r _ => ?_
    have h1 : ((((cfg1.win 3).blk t).view.emb (ix2 p o)) 1) = o := Fin.ext hemb1
    rw [h1]
    exact rel1_congr V c o (by show t.val / 64 * 4096 + p.val = _; exact hemb0.symm) rfl
  rw [hsum]

/-- An index of the array is in point t's block iff each coordinate is in the block's range on its axis. -/
theorem mem_blk1 (t : Fin cfg1.N) (i : S16384x64.Idx) :
    i ∈ ((cfg1.win 3).blk t).view.set ↔ ∀ a : Fin 2, win1_3.index t a * S4096x64.size a ≤ (i a).val ∧ (i a).val < win1_3.index t a * S4096x64.size a + S4096x64.size a := by
  show i ∈ ((View.whole main_v92).slice (win1_3.rect t)).set ↔ _
  rw [View.set_slice_whole, Rect.mem_set_unit]
  exact Iff.rfl

/-- Every entry of the array is in the block the last point of its row tile writes back. -/
theorem cover1 (i : S16384x64.Idx) :
    ∃ t : Fin cfg1.N, (cfg1.win 3).flush t = true ∧ i ∈ ((cfg1.win 3).blk t).view.set := by
  have hN : cfg1.N = 256 := N_1
  have hi0 : (i 0).val < 16384 := (i 0).isLt
  have hi1 : (i 1).val < 64 := (i 1).isLt
  have ht : (i 0).val / 4096 * 64 + 63 < cfg1.N := by omega
  obtain ⟨-, -, -, -, -, -, -, -, -, e0, e1⟩ := idx1 ⟨(i 0).val / 4096 * 64 + 63, ht⟩
  refine ⟨⟨(i 0).val / 4096 * 64 + 63, ht⟩, (flush1_3 _).mpr (by dsimp only; omega), ?_⟩
  rw [mem_blk1]
  intro a
  match a with
  | ⟨0, _⟩ =>
    show win1_3.index ⟨(i 0).val / 4096 * 64 + 63, ht⟩ (0 : Fin 2) * 4096 ≤ (i 0).val ∧ (i 0).val < win1_3.index ⟨(i 0).val / 4096 * 64 + 63, ht⟩ (0 : Fin 2) * 4096 + 4096
    rw [e0]; dsimp only; omega
  | ⟨1, _⟩ =>
    show win1_3.index ⟨(i 0).val / 4096 * 64 + 63, ht⟩ (1 : Fin 2) * 64 ≤ (i 1).val ∧ (i 1).val < win1_3.index ⟨(i 0).val / 4096 * 64 + 63, ht⟩ (1 : Fin 2) * 64 + 64
    rw [e1]; omega

/-- The region's output array after the region. -/
theorem final1 (c : Dev nD) : (dat1 V c).arrAt 3 cfg1.N = conv1 V c :=
  (dat1 V c).arrAt_eq_of_cover 3 (conv1 V c) (flushed1_eq V c) (cover1)

end Cert.KernelIdeal.Hand

end
-- ==== Proof.KI.Host.lean ====
/-
  The small host operations around the three regions, read at an entry: after each region the first 14541 rows of its
  output array are kept (a slice from the origin), and before the BiLSTM region the kept rows are padded back to 16384
  rows; an entry in the first 14541 rows is the operand's entry at the same place.
-/
import proofs.«145989_j32908039422281_1_alg».proof.Proof.Gen.KernelIdeal.Regions
import Idealize.ShloMosaic.Lib.StableHlo.Run
import Idealize.ShloMosaic.Lib.Pipeline.Value
import Idealize.ShloMosaic.Lib.KernelVsHost
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (outs : Outs (F := Ideal))

/-- Row n of the first 14541, as a row of the padded 16384. -/
abbrev up (n : Fin 14541) : Fin 16384 := ⟨n.val, by omega⟩

theorem v96_eq (c : Dev nD) :
    (V16 m outs c main_v96 : S14541x64.Idx → Elt Ideal .f32)
      = extractStridedSlice S14541x64 ![0, 0] (V15 m outs c main_v95 : S16384x64.Idx → Elt Ideal .f32) slices_S16384x64_S14541x64_0_0 := by
  show StableHlo.after hostOps3 (V15 m outs c) (Proc.devRef .tc main_v96) = _
  after_results

theorem v96_apply (c : Dev nD) (n : Fin 14541) (j : Fin 64) :
    (V16 m outs c main_v96 : S14541x64.Idx → Elt Ideal .f32) (ix2 n j) = (V15 m outs c main_v95 : S16384x64.Idx → Elt Ideal .f32) (ix2 (up n) j) := by
  rw [v96_eq]
  exact extractStridedSlice_apply _ _ _ _ _ (fun a => by
    match a with
    | ⟨0, _⟩ => exact (Nat.zero_add _).symm
    | ⟨1, _⟩ => exact (Nat.zero_add _).symm)

theorem v93_eq (c : Dev nD) :
    (V13 m outs c main_v93 : S14541x64.Idx → Elt Ideal .f32)
      = extractStridedSlice S14541x64 ![0, 0] (V12 m outs c main_v92 : S16384x64.Idx → Elt Ideal .f32) slices_S16384x64_S14541x64_0_0 := by
  show StableHlo.after hostOps2 (V12 m outs c) (Proc.devRef .tc main_v93) = _
  after_results

theorem v93_apply (c : Dev nD) (n : Fin 14541) (j : Fin 64) :
    (V13 m outs c main_v93 : S14541x64.Idx → Elt Ideal .f32) (ix2 n j) = (V12 m outs c main_v92 : S16384x64.Idx → Elt Ideal .f32) (ix2 (up n) j) := by
  rw [v93_eq]
  exact extractStridedSlice_apply _ _ _ _ _ (fun a => by
    match a with
    | ⟨0, _⟩ => exact (Nat.zero_add _).symm
    | ⟨1, _⟩ => exact (Nat.zero_add _).symm)

theorem v64_eq (c : Dev nD) :
    (V9 m outs c main_v64 : S14541x128.Idx → Elt Ideal .f32)
      = extractStridedSlice S14541x128 ![0, 0] (V8 m outs c main_v63 : S16384x128.Idx → Elt Ideal .f32) slices_S16384x128_S14541x128_0_0 := by
  show StableHlo.after hostOps1 (V8 m outs c) (Proc.devRef .tc main_v64) = _
  after_results

theorem v64_apply (c : Dev nD) (n : Fin 14541) (o : Fin 128) :
    (V9 m outs c main_v64 : S14541x128.Idx → Elt Ideal .f32) (ix2 n o) = (V8 m outs c main_v63 : S16384x128.Idx → Elt Ideal .f32) (ix2 (up n) o) := by
  rw [v64_eq]
  exact extractStridedSlice_apply _ _ _ _ _ (fun a => by
    match a with
    | ⟨0, _⟩ => exact (Nat.zero_add _).symm
    | ⟨1, _⟩ => exact (Nat.zero_add _).symm)

theorem v94_eq (c : Dev nD) :
    (V14 m outs c main_v94 : S16384x64.Idx → Elt Ideal .f32)
      = pad S16384x64 ![0, 0] ![1843, 0] ![0, 0] (V13 m outs c main_v93 : S14541x64.Idx → Elt Ideal .f32)
          (V14 m outs c main_call4_v0 : S_.Idx → Elt Ideal .f32) pads_S14541x64_S16384x64_018430_000 h_S_ := by
  show StableHlo.after hostOps2_1 (V13 m outs c) (Proc.devRef .tc main_v94) = _
  after_results
  rfl

theorem v94_apply (c : Dev nD) (n : Fin 14541) (j : Fin 64) :
    (V14 m outs c main_v94 : S16384x64.Idx → Elt Ideal .f32) (ix2 (up n) j) = (V13 m outs c main_v93 : S14541x64.Idx → Elt Ideal .f32) (ix2 n j) := by
  rw [v94_eq]
  exact pad_apply_of_inside _ _ _ _ _ _ _ _ _ (fun a => by
    match a with
    | ⟨0, _⟩ => show n.val = 0 + n.val * (0 + 1); omega
    | ⟨1, _⟩ => show j.val = 0 + j.val * (0 + 1); omega)

/-! ## The arguments a region reads reach it as launched -/

theorem V7_arg4 (c : Dev nD) : V7 m c main_arg4 = m ((c : Thread nD τ).loc main_arg4) := (V7_of m c main_arg4 (by decide)).trans ((V6_of m c main_arg4 (by decide)).trans ((V5_of m c main_arg4 (by decide)).trans ((V4_of m c main_arg4 (by decide)).trans ((V3_of m c main_arg4 (by decide)).trans ((V2_of m c main_arg4 (by decide)).trans ((V1_of m c main_arg4 (by decide)).trans (rfl)))))))
theorem V11_arg6 (c : Dev nD) : V11 m outs c main_arg6 = m ((c : Thread nD τ).loc main_arg6) := (V11_of m outs c main_arg6 (by decide)).trans ((V10_of m outs c main_arg6 (by decide)).trans ((V9_of m outs c main_arg6 (by decide)).trans ((V8_of m outs c main_arg6 (by decide)).trans ((V7_of m c main_arg6 (by decide)).trans ((V6_of m c main_arg6 (by decide)).trans ((V5_of m c main_arg6 (by decide)).trans ((V4_of m c main_arg6 (by decide)).trans ((V3_of m c main_arg6 (by decide)).trans ((V2_of m c main_arg6 (by decide)).trans ((V1_of m c main_arg6 (by decide)).trans (rfl)))))))))))
theorem V14_arg8 (c : Dev nD) : V14 m outs c main_arg8 = m ((c : Thread nD τ).loc main_arg8) := (V14_of m outs c main_arg8 (by decide)).trans ((V13_of m outs c main_arg8 (by decide)).trans ((V12_of m outs c main_arg8 (by decide)).trans ((V11_of m outs c main_arg8 (by decide)).trans ((V10_of m outs c main_arg8 (by decide)).trans ((V9_of m outs c main_arg8 (by decide)).trans ((V8_of m outs c main_arg8 (by decide)).trans ((V7_of m c main_arg8 (by decide)).trans ((V6_of m c main_arg8 (by decide)).trans ((V5_of m c main_arg8 (by decide)).trans ((V4_of m c main_arg8 (by decide)).trans ((V3_of m c main_arg8 (by decide)).trans ((V2_of m c main_arg8 (by decide)).trans ((V1_of m c main_arg8 (by decide)).trans (rfl))))))))))))))
theorem V14_arg10 (c : Dev nD) : V14 m outs c main_arg10 = m ((c : Thread nD τ).loc main_arg10) := (V14_of m outs c main_arg10 (by decide)).trans ((V13_of m outs c main_arg10 (by decide)).trans ((V12_of m outs c main_arg10 (by decide)).trans ((V11_of m outs c main_arg10 (by decide)).trans ((V10_of m outs c main_arg10 (by decide)).trans ((V9_of m outs c main_arg10 (by decide)).trans ((V8_of m outs c main_arg10 (by decide)).trans ((V7_of m c main_arg10 (by decide)).trans ((V6_of m c main_arg10 (by decide)).trans ((V5_of m c main_arg10 (by decide)).trans ((V4_of m c main_arg10 (by decide)).trans ((V3_of m c main_arg10 (by decide)).trans ((V2_of m c main_arg10 (by decide)).trans ((V1_of m c main_arg10 (by decide)).trans (rfl))))))))))))))
theorem V14_arg11 (c : Dev nD) : V14 m outs c main_arg11 = m ((c : Thread nD τ).loc main_arg11) := (V14_of m outs c main_arg11 (by decide)).trans ((V13_of m outs c main_arg11 (by decide)).trans ((V12_of m outs c main_arg11 (by decide)).trans ((V11_of m outs c main_arg11 (by decide)).trans ((V10_of m outs c main_arg11 (by decide)).trans ((V9_of m outs c main_arg11 (by decide)).trans ((V8_of m outs c main_arg11 (by decide)).trans ((V7_of m c main_arg11 (by decide)).trans ((V6_of m c main_arg11 (by decide)).trans ((V5_of m c main_arg11 (by decide)).trans ((V4_of m c main_arg11 (by decide)).trans ((V3_of m c main_arg11 (by decide)).trans ((V2_of m c main_arg11 (by decide)).trans ((V1_of m c main_arg11 (by decide)).trans (rfl))))))))))))))
theorem V7_arg5 (c : Dev nD) : V7 m c main_arg5 = m ((c : Thread nD τ).loc main_arg5) := (V7_of m c main_arg5 (by decide)).trans ((V6_of m c main_arg5 (by decide)).trans ((V5_of m c main_arg5 (by decide)).trans ((V4_of m c main_arg5 (by decide)).trans ((V3_of m c main_arg5 (by decide)).trans ((V2_of m c main_arg5 (by decide)).trans ((V1_of m c main_arg5 (by decide)).trans (rfl)))))))
theorem V11_arg7 (c : Dev nD) : V11 m outs c main_arg7 = m ((c : Thread nD τ).loc main_arg7) := (V11_of m outs c main_arg7 (by decide)).trans ((V10_of m outs c main_arg7 (by decide)).trans ((V9_of m outs c main_arg7 (by decide)).trans ((V8_of m outs c main_arg7 (by decide)).trans ((V7_of m c main_arg7 (by decide)).trans ((V6_of m c main_arg7 (by decide)).trans ((V5_of m c main_arg7 (by decide)).trans ((V4_of m c main_arg7 (by decide)).trans ((V3_of m c main_arg7 (by decide)).trans ((V2_of m c main_arg7 (by decide)).trans ((V1_of m c main_arg7 (by decide)).trans (rfl)))))))))))
/-- The aggregated features of layer 1 are not touched between the stretch that computes them and region 0. -/
theorem V7_v60 (c : Dev nD) : V7 m c main_v60 = V5 m c main_v60 := (V7_of m c main_v60 (by decide)).trans (V6_of m c main_v60 (by decide))
/-- Nor those of layer 2 between their stretch and region 1. -/
theorem V11_v89 (c : Dev nD) : V11 m outs c main_v89 = V9 m outs c main_v89 := (V11_of m outs c main_v89 (by decide)).trans (V10_of m outs c main_v89 (by decide))
/-- The kept rows of region 0's output are not touched up to region 1, nor region 1's up to the BiLSTM region. -/
theorem V12_v92_keep (c : Dev nD) : V13 m outs c main_v92 = V12 m outs c main_v92 := V13_of m outs c main_v92 (by decide)

end Cert.KernelIdeal.Hand

end
-- ==== Proof.GlueOperands.lean ====
/-
  The two convolution regions' operands read at an index: the padded aggregations inside their first 14541 nodes, and the
  biases under a unit middle axis.
-/
import proofs.«145989_j32908039422281_1_alg».proof.Proof.Gen.KernelIdeal.Regions
import Idealize.ShloMosaic.Lib.KernelVsHost
import Idealize.ShloMosaic.Lib.ValueIdx
import Idealize.ShloMosaic.Lib.Pipeline.Value
import Idealize.ShloMosaic.Lib.StableHlo.Run

noncomputable section

namespace Cert.Glue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (outs : Outs (F := Ideal))

/-! ## The regions' operands read at an index -/

/-- Region 0's first operand is the aggregated features padded from 14541 to 16384 nodes: inside the first 14541 nodes
    it is the aggregated features. -/
theorem v61_apply (c : Dev nD) (r : Fin 64) (n : Fin 14541) (f : Fin 128) :
    (V7 m c main_v61 : S64x16384x128.Idx → EReal) (ix3 r (⟨n.val, by omega⟩ : Fin 16384) f)
      = (V5 m c main_v60 : S64x14541x128.Idx → EReal) (ix3 r n f) := by
  rw [V7_of m c main_v61 (by decide)]
  show StableHlo.after hostOps0_5 (V5 m c) (Proc.devRef .tc main_v61) _ = V5 m c (Proc.devRef .tc main_v60) _
  generalize V5 m c = W
  have e : (StableHlo.after hostOps0_5 W (Proc.devRef .tc main_v61) : S64x16384x128.Idx → EReal)
      = pad S64x16384x128 ![0, 0, 0] ![0, 1843, 0] ![0, 0, 0] (W (Proc.devRef .tc main_v60) : S64x14541x128.Idx → EReal)
          (sitofp (F := Ideal) .f32 (W (Proc.devRef .tc main_c_16))) pads_S64x14541x128_S64x16384x128_000_018430_000 h_S_ := by
    after_results; rfl
  refine (congrFun e _).trans ?_
  exact pad_apply_of_inside _ _ _ _ _ _ _ _ (ix3 r n f) (fun a => by
    match a with
    | ⟨0, _⟩ => show r.val = 0 + r.val * (0 + 1); omega
    | ⟨1, _⟩ => show n.val = 0 + n.val * (0 + 1); omega
    | ⟨2, _⟩ => show f.val = 0 + f.val * (0 + 1); omega)

/-- Region 0's bias operand is the first layer's bias with a unit middle axis. -/
theorem v62_apply (c : Dev nD) (r : Fin 64) (o : Fin 128) :
    (V7 m c main_v62 : S64x1x128.Idx → EReal) (ix3 r (0 : Fin 1) o)
      = (m ((c : Thread nD τ).loc main_arg5) : S64x128.Idx → EReal) (ix2 r o) := by
  have e6 : V6 m c main_arg5 = m ((c : Thread nD τ).loc main_arg5) :=
    (V6_of m c main_arg5 (by decide)).trans <| (V5_of m c main_arg5 (by decide)).trans <| (V4_of m c main_arg5 (by decide)).trans <|
      (V3_of m c main_arg5 (by decide)).trans <| (V2_of m c main_arg5 (by decide)).trans <| (V1_of m c main_arg5 (by decide)).trans rfl
  rw [← e6]
  show StableHlo.after hostOps0_6 (V6 m c) (Proc.devRef .tc main_v62) _ = V6 m c (Proc.devRef .tc main_arg5) _
  generalize V6 m c = W
  have e : (StableHlo.after hostOps0_6 W (Proc.devRef .tc main_v62) : S64x1x128.Idx → EReal)
      = shapeCast S64x1x128 (W (Proc.devRef .tc main_arg5) : S64x128.Idx → EReal) shapeCasts_S64x128_S64x1x128 := by
    after_results; rfl
  refine (congrFun e _).trans ?_
  exact shapeCast_apply _ _ _ (ix2 r o) (by
    rw [Shape.rowMajor_val_two, Shape.rowMajor_val_three]
    show r.val * 128 + o.val = (r.val * 1 + 0) * 128 + o.val; omega)

/-- Region 1's first operand is the second aggregation padded from 14541 to 16384 nodes. -/
theorem v90_apply (c : Dev nD) (r : Fin 64) (n : Fin 14541) (f : Fin 128) :
    (V11 m outs c main_v90 : S64x16384x128.Idx → EReal) (ix3 r (⟨n.val, by omega⟩ : Fin 16384) f)
      = (V9 m outs c main_v89 : S64x14541x128.Idx → EReal) (ix3 r n f) := by
  rw [V11_of m outs c main_v90 (by decide)]
  show StableHlo.after hostOps1_1 (V9 m outs c) (Proc.devRef .tc main_v90) _ = V9 m outs c (Proc.devRef .tc main_v89) _
  generalize V9 m outs c = W
  have e : (StableHlo.after hostOps1_1 W (Proc.devRef .tc main_v90) : S64x16384x128.Idx → EReal)
      = pad S64x16384x128 ![0, 0, 0] ![0, 1843, 0] ![0, 0, 0] (W (Proc.devRef .tc main_v89) : S64x14541x128.Idx → EReal)
          (sitofp (F := Ideal) .f32 (W (Proc.devRef .tc main_c_22))) pads_S64x14541x128_S64x16384x128_000_018430_000 h_S_ := by
    after_results; rfl
  refine (congrFun e _).trans ?_
  exact pad_apply_of_inside _ _ _ _ _ _ _ _ (ix3 r n f) (fun a => by
    match a with
    | ⟨0, _⟩ => show r.val = 0 + r.val * (0 + 1); omega
    | ⟨1, _⟩ => show n.val = 0 + n.val * (0 + 1); omega
    | ⟨2, _⟩ => show f.val = 0 + f.val * (0 + 1); omega)

/-- Region 1's bias operand is the second layer's bias with a unit middle axis. -/
theorem v91_apply (c : Dev nD) (r : Fin 64) (o : Fin 64) :
    (V11 m outs c main_v91 : S64x1x64.Idx → EReal) (ix3 r (0 : Fin 1) o)
      = (m ((c : Thread nD τ).loc main_arg7) : S64x64.Idx → EReal) (ix2 r o) := by
  have e10 : V10 m outs c main_arg7 = m ((c : Thread nD τ).loc main_arg7) :=
    (V10_of m outs c main_arg7 (by decide)).trans <| (V9_of m outs c main_arg7 (by decide)).trans <| (V8_of m outs c main_arg7 (by decide)).trans <|
      (V7_of m c main_arg7 (by decide)).trans <| (V6_of m c main_arg7 (by decide)).trans <| (V5_of m c main_arg7 (by decide)).trans <| (V4_of m c main_arg7 (by decide)).trans <|
      (V3_of m c main_arg7 (by decide)).trans <| (V2_of m c main_arg7 (by decide)).trans <| (V1_of m c main_arg7 (by decide)).trans rfl
  rw [← e10]
  show StableHlo.after hostOps1_2 (V10 m outs c) (Proc.devRef .tc main_v91) _ = V10 m outs c (Proc.devRef .tc main_arg7) _
  generalize V10 m outs c = W
  have e : (StableHlo.after hostOps1_2 W (Proc.devRef .tc main_v91) : S64x1x64.Idx → EReal)
      = shapeCast S64x1x64 (W (Proc.devRef .tc main_arg7) : S64x64.Idx → EReal) shapeCasts_S64x64_S64x1x64 := by
    after_results; rfl
  refine (congrFun e _).trans ?_
  exact shapeCast_apply _ _ _ (ix2 r o) (by
    rw [Shape.rowMajor_val_two, Shape.rowMajor_val_three]
    show r.val * 64 + o.val = (r.val * 1 + 0) * 64 + o.val; omega)

end Cert.Glue

end
-- ==== Proof.KI.HK.lean ====
/-
  The two graph-convolution stages of the kernel program, composed through the host operations around their regions and
  read at an entry of the kept rows: layer 1's kept output at (n, o) is the sum over the 64 relations of the node's
  aggregated row times the relation's weight column plus its bias entry, times 1/64, clipped below at zero; layer 2's
  the same over its own aggregated features and parameters, not clipped. The padding rows of a region's operand are never
  read at a kept row, and a region's parameter arguments reach it as launched.
-/
import proofs.«145989_j32908039422281_1_alg».proof.Proof.KI.Whole
import proofs.«145989_j32908039422281_1_alg».proof.Proof.KI.Conv0
import proofs.«145989_j32908039422281_1_alg».proof.Proof.KI.Conv1
import proofs.«145989_j32908039422281_1_alg».proof.Proof.KI.Host
import proofs.«145989_j32908039422281_1_alg».proof.Proof.GlueOperands
import proofs.«145989_j32908039422281_1_alg».proof.Proof.Spec

set_option maxRecDepth 16384

noncomputable section

namespace Cert.KernelIdeal.Hand

open Cert.KernelIdeal Cert.KernelIdeal.Gen Cert.Glue
open Idealize.ShloMosaic Idealize.ShloMosaic.TcCoe Idealize.ShloMosaic.ValueIdx Idealize.SL.Sem

variable (m : (ℓ : Loc nD τ sig) → Buf (Elt Ideal) ℓ)

/-- What region 0 leaves in its output array is the first layer's array. -/
theorem X0_eq (c : Dev nD) : (X0 m c : S16384x128.Idx → EReal) = conv0 (E7 m) c := by
  unfold X0; exact final0 (E7 m) c

theorem X1_eq (c : Dev nD) : (X1 m c : S16384x64.Idx → EReal) = conv1 (E11 m) c := by
  unfold X1; exact final1 (E11 m) c

theorem V8_v63 (c : Dev nD) : (V8 m (outsC m) c main_v63 : S16384x128.Idx → EReal) = conv0 (E7 m) c := by
  unfold V8; rw [Function.update_self, outsC_63]; exact X0_eq m c

theorem V12_v92 (c : Dev nD) : (V12 m (outsC m) c main_v92 : S16384x64.Idx → EReal) = conv1 (E11 m) c := by
  unfold V12; rw [Function.update_self, outsC_92]; exact X1_eq m c

/-- Layer 1's kept output at (n, o). -/
theorem h1K_apply (c : Dev nD) (n : Fin 14541) (o : Fin 128) :
    (V9 m (outsC m) c main_v64 : S14541x128.Idx → EReal) (ix2 n o)
      = max ((∑ r : Fin 64, Cert.Spec.relTerm (fun f : Fin 128 => (V5 m c main_v60 : S64x14541x128.Idx → EReal) (ix3 r n f))
          (fun f => (m ((c : Thread nD τ).loc main_arg4) : S64x128x128.Idx → EReal) (ix3 r f o))
          ((m ((c : Thread nD τ).loc main_arg5) : S64x128.Idx → EReal) (ix2 r o))) * Ideal.ofBits .f32 0x3C800000#32) 0 := by
  rw [v64_apply, V8_v63]
  unfold conv0
  refine congrArg (fun s => max (s * Ideal.ofBits .f32 0x3C800000#32) 0) ?_
  refine Finset.sum_congr rfl fun r _ => ?_
  show Cert.Spec.relTerm (fun f : Fin 128 => V7 m c main_v61 (ix3 r (up n) f)) (fun f => V7 m c main_arg4 (ix3 r f o)) (V7 m c main_v62 (ix3 r (0 : Fin 1) o)) = _
  rw [v62_apply, V7_arg4]
  exact congrArg (fun a => Cert.Spec.relTerm a _ _) (funext fun f => v61_apply m c r n f)

/-- Layer 2's kept output at (n, k). -/
theorem h2K_apply (c : Dev nD) (n : Fin 14541) (k : Fin 64) :
    (V13 m (outsC m) c main_v93 : S14541x64.Idx → EReal) (ix2 n k)
      = (∑ r : Fin 64, Cert.Spec.relTerm (fun f : Fin 128 => (V9 m (outsC m) c main_v89 : S64x14541x128.Idx → EReal) (ix3 r n f))
          (fun f => (m ((c : Thread nD τ).loc main_arg6) : S64x128x64.Idx → EReal) (ix3 r f k))
          ((m ((c : Thread nD τ).loc main_arg7) : S64x64.Idx → EReal) (ix2 r k))) * Ideal.ofBits .f32 0x3C800000#32 := by
  rw [v93_apply, V12_v92]
  unfold conv1
  refine congrArg (fun s => s * Ideal.ofBits .f32 0x3C800000#32) ?_
  refine Finset.sum_congr rfl fun r _ => ?_
  show Cert.Spec.relTerm (fun f : Fin 128 => V11 m (outsA m) c main_v90 (ix3 r (up n) f)) (fun f => V11 m (outsA m) c main_arg6 (ix3 r f k)) (V11 m (outsA m) c main_v91 (ix3 r (0 : Fin 1) k)) = _
  rw [v91_apply, V11_arg6]
  refine (congrArg (fun a => Cert.Spec.relTerm a _ _) (funext fun f => v90_apply m (outsA m) c r n f)).trans ?_
  rw [show V9 m (outsA m) c = V9 m (outsC m) c from by unfold V9 V8; rw [outsC_63, outsA_63]]

end Cert.KernelIdeal.Hand

end
-- ==== Proof.KI.Lstm.lean ====
/-
  The bidirectional LSTM step over the extended reals, entry by entry. Point t of the grid is row tile t: its input
  block is rows 4096·t … of the padded input, the weights and the two bias arrays are whole at every point (direction 0
  at leading index 0, direction 1 at leading index 1). A point leaves in the output block, at row p, the forward
  direction's cell output in columns 0–31 and the backward direction's in columns 32–63. Every point writes its block
  back and the four blocks tile the output array, so the array ends holding that function of the inputs at every entry.
-/
import proofs.«145989_j32908039422281_1_alg».proof.Proof.KI.Region2
import proofs.«145989_j32908039422281_1_alg».proof.Proof.KI.Pay
import proofs.«145989_j32908039422281_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Found
variable {F : FTy → Type} [FloatOps F]

private theorem zeros2 : (![0, 0] : Fin 2 → Nat) = fun _ => 0 := funext fun a => by fin_cases a <;> rfl

/-- What a point leaves in the output block is the join of the two directions' cell outputs over what its loads read:
    the whole input block, and the leading-index-0 and leading-index-1 halves of the weights and of the two biases. -/
theorem out2_eq (c : Dev nD) (i : grid2.Coords) (arg1 : Memref sig .tc .vmem S4096x64 .f32) (harg1 : arg1.IsWhole) (arg2 : Memref sig .tc .vmem S2x128x64 .f32) (harg2 : arg2.IsWhole) (arg3 : Memref sig .tc .vmem S2x128 .f32) (harg3 : arg3.IsWhole) (arg4 : Memref sig .tc .vmem S2x128 .f32) (harg4 : arg4.IsWhole) (arg5 : Memref sig .tc .vmem S4096x64 .f32) (harg5 : arg5.IsWhole) (x0 : Vec F S4096x64 .f32) (x1 : Vec F S2x128x64 .f32) (x2 : Vec F S2x128 .f32) (x3 : Vec F S2x128 .f32) :
    out2 c i arg1 harg1 arg2 harg2 arg3 harg3 arg4 harg4 arg5 harg5 x0 x1 x2 x3
      = k2_pay1
          (k2_pay3 x0 (View.ld x1 (Rect.unit (s := S2x128x64) ![0, 0, 0] S1x128x64.size inb_S2x128x64_S1x128x64_0_0_0))
            (View.ld x2 (Rect.unit (s := S2x128) ![0, 0] S1x128.size inb_S2x128_S1x128_0_0))
            (View.ld x3 (Rect.unit (s := S2x128) ![0, 0] S1x128.size inb_S2x128_S1x128_0_0)))
          (k2_pay4 x0 (View.ld x1 (Rect.unit (s := S2x128x64) ![1, 0, 0] S1x128x64.size inb_S2x128x64_S1x128x64_1_0_0))
            (View.ld x2 (Rect.unit (s := S2x128) ![1, 0] S1x128.size inb_S2x128_S1x128_1_0)))
          (k2_pay5 (View.ld x3 (Rect.unit (s := S2x128) ![1, 0] S1x128.size inb_S2x128_S1x128_1_0))) := by
  unfold out2
  rw [View.read_writes_eq_canon _ _ _ (cover2 c i arg1 harg1 arg2 harg2 arg3 harg3 arg4 harg4 arg5 harg5 x0 x1 x2 x3)]
  unfold run2
  dsimp only
  sl_unfold_words
  rw [View.canon_unit_zero zeros2]
  simp only [View.readAt_eq_ld, harg1.read_unread, harg2.read_unread, harg3.read_unread, harg4.read_unread, View.ld_unit_zero (S := S4096x64) zeros2]

end Found

open Cert.KernelIdeal.Pay

variable (V : (c : Dev nD) → (b : Ref sig .tc) → Buf (Elt Ideal) ((c : Thread nD τ).loc b))

/-- The printed index maps, decided over the grid: the input and output blocks move with the point, the weights' and
    the biases' stay. -/
theorem idx2 : ∀ t : Fin cfg2.N,
    win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem tlt2 (t : Fin cfg2.N) : t.val < 4 := lt_of_lt_of_eq t.isLt (show cfg2.N = 4 from N_2)

/-- The input block at point t: rows 4096·t + p. -/
theorem iblk2_x (c : Dev nD) (t : Fin cfg2.N) (p : Fin 4096) (k : Fin 64) :
    iblk2 V c 0 t (ix2 p k)
      = V c main_v94 (ix2 (⟨t.val * 4096 + p.val, by have := tlt2 t; omega⟩ : Fin 16384) k) := by
  obtain ⟨e0, e1, -⟩ := idx2 t
  unfold iblk2
  rw [View.read_apply]
  refine congrArg (V c main_v94) ?_
  funext a; apply Fin.ext
  match a with
  | ⟨0, _⟩ => show win2_0.index t (0 : Fin 2) * 4096 + 1 * p.val = t.val * 4096 + p.val; omega
  | ⟨1, _⟩ => show win2_0.index t (1 : Fin 2) * 64 + 1 * k.val = k.val; omega

/-- The weight block at any point is the whole weight array. -/
theorem iblk2_w (c : Dev nD) (t : Fin cfg2.N) (d : Fin 2) (q : Fin 128) (k : Fin 64) :
    iblk2 V c 1 t (ix3 d q k) = V c main_arg8 (ix3 d q k) := by
  obtain ⟨-, -, e0, e1, e2, -⟩ := idx2 t
  unfold iblk2
  rw [View.read_apply]
  refine congrArg (V c main_arg8) ?_
  funext a; apply Fin.ext
  match a with
  | ⟨0, _⟩ => show win2_1.index t (0 : Fin 3) * 2 + 1 * d.val = d.val; omega
  | ⟨1, _⟩ => show win2_1.index t (1 : Fin 3) * 128 + 1 * q.val = q.val; omega
  | ⟨2, _⟩ => show win2_1.index t (2 : Fin 3) * 64 + 1 * k.val = k.val; omega

/-- The first bias block at any point is the whole array. -/
theorem iblk2_b (c : Dev nD) (t : Fin cfg2.N) (d : Fin 2) (q : Fin 128) :
    iblk2 V c 2 t (ix2 d q) = V c main_arg10 (ix2 d q) := by
  obtain ⟨-, -, -, -, -, e0, e1, -⟩ := idx2 t
  unfold iblk2
  rw [View.read_apply]
  refine congrArg (V c main_arg10) ?_
  funext a; apply Fin.ext
  match a with
  | ⟨0, _⟩ => show win2_2.index t (0 : Fin 2) * 2 + 1 * d.val = d.val; omega
  | ⟨1, _⟩ => show win2_2.index t (1 : Fin 2) * 128 + 1 * q.val = q.val; omega

/-- The second bias block at any point is the whole array. -/
theorem iblk2_b' (c : Dev nD) (t : Fin cfg2.N) (d : Fin 2) (q : Fin 128) :
    iblk2 V c 3 t (ix2 d q) = V c main_arg11 (ix2 d q) := by
  obtain ⟨-, -, -, -, -, -, -, e0, e1, -⟩ := idx2 t
  unfold iblk2
  rw [View.read_apply]
  refine congrArg (V c main_arg11) ?_
  funext a; apply Fin.ext
  match a with
  | ⟨0, _⟩ => show win2_3.index t (0 : Fin 2) * 2 + 1 * d.val = d.val; omega
  | ⟨1, _⟩ => show win2_3.index t (1 : Fin 2) * 128 + 1 * q.val = q.val; omega

/-- A load of one direction's weights out of the pair: leading index `d`. -/
theorem ld_w (X : Vec Ideal S2x128x64 .f32) (d : Fin 2) (inb : ∀ a, (![d.val, 0, 0] : Fin 3 → Nat) a + S1x128x64.size a ≤ S2x128x64.size a)
    (q : Fin 128) (k : Fin 64) :
    View.ld X (Rect.unit (s := S2x128x64) ![d.val, 0, 0] S1x128x64.size inb) (ix3 0 q k) = X (ix3 d q k) := by
  refine congrArg X ?_
  funext a; apply Fin.ext
  match a with
  | ⟨0, _⟩ => show d.val + 1 * 0 = d.val; omega
  | ⟨1, _⟩ => show 0 + 1 * q.val = q.val; omega
  | ⟨2, _⟩ => show 0 + 1 * k.val = k.val; omega

/-- A load of one direction's bias row out of the pair: leading index `d`. -/
theorem ld_b (X : Vec Ideal S2x128 .f32) (d : Fin 2) (inb : ∀ a, (![d.val, 0] : Fin 2 → Nat) a + S1x128.size a ≤ S2x128.size a)
    (q : Fin 128) :
    View.ld X (Rect.unit (s := S2x128) ![d.val, 0] S1x128.size inb) (ix2 0 q) = X (ix2 d q) := by
  refine congrArg X ?_
  funext a; apply Fin.ext
  match a with
  | ⟨0, _⟩ => show d.val + 1 * 0 = d.val; omega
  | ⟨1, _⟩ => show 0 + 1 * q.val = q.val; omega

/-- Direction `d`'s cell output at row `n`, hidden unit `j`. -/
def dirOut (c : Dev nD) (d : Fin 2) (n : Fin 16384) (j : Fin 32) : EReal :=
  Cert.Spec.cell (Cert.Spec.gate (fun k : Fin 64 => V c main_v94 (ix2 n k)) (fun q k => V c main_arg8 (ix3 d q k))
    (fun q => V c main_arg10 (ix2 d q)) (fun q => V c main_arg11 (ix2 d q))) j

/-- Entry (n, o) of the region's output array: the forward direction in columns 0–31, the backward in 32–63. -/
def lstm2 (c : Dev nD) : Buf (Elt Ideal) ((c : Thread nD τ).loc main_v95) := fun i =>
  if h : (i 1).val < 32 then dirOut V c 0 (i 0) ⟨(i 1).val, h⟩
  else dirOut V c 1 (i 0) ⟨(i 1).val - 32, by have : (i 1).val < 64 := (i 1).isLt; omega⟩

/-- That array at an entry given by its coordinates. -/
theorem lstm2_ix2 (c : Dev nD) (n : Fin 16384) (o : Fin 64) :
    lstm2 V c (ix2 n o)
      = if h : o.val < 32 then dirOut V c 0 n ⟨o.val, h⟩
        else dirOut V c 1 n ⟨o.val - 32, by have := o.isLt; omega⟩ := rfl

/-- What point t leaves at row p, column o of its block is the array's entry at row 4096·t + p. -/
theorem point2_apply (c : Dev nD) (t : Fin cfg2.N) (p : Fin 4096) (o : Fin 64) :
    k2_pay1 (F := Ideal)
        (k2_pay3 (iblk2 V c 0 t) (View.ld (iblk2 V c 1 t) (Rect.unit (s := S2x128x64) ![0, 0, 0] S1x128x64.size inb_S2x128x64_S1x128x64_0_0_0))
          (View.ld (iblk2 V c 2 t) (Rect.unit (s := S2x128) ![0, 0] S1x128.size inb_S2x128_S1x128_0_0))
          (View.ld (iblk2 V c 3 t) (Rect.unit (s := S2x128) ![0, 0] S1x128.size inb_S2x128_S1x128_0_0)))
        (k2_pay4 (iblk2 V c 0 t) (View.ld (iblk2 V c 1 t) (Rect.unit (s := S2x128x64) ![1, 0, 0] S1x128x64.size inb_S2x128x64_S1x128x64_1_0_0))
          (View.ld (iblk2 V c 2 t) (Rect.unit (s := S2x128) ![1, 0] S1x128.size inb_S2x128_S1x128_1_0)))
        (k2_pay5 (View.ld (iblk2 V c 3 t) (Rect.unit (s := S2x128) ![1, 0] S1x128.size inb_S2x128_S1x128_1_0))) (ix2 p o)
      = lstm2 V c (ix2 (⟨t.val * 4096 + p.val, by have := tlt2 t; omega⟩ : Fin 16384) o) := by
  rw [lstm2_ix2]
  by_cases ho : o.val < 32
  · rw [dif_pos ho]
    refine (k2_pay1_fwd _ _ _ _ _ _ _ p ⟨o.val, ho⟩).trans ?_
    unfold dirOut
    have hw : ∀ (q : Fin 128) (k : Fin 64), View.ld (iblk2 V c 1 t) (Rect.unit (s := S2x128x64) ![0, 0, 0] S1x128x64.size inb_S2x128x64_S1x128x64_0_0_0) (ix3 0 q k) = V c main_arg8 (ix3 0 q k) :=
      fun q k => (ld_w _ (0 : Fin 2) _ q k).trans (iblk2_w V c t 0 q k)
    have hb : ∀ q : Fin 128, View.ld (iblk2 V c 2 t) (Rect.unit (s := S2x128) ![0, 0] S1x128.size inb_S2x128_S1x128_0_0) (ix2 0 q) = V c main_arg10 (ix2 0 q) :=
      fun q => (ld_b _ (0 : Fin 2) _ q).trans (iblk2_b V c t 0 q)
    have hb' : ∀ q : Fin 128, View.ld (iblk2 V c 3 t) (Rect.unit (s := S2x128) ![0, 0] S1x128.size inb_S2x128_S1x128_0_0) (ix2 0 q) = V c main_arg11 (ix2 0 q) :=
      fun q => (ld_b _ (0 : Fin 2) _ q).trans (iblk2_b' V c t 0 q)
    simp only [iblk2_x, hw, hb, hb']
  · rw [dif_neg ho]
    have hj : o.val - 32 < 32 := by have := o.isLt; omega
    have e : ix2 p o = ix2 p (⟨32 + (⟨o.val - 32, hj⟩ : Fin 32).val, by dsimp only; omega⟩ : Fin 64) :=
      congrArg (ix2 p) (Fin.ext (by dsimp only; omega))
    rw [e]
    refine (k2_pay1_bwd _ _ _ _ _ _ _ p ⟨o.val - 32, hj⟩).trans ?_
    unfold dirOut
    have hw : ∀ (q : Fin 128) (k : Fin 64), View.ld (iblk2 V c 1 t) (Rect.unit (s := S2x128x64) ![1, 0, 0] S1x128x64.size inb_S2x128x64_S1x128x64_1_0_0) (ix3 0 q k) = V c main_arg8 (ix3 1 q k) :=
      fun q k => (ld_w _ (1 : Fin 2) _ q k).trans (iblk2_w V c t 1 q k)
    have hb : ∀ q : Fin 128, View.ld (iblk2 V c 2 t) (Rect.unit (s := S2x128) ![1, 0] S1x128.size inb_S2x128_S1x128_1_0) (ix2 0 q) = V c main_arg10 (ix2 1 q) :=
      fun q => (ld_b _ (1 : Fin 2) _ q).trans (iblk2_b V c t 1 q)
    have hb' : ∀ q : Fin 128, View.ld (iblk2 V c 3 t) (Rect.unit (s := S2x128) ![1, 0] S1x128.size inb_S2x128_S1x128_1_0) (ix2 0 q) = V c main_arg11 (ix2 1 q) :=
      fun q => (ld_b _ (1 : Fin 2) _ q).trans (iblk2_b' V c t 1 q)
    simp only [iblk2_x, hw, hb, hb']

/-- What a point writes back is its block of that array. -/
theorem flushed2_eq (c : Dev nD) (t : Fin cfg2.N) :
    (dat2 V c).flushed 4 t = ((cfg2.win 4).blk t).view.read (Elt Ideal) (lstm2 V c) := by
  obtain ⟨-, -, -, -, -, -, -, -, -, e0, e1⟩ := idx2 t
  show (cfg2.win 4).cut (grid2.coords t) ((dat2 V c).after 4 t) = _
  rw [after2_4, out2_eq]
  funext j
  obtain ⟨p, o, rfl⟩ : ∃ (p : Fin 4096) (o : Fin 64), j = ix2 p o := ⟨j 0, j 1, eq_ix2 j⟩
  rw [View.read_apply]
  show k2_pay1 (F := Ideal) _ _ _ (ix2 p o) = lstm2 V c (((cfg2.win 4).blk t).view.emb (ix2 p o))
  refine (point2_apply V c t p o).trans ?_
  refine congrArg (lstm2 V c) ?_
  funext a; apply Fin.ext
  match a with
  | ⟨0, _⟩ => show t.val * 4096 + p.val = win2_4.index t (0 : Fin 2) * 4096 + 1 * p.val; omega
  | ⟨1, _⟩ => show o.val = win2_4.index t (1 : Fin 2) * 64 + 1 * o.val; omega

/-- An index of the array is in point t's block iff each coordinate is in the block's range on its axis. -/
theorem mem_blk2 (t : Fin cfg2.N) (i : S16384x64.Idx) :
    i ∈ ((cfg2.win 4).blk t).view.set ↔ ∀ a : Fin 2, win2_4.index t a * S4096x64.size a ≤ (i a).val ∧ (i a).val < win2_4.index t a * S4096x64.size a + S4096x64.size a := by
  show i ∈ ((View.whole main_v95).slice (win2_4.rect t)).set ↔ _
  rw [View.set_slice_whole, Rect.mem_set_unit]
  exact Iff.rfl

/-- The four blocks tile the output array. -/
theorem cover_arr2 (i : S16384x64.Idx) : ∃ t : Fin cfg2.N, (cfg2.win 4).flush t = true ∧ i ∈ ((cfg2.win 4).blk t).view.set := by
  have hi0 : (i 0).val < 16384 := (i 0).isLt
  have hi1 : (i 1).val < 64 := (i 1).isLt
  have hN : cfg2.N = 4 := N_2
  refine ⟨⟨(i 0).val / 4096, by omega⟩, flush2_4 _, ?_⟩
  obtain ⟨-, -, -, -, -, -, -, -, -, e0, e1⟩ := idx2 ⟨(i 0).val / 4096, by omega⟩
  rw [mem_blk2]
  intro a
  match a with
  | ⟨0, _⟩ => show win2_4.index _ (0 : Fin 2) * 4096 ≤ (i 0).val ∧ (i 0).val < win2_4.index _ (0 : Fin 2) * 4096 + 4096; dsimp only at e0; omega
  | ⟨1, _⟩ => show win2_4.index _ (1 : Fin 2) * 64 ≤ (i 1).val ∧ (i 1).val < win2_4.index _ (1 : Fin 2) * 64 + 64; omega

/-- The region's output array after the run. -/
theorem arr2_eq (c : Dev nD) : (dat2 V c).arrAt 4 cfg2.N = lstm2 V c :=
  (dat2 V c).arrAt_eq_of_cover 4 (lstm2 V c) (fun t _ => flushed2_eq V c t) cover_arr2

/-- Columns 0–31 of row n: the forward direction's cell output. -/
theorem arr2_fwd (c : Dev nD) (n : Fin 16384) (j : Fin 32) :
    (dat2 V c).arrAt 4 cfg2.N (ix2 n (⟨j.val, by omega⟩ : Fin 64))
      = Cert.Spec.cell (Cert.Spec.gate (fun k : Fin 64 => V c main_v94 (ix2 n k)) (fun q k => V c main_arg8 (ix3 0 q k))
          (fun q => V c main_arg10 (ix2 0 q)) (fun q => V c main_arg11 (ix2 0 q))) j := by
  rw [arr2_eq]
  unfold lstm2
  rw [dif_pos (show ((ix2 n (⟨j.val, by omega⟩ : Fin 64)) 1).val < 32 from j.isLt)]
  rfl

/-- Columns 32–63 of row n: the backward direction's cell output. -/
theorem arr2_bwd (c : Dev nD) (n : Fin 16384) (j : Fin 32) :
    (dat2 V c).arrAt 4 cfg2.N (ix2 n (⟨32 + j.val, by omega⟩ : Fin 64))
      = Cert.Spec.cell (Cert.Spec.gate (fun k : Fin 64 => V c main_v94 (ix2 n k)) (fun q k => V c main_arg8 (ix3 1 q k))
          (fun q => V c main_arg10 (ix2 1 q)) (fun q => V c main_arg11 (ix2 1 q))) j := by
  rw [arr2_eq]
  unfold lstm2
  rw [dif_neg (show ¬((ix2 n (⟨32 + j.val, by omega⟩ : Fin 64)) 1).val < 32 from by show ¬(32 + j.val < 32); omega)]
  unfold dirOut
  congr 1
  exact Fin.ext (by show 32 + j.val - 32 = j.val; omega)

end Cert.KernelIdeal.Hand

end
-- ==== Proof.KI.OutK.lean ====
/-
  The program's last stage, entry by entry. The result keeps the first 14541 rows of the BiLSTM region's output array;
  that array is the region's function of the contents it was entered from: the padded input, whose first 14541 rows are
  the rows kept of the second graph convolution's output, and the weight and bias arguments as launched. So row n of the
  result is, in columns 0–31, the forward direction's cell output of that input row and, in columns 32–63, the backward
  direction's.
-/
import proofs.«145989_j32908039422281_1_alg».proof.Proof.KI.Whole
import proofs.«145989_j32908039422281_1_alg».proof.Proof.KI.Lstm
import proofs.«145989_j32908039422281_1_alg».proof.Proof.KI.Host

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The contents after the second graph convolution's output is cut depend on the regions' outputs through the two graph
    convolutions' only. -/
theorem V13_eq (c : Dev nD) : V13 m (outsC m) c = V13 m (outsB m) c := by
  unfold V13 V12 V11 V10 V9 V8; rw [outsC_63, outsB_63, outsC_92, outsB_92]

/-- The BiLSTM region's output array is what its proof data computes from the contents it was entered from. -/
theorem V15_v95 (c : Dev nD) :
    (V15 m (outsC m) c main_v95 : S16384x64.Idx → Elt Ideal .f32) = (dat2 (E14 m) c).arrAt 4 cfg2.N :=
  (hF2 m c 4).symm

/-- The input row the region reads at row n of the first 14541 is the row kept of the second graph convolution. -/
theorem E14_x (c : Dev nD) (n : Fin 14541) (k : Fin 64) :
    E14 m c main_v94 (ix2 (up n) k) = (V13 m (outsC m) c main_v93 : S14541x64.Idx → Elt Ideal .f32) (ix2 n k) := by
  show (V14 m (outsB m) c main_v94 : S16384x64.Idx → Elt Ideal .f32) (ix2 (up n) k) = _
  rw [v94_apply, V13_eq]

/-- The weight and bias arguments are as launched when the region is entered. -/
theorem E14_arg8 (c : Dev nD) : E14 m c main_arg8 = m ((c : Thread nD τ).loc main_arg8) :=
  (V15_of m (outsB m) c main_arg8 (by decide)).symm.trans
    ((V16_of m (outsB m) c main_arg8 (by decide)).symm.trans (V16_main_arg8 m (outsB m) c))
theorem E14_arg10 (c : Dev nD) : E14 m c main_arg10 = m ((c : Thread nD τ).loc main_arg10) :=
  (V15_of m (outsB m) c main_arg10 (by decide)).symm.trans
    ((V16_of m (outsB m) c main_arg10 (by decide)).symm.trans (V16_main_arg10 m (outsB m) c))
theorem E14_arg11 (c : Dev nD) : E14 m c main_arg11 = m ((c : Thread nD τ).loc main_arg11) :=
  (V15_of m (outsB m) c main_arg11 (by decide)).symm.trans
    ((V16_of m (outsB m) c main_arg11 (by decide)).symm.trans (V16_main_arg11 m (outsB m) c))

/-- Columns 0–31 of row n of the result: the forward direction's cell output. -/
theorem outK_fwd (c : Dev nD) (n : Fin 14541) (j : Fin 32) :
    (V16 m (outsC m) c main_v96 : S14541x64.Idx → Elt Ideal .f32) (ix2 n (⟨j.val, by omega⟩ : Fin 64))
      = Cert.Spec.cell (Cert.Spec.gate
          (fun k : Fin 64 => (V13 m (outsC m) c main_v93 : S14541x64.Idx → Elt Ideal .f32) (ix2 n k))
          (fun q k => m ((c : Thread nD τ).loc main_arg8) (ix3 0 q k))
          (fun q => m ((c : Thread nD τ).loc main_arg10) (ix2 0 q))
          (fun q => m ((c : Thread nD τ).loc main_arg11) (ix2 0 q))) j := by
  rw [v96_apply, V15_v95, arr2_fwd]
  have hx : (fun k : Fin 64 => E14 m c main_v94 (ix2 (up n) k)) = fun k => (V13 m (outsC m) c main_v93 : S14541x64.Idx → Elt Ideal .f32) (ix2 n k) := funext (E14_x m c n)
  rw [hx, E14_arg8, E14_arg10, E14_arg11]

/-- Columns 32–63 of row n of the result: the backward direction's cell output. -/
theorem outK_bwd (c : Dev nD) (n : Fin 14541) (j : Fin 32) :
    (V16 m (outsC m) c main_v96 : S14541x64.Idx → Elt Ideal .f32) (ix2 n (⟨32 + j.val, by omega⟩ : Fin 64))
      = Cert.Spec.cell (Cert.Spec.gate
          (fun k : Fin 64 => (V13 m (outsC m) c main_v93 : S14541x64.Idx → Elt Ideal .f32) (ix2 n k))
          (fun q k => m ((c : Thread nD τ).loc main_arg8) (ix3 1 q k))
          (fun q => m ((c : Thread nD τ).loc main_arg10) (ix2 1 q))
          (fun q => m ((c : Thread nD τ).loc main_arg11) (ix2 1 q))) j := by
  rw [v96_apply, V15_v95, arr2_bwd]
  have hx : (fun k : Fin 64 => E14 m c main_v94 (ix2 (up n) k)) = fun k => (V13 m (outsC m) c main_v93 : S14541x64.Idx → Elt Ideal .f32) (ix2 n k) := funext (E14_x m c n)
  rw [hx, E14_arg8, E14_arg10, E14_arg11]

end Cert.KernelIdeal.Hand

end
-- ==== Proof.LibLogisticForm.lean ====
/-
  The logistic function written as a quotient, over the extended reals.

  A program may apply the logistic function as one operation or spell it `1 / (1 + e^(-z))` with the 32-bit pattern of
  the number one, a negation, an exponential, a sum and a quotient. Over the extended reals the two are the same function:
  the pattern `0x3F800000` denotes one, and the logistic function is defined as that quotient, with the conventions
  `e^(-∞) = 0` and `1 / ∞ = 0` giving the limits `1` at `+∞` and `0` at `-∞`.
-/
import Idealize.ShloMosaic.PureOps.Ideal

noncomputable section

namespace Idealize.ShloMosaic.LogisticForm

open Idealize.ShloMosaic

/-- The bit pattern `0x3F800000` of the 32-bit format denotes the number one. -/
theorem one_f32 : Ideal.ofBits .f32 0x3F800000#32 = 1 := by
  simp [Ideal.ofBits, Ideal.ieee, -EReal.coe_mul]; norm_num

/-- One over one plus the exponential of the negation, in the host's operations and with the number one given by its
    32-bit pattern, is the logistic function. -/
theorem logistic_spelt (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  rw [Ideal.ofBits_def, one_f32]
  rfl

end Idealize.ShloMosaic.LogisticForm

end
-- ==== Proof.RefStages.lean ====
/-
  The reference program read at an index: the two graph-convolution layers and the two LSTM directions, each as the
  arithmetic of the shared specification applied to an unopened earlier stage.
-/
import proofs.«145989_j32908039422281_1_alg».proof.Proof.RefReadP
import proofs.«145989_j32908039422281_1_alg».proof.Proof.Spec
import proofs.«145989_j32908039422281_1_alg».proof.Proof.LibLogisticForm
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.ReadP Idealize.ShloMosaic Idealize.ShloMosaic.ValueIdx

/-! ## The second convolution layer -/

/-- One relation's term of the second layer at node `n`, output column `o`: the aggregated row times the weight column,
    plus the bias entry. -/
theorem layer2_term (x0 : (⟨S14541, .i32⟩ : BufTy).Contents (Elt Ideal)) (x1 x2 : (⟨S64x16384, .i32⟩ : BufTy).Contents (Elt Ideal)) (x3 : (⟨S14541x128, .f32⟩ : BufTy).Contents (Elt Ideal)) (x4 : (⟨S64x128x128, .f32⟩ : BufTy).Contents (Elt Ideal)) (x5 : (⟨S64x128, .f32⟩ : BufTy).Contents (Elt Ideal)) (x6 : (⟨S64x128x64, .f32⟩ : BufTy).Contents (Elt Ideal)) (x7 : (⟨S64x64, .f32⟩ : BufTy).Contents (Elt Ideal)) (r : Fin 64) (n : Fin 14541) (o : Fin 64) :
    val_main_v126 (F := Ideal) x0 x1 x2 x3 x4 x5 x6 x7 (ix3 r n o)
      = Cert.Spec.relTerm (fun f : Fin 128 => val_main_v122 (F := Ideal) x0 x1 x2 x3 x4 x5 (ix3 r n f))
          (fun f : Fin 128 => x6 (ix3 r f o)) (x7 (ix2 r o)) := by
  rw [val_main_v126_apply, val_main_v123_apply, val_main_v125_apply, val_main_v124_apply]
  generalize val_main_v122 (F := Ideal) x0 x1 x2 x3 x4 x5 = A
  have el : ∀ k : Fin 128, lidx_main_v123 (ix3 r n o) k = ix3 r n k := fun k =>
    funext fun a => Fin.ext (by match a with | ⟨0, _⟩ => rfl | ⟨1, _⟩ => rfl | ⟨2, _⟩ => rfl)
  have er : ∀ k : Fin 128, ridx_main_v123 (ix3 r n o) k = ix3 r k o := fun k =>
    funext fun a => Fin.ext (by match a with | ⟨0, _⟩ => rfl | ⟨1, _⟩ => rfl | ⟨2, _⟩ => rfl)
  have eb : idx_main_v124 (idx_main_v125 (ix3 r n o)) = ix2 r o :=
    funext fun a => Fin.ext (by match a with | ⟨0, _⟩ => rfl | ⟨1, _⟩ => rfl)
  simp only [el, er, eb, Ideal.addf_def, Cert.Spec.relTerm]

/-- The second layer's output at `(n, o)`: the mean over the 64 relations of the relations' terms, as the program
    spells it (a sum from the zero word, divided by the word of 64). -/
theorem layer2_apply (x0 : (⟨S14541, .i32⟩ : BufTy).Contents (Elt Ideal)) (x1 x2 : (⟨S64x16384, .i32⟩ : BufTy).Contents (Elt Ideal)) (x3 : (⟨S14541x128, .f32⟩ : BufTy).Contents (Elt Ideal)) (x4 : (⟨S64x128x128, .f32⟩ : BufTy).Contents (Elt Ideal)) (x5 : (⟨S64x128, .f32⟩ : BufTy).Contents (Elt Ideal)) (x6 : (⟨S64x128x64, .f32⟩ : BufTy).Contents (Elt Ideal)) (x7 : (⟨S64x64, .f32⟩ : BufTy).Contents (Elt Ideal)) (n : Fin 14541) (o : Fin 64) :
    val_main_v129 (F := Ideal) x0 x1 x2 x3 x4 x5 x6 x7 (ix2 n o)
      = FloatOps.hostDivf
          (Ideal.ofBits .f32 0x00000000#32 + ∑ r : Fin 64,
            Cert.Spec.relTerm (fun f : Fin 128 => val_main_v122 (F := Ideal) x0 x1 x2 x3 x4 x5 (ix3 r n f))
              (fun f : Fin 128 => x6 (ix3 r f o)) (x7 (ix2 r o)))
          (Ideal.ofBits .f32 0x42800000#32) := by
  rw [val_main_v129_apply, val_main_v127_apply, val_main_v128_apply, val_main_cst_34_apply, val_main_cst_35_apply]
  have ei : ∀ k : Fin 64, idx_main_v127 (ix2 n o) k = ix3 k n o := fun k =>
    funext fun a => Fin.ext (by match a with | ⟨0, _⟩ => rfl | ⟨1, _⟩ => rfl | ⟨2, _⟩ => rfl)
  simp only [ei, layer2_term]
  rfl

/-! ## The first convolution layer -/

/-- One relation's term of the first layer at node `n`, hidden column `o`. -/
theorem layer1_term (x0 : (⟨S14541, .i32⟩ : BufTy).Contents (Elt Ideal)) (x1 x2 : (⟨S64x16384, .i32⟩ : BufTy).Contents (Elt Ideal)) (x3 : (⟨S14541x128, .f32⟩ : BufTy).Contents (Elt Ideal)) (x4 : (⟨S64x128x128, .f32⟩ : BufTy).Contents (Elt Ideal)) (x5 : (⟨S64x128, .f32⟩ : BufTy).Contents (Elt Ideal)) (r : Fin 64) (n : Fin 14541) (o : Fin 128) :
    val_main_v64 (F := Ideal) x0 x1 x2 x3 x4 x5 (ix3 r n o)
      = Cert.Spec.relTerm (fun f : Fin 128 => val_main_v60 (F := Ideal) x0 x1 x2 x3 (ix3 r n f))
          (fun f : Fin 128 => x4 (ix3 r f o)) (x5 (ix2 r o)) := by
  rw [val_main_v64_apply, val_main_v61_apply, val_main_v63_apply, val_main_v62_apply]
  generalize val_main_v60 (F := Ideal) x0 x1 x2 x3 = A
  have el : ∀ k : Fin 128, lidx_main_v61 (ix3 r n o) k = ix3 r n k := fun k =>
    funext fun a => Fin.ext (by match a with | ⟨0, _⟩ => rfl | ⟨1, _⟩ => rfl | ⟨2, _⟩ => rfl)
  have er : ∀ k : Fin 128, ridx_main_v61 (ix3 r n o) k = ix3 r k o := fun k =>
    funext fun a => Fin.ext (by match a with | ⟨0, _⟩ => rfl | ⟨1, _⟩ => rfl | ⟨2, _⟩ => rfl)
  have eb : idx_main_v62 (idx_main_v63 (ix3 r n o)) = ix2 r o :=
    funext fun a => Fin.ext (by match a with | ⟨0, _⟩ => rfl | ⟨1, _⟩ => rfl)
  simp only [el, er, eb, Ideal.addf_def, Cert.Spec.relTerm]

/-- The first layer's output at `(n, o)`: the mean over the 64 relations of the relations' terms (a sum from the zero
    word, divided by the word of 64), then the maximum with the zero word. -/
theorem layer1_apply (x0 : (⟨S14541, .i32⟩ : BufTy).Contents (Elt Ideal)) (x1 x2 : (⟨S64x16384, .i32⟩ : BufTy).Contents (Elt Ideal)) (x3 : (⟨S14541x128, .f32⟩ : BufTy).Contents (Elt Ideal)) (x4 : (⟨S64x128x128, .f32⟩ : BufTy).Contents (Elt Ideal)) (x5 : (⟨S64x128, .f32⟩ : BufTy).Contents (Elt Ideal)) (n : Fin 14541) (o : Fin 128) :
    val_main_v68 (F := Ideal) x0 x1 x2 x3 x4 x5 (ix2 n o)
      = max (FloatOps.hostDivf
          (Ideal.ofBits .f32 0x00000000#32 + ∑ r : Fin 64,
            Cert.Spec.relTerm (fun f : Fin 128 => val_main_v60 (F := Ideal) x0 x1 x2 x3 (ix3 r n f))
              (fun f : Fin 128 => x4 (ix3 r f o)) (x5 (ix2 r o)))
          (Ideal.ofBits .f32 0x42800000#32)) (Ideal.ofBits .f32 0x00000000#32) := by
  rw [val_main_v68_apply, val_main_v67_apply, val_main_v65_apply, val_main_v66_apply, val_main_call2_v0_apply,
    val_main_cst_16_apply, val_main_cst_17_apply, val_main_call2_cst_apply]
  have ei : ∀ k : Fin 64, idx_main_v65 (ix2 n o) k = ix3 k n o := fun k =>
    funext fun a => Fin.ext (by match a with | ⟨0, _⟩ => rfl | ⟨1, _⟩ => rfl | ⟨2, _⟩ => rfl)
  simp only [ei, layer1_term, Ideal.maximumf_def]
  rfl

/-! ## Direction 0 of the recurrent layer -/

/-- Pre-activation `q` of direction 0 at node `n`: the node's row of the second layer's output times row `q` of the
    direction's input weights, plus the two bias entries, grouped as the program groups them. -/
theorem gate0_apply (x0 : (⟨S14541, .i32⟩ : BufTy).Contents (Elt Ideal)) (x1 x2 : (⟨S64x16384, .i32⟩ : BufTy).Contents (Elt Ideal)) (x3 : (⟨S14541x128, .f32⟩ : BufTy).Contents (Elt Ideal)) (x4 : (⟨S64x128x128, .f32⟩ : BufTy).Contents (Elt Ideal)) (x5 : (⟨S64x128, .f32⟩ : BufTy).Contents (Elt Ideal)) (x6 : (⟨S64x128x64, .f32⟩ : BufTy).Contents (Elt Ideal)) (x7 : (⟨S64x64, .f32⟩ : BufTy).Contents (Elt Ideal)) (x8 : (⟨S2x128x64, .f32⟩ : BufTy).Contents (Elt Ideal)) (x10 x11 : (⟨S2x128, .f32⟩ : BufTy).Contents (Elt Ideal)) (n : Fin 14541) (q : Fin 128) :
    val_main_v143 (F := Ideal) x0 x1 x2 x3 x4 x5 x6 x7 x8 x10 x11 (ix2 n q)
      = Cert.Spec.gate (fun k : Fin 64 => val_main_v129 (F := Ideal) x0 x1 x2 x3 x4 x5 x6 x7 (ix2 n k))
          (fun q' k => x8 (ix3 (0 : Fin 2) q' k)) (fun q' => x10 (ix2 (0 : Fin 2) q')) (fun q' => x11 (ix2 (0 : Fin 2) q')) q := by
  rw [val_main_v143_apply, val_main_v140_apply, val_main_v137_apply, val_main_v139_apply, val_main_v138_apply, val_main_v133_apply, val_main_v132_apply,
    val_main_v142_apply, val_main_v141_apply, val_main_v135_apply, val_main_v134_apply]
  generalize val_main_v129 (F := Ideal) x0 x1 x2 x3 x4 x5 x6 x7 = H
  have hq := q.isLt
  have el : ∀ k : Fin 64, lidx_main_v137 (ix2 n q) k = ix2 n k := fun k =>
    funext fun a => Fin.ext (by match a with | ⟨0, _⟩ => rfl | ⟨1, _⟩ => rfl)
  have er : ∀ k : Fin 64, idx_main_v130 (idx_main_v131 (idx_main_v136 (ridx_main_v137 (ix2 n q) k))) = ix3 (0 : Fin 2) q k := fun k =>
    funext fun a => Fin.ext (by
      have hk := k.isLt
      match a with
      | ⟨0, _⟩ => rfl
      | ⟨1, _⟩ => show (q.val * 64 + k.val) / 64 % 128 = q.val; omega
      | ⟨2, _⟩ => show (q.val * 64 + k.val) % 64 = k.val; omega)
  have eb : idx_main_v132 (idx_main_v133 (idx_main_v138 (idx_main_v139 (ix2 n q)))) = ix2 (0 : Fin 2) q :=
    funext fun a => Fin.ext (by
      match a with
      | ⟨0, _⟩ => rfl
      | ⟨1, _⟩ => show q.val % 128 = q.val; omega)
  have eb' : idx_main_v134 (idx_main_v135 (idx_main_v141 (idx_main_v142 (ix2 n q)))) = ix2 (0 : Fin 2) q :=
    funext fun a => Fin.ext (by
      match a with
      | ⟨0, _⟩ => rfl
      | ⟨1, _⟩ => show q.val % 128 = q.val; omega)
  simp only [val_main_v136_apply, val_main_v131_apply, val_main_v130_apply, el, er, eb, eb', Ideal.addf_def, Cert.Spec.gate]

/-- Hidden unit `j` of direction 0 at node `n`, from the direction's 128 pre-activations: the program's quotient
    spelling of the logistic function is the logistic function. -/
theorem cell0_apply (x0 : (⟨S14541, .i32⟩ : BufTy).Contents (Elt Ideal)) (x1 x2 : (⟨S64x16384, .i32⟩ : BufTy).Contents (Elt Ideal)) (x3 : (⟨S14541x128, .f32⟩ : BufTy).Contents (Elt Ideal)) (x4 : (⟨S64x128x128, .f32⟩ : BufTy).Contents (Elt Ideal)) (x5 : (⟨S64x128, .f32⟩ : BufTy).Contents (Elt Ideal)) (x6 : (⟨S64x128x64, .f32⟩ : BufTy).Contents (Elt Ideal)) (x7 : (⟨S64x64, .f32⟩ : BufTy).Contents (Elt Ideal)) (x8 : (⟨S2x128x64, .f32⟩ : BufTy).Contents (Elt Ideal)) (x10 x11 : (⟨S2x128, .f32⟩ : BufTy).Contents (Elt Ideal)) (n : Fin 14541) (j : Fin 32) :
    val_main_v163 (F := Ideal) x0 x1 x2 x3 x4 x5 x6 x7 x8 x10 x11 (ix2 n j)
      = Cert.Spec.cell (fun q : Fin 128 => val_main_v143 (F := Ideal) x0 x1 x2 x3 x4 x5 x6 x7 x8 x10 x11 (ix2 n q)) j := by
  rw [val_main_v163_apply, val_main_v161_apply, val_main_v160_apply, val_main_cst_39_apply, val_main_v159_apply, val_main_v158_apply, val_main_cst_38_apply, val_main_v157_apply, val_main_v156_apply, val_main_v147_apply,
    val_main_v162_apply, val_main_v155_apply, val_main_v153_apply, val_main_v152_apply, val_main_cst_37_apply, val_main_v151_apply, val_main_v150_apply, val_main_cst_36_apply, val_main_v149_apply, val_main_v148_apply, val_main_v144_apply,
    val_main_v154_apply, val_main_v146_apply]
  generalize val_main_v143 (F := Ideal) x0 x1 x2 x3 x4 x5 x6 x7 x8 x10 x11 = G
  rw [LogisticForm.logistic_spelt, LogisticForm.logistic_spelt]
  have e0 : idx_main_v144 (ix2 n j) = ix2 n (⟨j.val, by omega⟩ : Fin 128) :=
    funext fun a => Fin.ext (by match a with | ⟨0, _⟩ => rfl | ⟨1, _⟩ => rfl)
  have e2 : idx_main_v146 (ix2 n j) = ix2 n (⟨64 + j.val, by omega⟩ : Fin 128) :=
    funext fun a => Fin.ext (by match a with | ⟨0, _⟩ => rfl | ⟨1, _⟩ => rfl)
  have e3 : idx_main_v147 (ix2 n j) = ix2 n (⟨96 + j.val, by omega⟩ : Fin 128) :=
    funext fun a => Fin.ext (by match a with | ⟨0, _⟩ => rfl | ⟨1, _⟩ => rfl)
  simp only [e0, e2, e3, Ideal.mulf_def, Ideal.hostUnary_tanh_def, Cert.Spec.cell]

/-! ## Direction 1 of the recurrent layer -/

/-- Pre-activation `q` of direction 1 at node `n`: the node's row of the second layer's output times row `q` of the
    direction's input weights, plus the two bias entries, grouped as the program groups them. -/
theorem gate1_apply (x0 : (⟨S14541, .i32⟩ : BufTy).Contents (Elt Ideal)) (x1 x2 : (⟨S64x16384, .i32⟩ : BufTy).Contents (Elt Ideal)) (x3 : (⟨S14541x128, .f32⟩ : BufTy).Contents (Elt Ideal)) (x4 : (⟨S64x128x128, .f32⟩ : BufTy).Contents (Elt Ideal)) (x5 : (⟨S64x128, .f32⟩ : BufTy).Contents (Elt Ideal)) (x6 : (⟨S64x128x64, .f32⟩ : BufTy).Contents (Elt Ideal)) (x7 : (⟨S64x64, .f32⟩ : BufTy).Contents (Elt Ideal)) (x8 : (⟨S2x128x64, .f32⟩ : BufTy).Contents (Elt Ideal)) (x10 x11 : (⟨S2x128, .f32⟩ : BufTy).Contents (Elt Ideal)) (n : Fin 14541) (q : Fin 128) :
    val_main_v177 (F := Ideal) x0 x1 x2 x3 x4 x5 x6 x7 x8 x10 x11 (ix2 n q)
      = Cert.Spec.gate (fun k : Fin 64 => val_main_v129 (F := Ideal) x0 x1 x2 x3 x4 x5 x6 x7 (ix2 n k))
          (fun q' k => x8 (ix3 (1 : Fin 2) q' k)) (fun q' => x10 (ix2 (1 : Fin 2) q')) (fun q' => x11 (ix2 (1 : Fin 2) q')) q := by
  rw [val_main_v177_apply, val_main_v174_apply, val_main_v171_apply, val_main_v173_apply, val_main_v172_apply, val_main_v167_apply, val_main_v166_apply,
    val_main_v176_apply, val_main_v175_apply, val_main_v169_apply, val_main_v168_apply]
  generalize val_main_v129 (F := Ideal) x0 x1 x2 x3 x4 x5 x6 x7 = H
  have hq := q.isLt
  have el : ∀ k : Fin 64, lidx_main_v171 (ix2 n q) k = ix2 n k := fun k =>
    funext fun a => Fin.ext (by match a with | ⟨0, _⟩ => rfl | ⟨1, _⟩ => rfl)
  have er : ∀ k : Fin 64, idx_main_v164 (idx_main_v165 (idx_main_v170 (ridx_main_v171 (ix2 n q) k))) = ix3 (1 : Fin 2) q k := fun k =>
    funext fun a => Fin.ext (by
      have hk := k.isLt
      match a with
      | ⟨0, _⟩ => rfl
      | ⟨1, _⟩ => show (q.val * 64 + k.val) / 64 % 128 = q.val; omega
      | ⟨2, _⟩ => show (q.val * 64 + k.val) % 64 = k.val; omega)
  have eb : idx_main_v166 (idx_main_v167 (idx_main_v172 (idx_main_v173 (ix2 n q)))) = ix2 (1 : Fin 2) q :=
    funext fun a => Fin.ext (by
      match a with
      | ⟨0, _⟩ => rfl
      | ⟨1, _⟩ => show q.val % 128 = q.val; omega)
  have eb' : idx_main_v168 (idx_main_v169 (idx_main_v175 (idx_main_v176 (ix2 n q)))) = ix2 (1 : Fin 2) q :=
    funext fun a => Fin.ext (by
      match a with
      | ⟨0, _⟩ => rfl
      | ⟨1, _⟩ => show q.val % 128 = q.val; omega)
  simp only [val_main_v170_apply, val_main_v165_apply, val_main_v164_apply, el, er, eb, eb', Ideal.addf_def, Cert.Spec.gate]

/-- Hidden unit `j` of direction 1 at node `n`, from the direction's 128 pre-activations: the program's quotient
    spelling of the logistic function is the logistic function. -/
theorem cell1_apply (x0 : (⟨S14541, .i32⟩ : BufTy).Contents (Elt Ideal)) (x1 x2 : (⟨S64x16384, .i32⟩ : BufTy).Contents (Elt Ideal)) (x3 : (⟨S14541x128, .f32⟩ : BufTy).Contents (Elt Ideal)) (x4 : (⟨S64x128x128, .f32⟩ : BufTy).Contents (Elt Ideal)) (x5 : (⟨S64x128, .f32⟩ : BufTy).Contents (Elt Ideal)) (x6 : (⟨S64x128x64, .f32⟩ : BufTy).Contents (Elt Ideal)) (x7 : (⟨S64x64, .f32⟩ : BufTy).Contents (Elt Ideal)) (x8 : (⟨S2x128x64, .f32⟩ : BufTy).Contents (Elt Ideal)) (x10 x11 : (⟨S2x128, .f32⟩ : BufTy).Contents (Elt Ideal)) (n : Fin 14541) (j : Fin 32) :
    val_main_v197 (F := Ideal) x0 x1 x2 x3 x4 x5 x6 x7 x8 x10 x11 (ix2 n j)
      = Cert.Spec.cell (fun q : Fin 128 => val_main_v177 (F := Ideal) x0 x1 x2 x3 x4 x5 x6 x7 x8 x10 x11 (ix2 n q)) j := by
  rw [val_main_v197_apply, val_main_v195_apply, val_main_v194_apply, val_main_cst_43_apply, val_main_v193_apply, val_main_v192_apply, val_main_cst_42_apply, val_main_v191_apply, val_main_v190_apply, val_main_v181_apply,
    val_main_v196_apply, val_main_v189_apply, val_main_v187_apply, val_main_v186_apply, val_main_cst_41_apply, val_main_v185_apply, val_main_v184_apply, val_main_cst_40_apply, val_main_v183_apply, val_main_v182_apply, val_main_v178_apply,
    val_main_v188_apply, val_main_v180_apply]
  generalize val_main_v177 (F := Ideal) x0 x1 x2 x3 x4 x5 x6 x7 x8 x10 x11 = G
  rw [LogisticForm.logistic_spelt, LogisticForm.logistic_spelt]
  have e0 : idx_main_v178 (ix2 n j) = ix2 n (⟨j.val, by omega⟩ : Fin 128) :=
    funext fun a => Fin.ext (by match a with | ⟨0, _⟩ => rfl | ⟨1, _⟩ => rfl)
  have e2 : idx_main_v180 (ix2 n j) = ix2 n (⟨64 + j.val, by omega⟩ : Fin 128) :=
    funext fun a => Fin.ext (by match a with | ⟨0, _⟩ => rfl | ⟨1, _⟩ => rfl)
  have e3 : idx_main_v181 (ix2 n j) = ix2 n (⟨96 + j.val, by omega⟩ : Fin 128) :=
    funext fun a => Fin.ext (by match a with | ⟨0, _⟩ => rfl | ⟨1, _⟩ => rfl)
  simp only [e0, e2, e3, Ideal.mulf_def, Ideal.hostUnary_tanh_def, Cert.Spec.cell]

/-! ## The result: the two directions side by side -/

/-- Columns 0 … 31 of the result are direction 0. -/
theorem out_left (x0 : (⟨S14541, .i32⟩ : BufTy).Contents (Elt Ideal)) (x1 x2 : (⟨S64x16384, .i32⟩ : BufTy).Contents (Elt Ideal)) (x3 : (⟨S14541x128, .f32⟩ : BufTy).Contents (Elt Ideal)) (x4 : (⟨S64x128x128, .f32⟩ : BufTy).Contents (Elt Ideal)) (x5 : (⟨S64x128, .f32⟩ : BufTy).Contents (Elt Ideal)) (x6 : (⟨S64x128x64, .f32⟩ : BufTy).Contents (Elt Ideal)) (x7 : (⟨S64x64, .f32⟩ : BufTy).Contents (Elt Ideal)) (x8 : (⟨S2x128x64, .f32⟩ : BufTy).Contents (Elt Ideal)) (x10 x11 : (⟨S2x128, .f32⟩ : BufTy).Contents (Elt Ideal)) (n : Fin 14541) (j : Fin 32) :
    val_main_v198 (F := Ideal) x0 x1 x2 x3 x4 x5 x6 x7 x8 x10 x11 (ix2 n (⟨j.val, by omega⟩ : Fin 64))
      = val_main_v163 (F := Ideal) x0 x1 x2 x3 x4 x5 x6 x7 x8 x10 x11 (ix2 n j) := by
  unfold val_main_v198
  exact concatenate_pair_apply_left (t := S14541x64) (s₁ := S14541x32) (s₂ := S14541x32) 1 _ _
    concatenates_S14541x32_S14541x32_S14541x64_d1 (ix2 n (⟨j.val, by omega⟩ : Fin 64)) rfl (ix2 n j)
    (fun b => by match b with | ⟨0, _⟩ => rfl | ⟨1, _⟩ => rfl)

/-- Columns 32 … 63 of the result are direction 1. -/
theorem out_right (x0 : (⟨S14541, .i32⟩ : BufTy).Contents (Elt Ideal)) (x1 x2 : (⟨S64x16384, .i32⟩ : BufTy).Contents (Elt Ideal)) (x3 : (⟨S14541x128, .f32⟩ : BufTy).Contents (Elt Ideal)) (x4 : (⟨S64x128x128, .f32⟩ : BufTy).Contents (Elt Ideal)) (x5 : (⟨S64x128, .f32⟩ : BufTy).Contents (Elt Ideal)) (x6 : (⟨S64x128x64, .f32⟩ : BufTy).Contents (Elt Ideal)) (x7 : (⟨S64x64, .f32⟩ : BufTy).Contents (Elt Ideal)) (x8 : (⟨S2x128x64, .f32⟩ : BufTy).Contents (Elt Ideal)) (x10 x11 : (⟨S2x128, .f32⟩ : BufTy).Contents (Elt Ideal)) (n : Fin 14541) (j : Fin 32) :
    val_main_v198 (F := Ideal) x0 x1 x2 x3 x4 x5 x6 x7 x8 x10 x11 (ix2 n (⟨32 + j.val, by omega⟩ : Fin 64))
      = val_main_v197 (F := Ideal) x0 x1 x2 x3 x4 x5 x6 x7 x8 x10 x11 (ix2 n j) := by
  unfold val_main_v198
  exact concatenate_pair_apply_right (t := S14541x64) (s₁ := S14541x32) (s₂ := S14541x32) 1 _ _
    concatenates_S14541x32_S14541x32_S14541x64_d1 (ix2 n (⟨32 + j.val, by omega⟩ : Fin 64)) rfl rfl (ix2 n j)
    (fun b hb => by match b with | ⟨0, _⟩ => rfl | ⟨1, _⟩ => exact absurd rfl hb)
    (by show j.val + 32 = 32 + j.val; omega)

/-- The result at `(n, j)`, `j < 32`: the cell of direction 0 on the node's row of the second layer's output. -/
theorem result_left (x0 : (⟨S14541, .i32⟩ : BufTy).Contents (Elt Ideal)) (x1 x2 : (⟨S64x16384, .i32⟩ : BufTy).Contents (Elt Ideal)) (x3 : (⟨S14541x128, .f32⟩ : BufTy).Contents (Elt Ideal)) (x4 : (⟨S64x128x128, .f32⟩ : BufTy).Contents (Elt Ideal)) (x5 : (⟨S64x128, .f32⟩ : BufTy).Contents (Elt Ideal)) (x6 : (⟨S64x128x64, .f32⟩ : BufTy).Contents (Elt Ideal)) (x7 : (⟨S64x64, .f32⟩ : BufTy).Contents (Elt Ideal)) (x8 : (⟨S2x128x64, .f32⟩ : BufTy).Contents (Elt Ideal)) (x10 x11 : (⟨S2x128, .f32⟩ : BufTy).Contents (Elt Ideal)) (n : Fin 14541) (j : Fin 32) :
    val_main_v198 (F := Ideal) x0 x1 x2 x3 x4 x5 x6 x7 x8 x10 x11 (ix2 n (⟨j.val, by omega⟩ : Fin 64))
      = Cert.Spec.cell (Cert.Spec.gate (fun k : Fin 64 => val_main_v129 (F := Ideal) x0 x1 x2 x3 x4 x5 x6 x7 (ix2 n k))
          (fun q k => x8 (ix3 (0 : Fin 2) q k)) (fun q => x10 (ix2 (0 : Fin 2) q)) (fun q => x11 (ix2 (0 : Fin 2) q))) j := by
  rw [out_left, cell0_apply]
  exact congrArg (fun g => Cert.Spec.cell g j) (funext fun q => gate0_apply x0 x1 x2 x3 x4 x5 x6 x7 x8 x10 x11 n q)

/-- The result at `(n, 32 + j)`, `j < 32`: the cell of direction 1. -/
theorem result_right (x0 : (⟨S14541, .i32⟩ : BufTy).Contents (Elt Ideal)) (x1 x2 : (⟨S64x16384, .i32⟩ : BufTy).Contents (Elt Ideal)) (x3 : (⟨S14541x128, .f32⟩ : BufTy).Contents (Elt Ideal)) (x4 : (⟨S64x128x128, .f32⟩ : BufTy).Contents (Elt Ideal)) (x5 : (⟨S64x128, .f32⟩ : BufTy).Contents (Elt Ideal)) (x6 : (⟨S64x128x64, .f32⟩ : BufTy).Contents (Elt Ideal)) (x7 : (⟨S64x64, .f32⟩ : BufTy).Contents (Elt Ideal)) (x8 : (⟨S2x128x64, .f32⟩ : BufTy).Contents (Elt Ideal)) (x10 x11 : (⟨S2x128, .f32⟩ : BufTy).Contents (Elt Ideal)) (n : Fin 14541) (j : Fin 32) :
    val_main_v198 (F := Ideal) x0 x1 x2 x3 x4 x5 x6 x7 x8 x10 x11 (ix2 n (⟨32 + j.val, by omega⟩ : Fin 64))
      = Cert.Spec.cell (Cert.Spec.gate (fun k : Fin 64 => val_main_v129 (F := Ideal) x0 x1 x2 x3 x4 x5 x6 x7 (ix2 n k))
          (fun q k => x8 (ix3 (1 : Fin 2) q k)) (fun q => x10 (ix2 (1 : Fin 2) q)) (fun q => x11 (ix2 (1 : Fin 2) q))) j := by
  rw [out_right, cell1_apply]
  exact congrArg (fun g => Cert.Spec.cell g j) (funext fun q => gate1_apply x0 x1 x2 x3 x4 x5 x6 x7 x8 x10 x11 n q)

/-- The result at any column `c` of node `n`: direction 0's cell at `c` when `c < 32`, direction 1's at `c - 32`
    otherwise. -/
theorem result_apply (x0 : (⟨S14541, .i32⟩ : BufTy).Contents (Elt Ideal)) (x1 x2 : (⟨S64x16384, .i32⟩ : BufTy).Contents (Elt Ideal)) (x3 : (⟨S14541x128, .f32⟩ : BufTy).Contents (Elt Ideal)) (x4 : (⟨S64x128x128, .f32⟩ : BufTy).Contents (Elt Ideal)) (x5 : (⟨S64x128, .f32⟩ : BufTy).Contents (Elt Ideal)) (x6 : (⟨S64x128x64, .f32⟩ : BufTy).Contents (Elt Ideal)) (x7 : (⟨S64x64, .f32⟩ : BufTy).Contents (Elt Ideal)) (x8 : (⟨S2x128x64, .f32⟩ : BufTy).Contents (Elt Ideal)) (x10 x11 : (⟨S2x128, .f32⟩ : BufTy).Contents (Elt Ideal)) (n : Fin 14541) (c : Fin 64) :
    val_main_v198 (F := Ideal) x0 x1 x2 x3 x4 x5 x6 x7 x8 x10 x11 (ix2 n c)
      = if h : c.val < 32 then
          Cert.Spec.cell (Cert.Spec.gate (fun k : Fin 64 => val_main_v129 (F := Ideal) x0 x1 x2 x3 x4 x5 x6 x7 (ix2 n k))
            (fun q k => x8 (ix3 (0 : Fin 2) q k)) (fun q => x10 (ix2 (0 : Fin 2) q)) (fun q => x11 (ix2 (0 : Fin 2) q))) ⟨c.val, h⟩
        else
          Cert.Spec.cell (Cert.Spec.gate (fun k : Fin 64 => val_main_v129 (F := Ideal) x0 x1 x2 x3 x4 x5 x6 x7 (ix2 n k))
            (fun q k => x8 (ix3 (1 : Fin 2) q k)) (fun q => x10 (ix2 (1 : Fin 2) q)) (fun q => x11 (ix2 (1 : Fin 2) q))) ⟨c.val - 32, by omega⟩ := by
  by_cases h : c.val < 32
  · rw [dif_pos h]
    exact result_left x0 x1 x2 x3 x4 x5 x6 x7 x8 x10 x11 n ⟨c.val, h⟩
  · rw [dif_neg h]
    have e : c = (⟨32 + (c.val - 32), by omega⟩ : Fin 64) := Fin.ext (by show c.val = 32 + (c.val - 32); omega)
    conv_lhs => rw [e]
    exact result_right x0 x1 x2 x3 x4 x5 x6 x7 x8 x10 x11 n ⟨c.val - 32, by omega⟩

end Cert.ReferenceIdeal.Stages

end
-- ==== Proof.Glue.lean ====
/-
  The kernel program's host stretches against the reference's stages. Before its first region the kernel program computes
  the embedding rows, the flat source and destination indices, the in- and out-degree norms and the first aggregation with
  the reference's own operations, stretch by stretch; each buffer a later stretch reads is the reference's stage as a term of
  the arguments. Before its second region it reuses the indices and norms where the reference computes them again.
-/
import proofs.«145989_j32908039422281_1_alg».proof.Proof.RefReadP
import proofs.«145989_j32908039422281_1_alg».proof.Proof.Gen.KernelIdeal.Regions
import Idealize.ShloMosaic.Lib.StableHlo.Run

noncomputable section

namespace Cert.Glue

open Cert.KernelIdeal Cert.KernelIdeal.Gen Idealize.ShloMosaic Idealize.ShloMosaic.TcCoe Idealize.SL.Sem Idealize.ShloMosaic.ValueIdx
open Cert.ReferenceIdeal.ReadP

variable (m : (ℓ : Loc nD τ sig) → Buf (Elt Ideal) ℓ) (outs : Outs (F := Ideal))

/-! ## The stretch before the first inlined call: the embedding rows, the flat indices, the two degree counts -/

theorem V1_v6 (c : Dev nD) : V1 m c main_v6 = val_main_v6 (F := Ideal) (m ((c : Thread nD τ).loc main_arg0)) (m ((c : Thread nD τ).loc main_arg3)) := by
  show StableHlo.after hostOps0 (V0 m c) (Proc.devRef .tc main_v6) = _
  after_results_simp
  rfl

theorem V1_v13 (c : Dev nD) : V1 m c main_v13 = val_main_v13 (F := Ideal) (m ((c : Thread nD τ).loc main_arg1)) := by
  show StableHlo.after hostOps0 (V0 m c) (Proc.devRef .tc main_v13) = _
  after_results_simp
  rfl

theorem V1_v18 (c : Dev nD) : V1 m c main_v18 = val_main_v18 (F := Ideal) (m ((c : Thread nD τ).loc main_arg2)) := by
  show StableHlo.after hostOps0 (V0 m c) (Proc.devRef .tc main_v18) = _
  after_results_simp
  rfl

theorem V1_v22 (c : Dev nD) : V1 m c main_v22 = val_main_v22 (F := Ideal) (m ((c : Thread nD τ).loc main_arg1)) := by
  show StableHlo.after hostOps0 (V0 m c) (Proc.devRef .tc main_v22) = _
  after_results_simp
  rfl

theorem V1_v25 (c : Dev nD) : V1 m c main_v25 = val_main_v25 (F := Ideal) (m ((c : Thread nD τ).loc main_arg2)) := by
  show StableHlo.after hostOps0 (V0 m c) (Proc.devRef .tc main_v25) = _
  after_results_simp
  rfl

theorem V1_v27 (c : Dev nD) : V1 m c main_v27 = val_main_v27 (F := Ideal) (m ((c : Thread nD τ).loc main_arg1)) := by
  show StableHlo.after hostOps0 (V0 m c) (Proc.devRef .tc main_v27) = _
  after_results_simp
  rfl

theorem V1_cst_6 (c : Dev nD) : V1 m c main_cst_6 = val_main_cst_6 (F := Ideal) := by
  show StableHlo.after hostOps0 (V0 m c) (Proc.devRef .tc main_cst_6) = _
  after_results_simp
  rfl

/-! ## The degree norms, through the two inlined calls -/

theorem V2_v28 (c : Dev nD) : V2 m c main_v28 = val_main_v28 (F := Ideal) (m ((c : Thread nD τ).loc main_arg1)) := by
  have h0 : V1 m c main_cst_6 = val_main_cst_6 (F := Ideal) :=
    V1_cst_6 m c
  have h1 : V1 m c main_v27 = val_main_v27 (F := Ideal) (m ((c : Thread nD τ).loc main_arg1)) :=
    V1_v27 m c
  have h2 : V1 m c main_v22 = val_main_v22 (F := Ideal) (m ((c : Thread nD τ).loc main_arg1)) :=
    V1_v22 m c
  show StableHlo.after hostOps0_1 (V1 m c) (Proc.devRef .tc main_v28) = _
  generalize V1 m c = W at h0 h1 h2 ⊢
  have e : StableHlo.after hostOps0_1 W (Proc.devRef .tc main_v28)
      = select (W (Proc.devRef .tc main_v27)) (W (Proc.devRef .tc main_v22)) (broadcastInDim S930624 ![] bcast_S_S930624 (id (W (Proc.devRef .tc main_cst_6)))) := by
    after_results; rfl
  rw [e, h0, h1, h2]
  rfl

theorem V3_v30 (c : Dev nD) : V3 m c main_v30 = val_main_v30 (F := Ideal) (m ((c : Thread nD τ).loc main_arg1)) := by
  have h0 : V2 m c main_v28 = val_main_v28 (F := Ideal) (m ((c : Thread nD τ).loc main_arg1)) :=
    V2_v28 m c
  show StableHlo.after hostOps0_2 (V2 m c) (Proc.devRef .tc main_v30) = _
  generalize V2 m c = W at h0 ⊢
  after_results_simp
  simp only [h0]
  rfl

theorem V3_v32 (c : Dev nD) : V3 m c main_v32 = val_main_v32 (F := Ideal) (m ((c : Thread nD τ).loc main_arg2)) := by
  have h0 : V2 m c main_v25 = val_main_v25 (F := Ideal) (m ((c : Thread nD τ).loc main_arg2)) :=
    (V2_of m c main_v25 (by decide)).trans <| V1_v25 m c
  show StableHlo.after hostOps0_2 (V2 m c) (Proc.devRef .tc main_v32) = _
  generalize V2 m c = W at h0 ⊢
  after_results_simp
  simp only [h0]
  rfl

theorem V3_cst_9 (c : Dev nD) : V3 m c main_cst_9 = val_main_cst_9 (F := Ideal) := by
  show StableHlo.after hostOps0_2 (V2 m c) (Proc.devRef .tc main_cst_9) = _
  generalize V2 m c = W
  after_results_simp
  rfl

theorem V4_v33 (c : Dev nD) : V4 m c main_v33 = val_main_v33 (F := Ideal) (m ((c : Thread nD τ).loc main_arg2)) := by
  have h0 : V3 m c main_cst_9 = val_main_cst_9 (F := Ideal) :=
    V3_cst_9 m c
  have h1 : V3 m c main_v32 = val_main_v32 (F := Ideal) (m ((c : Thread nD τ).loc main_arg2)) :=
    V3_v32 m c
  have h2 : V3 m c main_v25 = val_main_v25 (F := Ideal) (m ((c : Thread nD τ).loc main_arg2)) :=
    (V3_of m c main_v25 (by decide)).trans <| (V2_of m c main_v25 (by decide)).trans <| V1_v25 m c
  show StableHlo.after hostOps0_3 (V3 m c) (Proc.devRef .tc main_v33) = _
  generalize V3 m c = W at h0 h1 h2 ⊢
  have e : StableHlo.after hostOps0_3 W (Proc.devRef .tc main_v33)
      = select (W (Proc.devRef .tc main_v32)) (W (Proc.devRef .tc main_v25)) (broadcastInDim S930624 ![] bcast_S_S930624 (id (W (Proc.devRef .tc main_cst_9)))) := by
    after_results; rfl
  rw [e, h0, h1, h2]
  rfl

theorem V5_v35 (c : Dev nD) : V5 m c main_v35 = val_main_v35 (F := Ideal) (m ((c : Thread nD τ).loc main_arg2)) := by
  have h0 : V4 m c main_v33 = val_main_v33 (F := Ideal) (m ((c : Thread nD τ).loc main_arg2)) :=
    V4_v33 m c
  show StableHlo.after hostOps0_4 (V4 m c) (Proc.devRef .tc main_v35) = _
  generalize V4 m c = W at h0 ⊢
  after_results_simp
  simp only [h0]
  rfl

/-! ## The first aggregation -/

theorem V5_v60 (c : Dev nD) : V5 m c main_v60 = val_main_v60 (F := Ideal) (m ((c : Thread nD τ).loc main_arg0)) (m ((c : Thread nD τ).loc main_arg1)) (m ((c : Thread nD τ).loc main_arg2)) (m ((c : Thread nD τ).loc main_arg3)) := by
  have h0 : V4 m c main_v33 = val_main_v33 (F := Ideal) (m ((c : Thread nD τ).loc main_arg2)) :=
    V4_v33 m c
  have h1 : V4 m c main_arg1 = m ((c : Thread nD τ).loc main_arg1) :=
    (V4_of m c main_arg1 (by decide)).trans <| (V3_of m c main_arg1 (by decide)).trans <| (V2_of m c main_arg1 (by decide)).trans <| (V1_of m c main_arg1 (by decide)).trans <| rfl
  have h2 : V4 m c main_v6 = val_main_v6 (F := Ideal) (m ((c : Thread nD τ).loc main_arg0)) (m ((c : Thread nD τ).loc main_arg3)) :=
    (V4_of m c main_v6 (by decide)).trans <| (V3_of m c main_v6 (by decide)).trans <| (V2_of m c main_v6 (by decide)).trans <| V1_v6 m c
  have h3 : V4 m c main_v13 = val_main_v13 (F := Ideal) (m ((c : Thread nD τ).loc main_arg1)) :=
    (V4_of m c main_v13 (by decide)).trans <| (V3_of m c main_v13 (by decide)).trans <| (V2_of m c main_v13 (by decide)).trans <| V1_v13 m c
  have h4 : V4 m c main_v30 = val_main_v30 (F := Ideal) (m ((c : Thread nD τ).loc main_arg1)) :=
    (V4_of m c main_v30 (by decide)).trans <| V3_v30 m c
  have h5 : V4 m c main_v18 = val_main_v18 (F := Ideal) (m ((c : Thread nD τ).loc main_arg2)) :=
    (V4_of m c main_v18 (by decide)).trans <| (V3_of m c main_v18 (by decide)).trans <| (V2_of m c main_v18 (by decide)).trans <| V1_v18 m c
  show StableHlo.after hostOps0_4 (V4 m c) (Proc.devRef .tc main_v60) = _
  generalize V4 m c = W at h0 h1 h2 h3 h4 h5 ⊢
  after_results_simp
  simp only [h0, h1, h2, h3, h4, h5]
  rfl

/-! ## The second aggregation -/

/-- The second aggregation: the kernel program gathers, scales and scatters the kept rows of the first region's output with
    the flat indices and degree norms computed once before the first region; the reference recomputes them. As terms of the
    arguments they coincide, so the two aggregations are equal once the kept rows are the reference's first hidden layer. -/
theorem V9_v89 (c : Dev nD)
    (hh : V9 m outs c main_v64 = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :
    V9 m outs c main_v89 = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h13 : V8 m outs c main_v13 = val_main_v13 (F := Ideal) (m ((c : Thread nD τ).loc main_arg1)) :=
    (V8_of m outs c main_v13 (by decide)).trans <| (V7_of m c main_v13 (by decide)).trans <| (V6_of m c main_v13 (by decide)).trans <| (V5_of m c main_v13 (by decide)).trans <| (V4_of m c main_v13 (by decide)).trans <| (V3_of m c main_v13 (by decide)).trans <| (V2_of m c main_v13 (by decide)).trans <| V1_v13 m c
  have h18 : V8 m outs c main_v18 = val_main_v18 (F := Ideal) (m ((c : Thread nD τ).loc main_arg2)) :=
    (V8_of m outs c main_v18 (by decide)).trans <| (V7_of m c main_v18 (by decide)).trans <| (V6_of m c main_v18 (by decide)).trans <| (V5_of m c main_v18 (by decide)).trans <| (V4_of m c main_v18 (by decide)).trans <| (V3_of m c main_v18 (by decide)).trans <| (V2_of m c main_v18 (by decide)).trans <| V1_v18 m c
  have h30 : V8 m outs c main_v30 = val_main_v30 (F := Ideal) (m ((c : Thread nD τ).loc main_arg1)) :=
    (V8_of m outs c main_v30 (by decide)).trans <| (V7_of m c main_v30 (by decide)).trans <| (V6_of m c main_v30 (by decide)).trans <| (V5_of m c main_v30 (by decide)).trans <| (V4_of m c main_v30 (by decide)).trans <| V3_v30 m c
  have h35 : V8 m outs c main_v35 = val_main_v35 (F := Ideal) (m ((c : Thread nD τ).loc main_arg2)) :=
    (V8_of m outs c main_v35 (by decide)).trans <| (V7_of m c main_v35 (by decide)).trans <| (V6_of m c main_v35 (by decide)).trans <| V5_v35 m c
  have h1 : V8 m outs c main_arg1 = m ((c : Thread nD τ).loc main_arg1) :=
    (V8_of m outs c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
  change StableHlo.after hostOps1 (V8 m outs c) (Proc.devRef .tc main_v64) = _ at hh
  show StableHlo.after hostOps1 (V8 m outs c) (Proc.devRef .tc main_v89) = _
  generalize V8 m outs c = W at hh h13 h18 h30 h35 h1 ⊢
  simp (disch := decide) only [StableHlo.after_cons, StableHlo.after_nil,
    StableHlo.nullary_result', StableHlo.unary_result', StableHlo.binary_result', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne',
    StableHlo.quaternary_result_ne', StableHlo.reshape_result_ne', StableHlo.nary_result_ne', StableHlo.unaryIndexed_result_ne',
    StableHlo.binaryIndexed_result_ne'] at hh ⊢
  simp only [hh, h13, h18, h30, h35, h1]
  rfl

/-! ## The two statements the bridge uses -/

/-- The aggregated features the kernel program hands its first region are the reference's. -/
theorem agg1_eq (m : (ℓ : Loc Cert.KernelIdeal.nD Cert.KernelIdeal.τ Cert.KernelIdeal.sig) → Buf (Elt Ideal) ℓ) (c : Dev Cert.KernelIdeal.nD) :
    (Cert.KernelIdeal.Gen.V5 m c Cert.KernelIdeal.main_v60 : Cert.KernelIdeal.S64x14541x128.Idx → EReal)
      = Cert.ReferenceIdeal.ReadP.val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
  V5_v60 m c

/-- The second aggregation of the kernel program is the reference's, once the rows kept of the first region's output are the
    reference's first hidden layer. -/
theorem agg2_eq (m : (ℓ : Loc Cert.KernelIdeal.nD Cert.KernelIdeal.τ Cert.KernelIdeal.sig) → Buf (Elt Ideal) ℓ) (outs : Cert.KernelIdeal.Gen.Outs (F := Ideal)) (c : Dev Cert.KernelIdeal.nD)
    (hh : (Cert.KernelIdeal.Gen.V9 m outs c Cert.KernelIdeal.main_v64 : Cert.KernelIdeal.S14541x128.Idx → EReal)
      = Cert.ReferenceIdeal.ReadP.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) :
    (Cert.KernelIdeal.Gen.V9 m outs c Cert.KernelIdeal.main_v89 : Cert.KernelIdeal.S64x14541x128.Idx → EReal)
      = Cert.ReferenceIdeal.ReadP.val_main_v122 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
  V9_v89 m outs c hh

end Cert.Glue

end
-- ==== Proof.MeanLaw.lean ====
/-
  The float words the two programs spell around the mean over the 64 relations, as the extended reals they denote: +0.0
  is 0, 0x3C800000 is 1/64, 0x42800000 is 64. And the mean two ways: multiplying by 1/64 is dividing, after adding
  zero on the left, by 64 — on every extended real, the infinities included.
-/
import Idealize.ShloMosaic.PureOps.Ideal

noncomputable section

namespace Cert.MeanLaw

open Idealize.ShloMosaic

theorem ofBits_zero : Ideal.ofBits .f32 0x00000000#32 = 0 := by
  simp [Ideal.ofBits, Ideal.ieee]

theorem ofBits_inv64 : Ideal.ofBits .f32 0x3C800000#32 = ((1 / 64 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

/-- x · (1/64) = (0 + x) / 64 on the extended reals. -/
theorem mean_eq (x : EReal) :
    x * Ideal.ofBits .f32 0x3C800000#32 = Ideal.div (Ideal.ofBits .f32 0x00000000#32 + x) (Ideal.ofBits .f32 0x42800000#32) := by
  rw [ofBits_inv64, ofBits_64, ofBits_zero, zero_add, Ideal.div_coe (by norm_num : (64 : ℝ) ≠ 0)]

end Cert.MeanLaw

end
-- ==== Proof.Final.lean ====
/-
  The two idealized programs end with the same result array. Over the extended reals, and writing the kernel program's
  arguments x0 … x11: layer 1's kept output is the reference's first-layer stage (the relations' terms are the same —
  the aggregated features are the same host operations of the same arrays — a cleared running total is their sum, and
  x·(1/64) = (0 + x)/64, with the same clipping at zero); hence the second layer's aggregated features agree, and its
  kept output is the reference's second-layer stage by the same law; the result's two halves are the two directions' cells
  of the same gates of that stage's rows. The reference's composed term is its last stage, and the two programs' argument
  arrays agree by hypothesis.
-/
import proofs.«145989_j32908039422281_1_alg».proof.Proof.KI.HK
import proofs.«145989_j32908039422281_1_alg».proof.Proof.KI.OutK
import proofs.«145989_j32908039422281_1_alg».proof.Proof.RefStages
import proofs.«145989_j32908039422281_1_alg».proof.Proof.Glue
import proofs.«145989_j32908039422281_1_alg».proof.Proof.MeanLaw
import proofs.«145989_j32908039422281_1_alg».proof.Proof.RefReadP

set_option maxRecDepth 16384

noncomputable section

namespace Cert.Final

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-- Layer 1's kept output is the reference's first-layer stage. -/
theorem h1_eq : (V9 m (outsC m) c main_v64 : S14541x128.Idx → EReal)
    = Cert.ReferenceIdeal.ReadP.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  obtain ⟨n, o, rfl⟩ : ∃ (n : Fin 14541) (o : Fin 128), i = ix2 n o := ⟨i 0, i 1, eq_ix2 i⟩
  rw [h1K_apply, Cert.ReferenceIdeal.Stages.layer1_apply, Cert.Glue.agg1_eq, Cert.MeanLaw.mean_eq, Cert.MeanLaw.ofBits_zero]
  rfl

/-- Layer 2's kept output is the reference's second-layer stage. -/
theorem h2_eq : (V13 m (outsC m) c main_v93 : S14541x64.Idx → EReal)
    = Cert.ReferenceIdeal.ReadP.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨n, k, rfl⟩ : ∃ (n : Fin 14541) (k : Fin 64), i = ix2 n k := ⟨i 0, i 1, eq_ix2 i⟩
  rw [h2K_apply, Cert.ReferenceIdeal.Stages.layer2_apply, Cert.Glue.agg2_eq m (outsC m) c (h1_eq m c), Cert.MeanLaw.mean_eq]
  rfl

/-- The result arrays agree entry by entry. -/
theorem out_eq : (V16 m (outsC m) c main_v96 : S14541x64.Idx → EReal)
    = Cert.ReferenceIdeal.ReadP.val_main_v198 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) := by
  funext i
  obtain ⟨n, col, rfl⟩ : ∃ (n : Fin 14541) (col : Fin 64), i = ix2 n col := ⟨i 0, i 1, eq_ix2 i⟩
  by_cases h : col.val < 32
  · obtain ⟨j, hj⟩ : ∃ j : Fin 32, col = (⟨j.val, by omega⟩ : Fin 64) := ⟨⟨col.val, h⟩, Fin.ext rfl⟩
    rw [hj, outK_fwd, Cert.ReferenceIdeal.Stages.result_left, h2_eq]
  · obtain ⟨j, hj⟩ : ∃ j : Fin 32, col = (⟨32 + j.val, by omega⟩ : Fin 64) := ⟨⟨col.val - 32, by omega⟩, Fin.ext (by dsimp only; omega)⟩
    rw [hj, outK_bwd, Cert.ReferenceIdeal.Stages.result_right, h2_eq]

/-- The reference's composed result term, from a memory that agrees with the kernel program's on the arguments, is the
    kernel program's result array. -/
theorem result_eq (m' : (ℓ : Loc Cert.ReferenceIdeal.nD Cert.ReferenceIdeal.τ Cert.ReferenceIdeal.sig) → Buf (Elt Ideal) ℓ)
    (hagree : m' ((c.tc : Thread Cert.ReferenceIdeal.nD Cert.ReferenceIdeal.τ).loc Cert.ReferenceIdeal.main_arg0) = (m ((c.tc : Thread nD τ).loc main_arg0))
      ∧ m' ((c.tc : Thread Cert.ReferenceIdeal.nD Cert.ReferenceIdeal.τ).loc Cert.ReferenceIdeal.main_arg1) = (m ((c.tc : Thread nD τ).loc main_arg1))
      ∧ m' ((c.tc : Thread Cert.ReferenceIdeal.nD Cert.ReferenceIdeal.τ).loc Cert.ReferenceIdeal.main_arg2) = (m ((c.tc : Thread nD τ).loc main_arg2))
      ∧ m' ((c.tc : Thread Cert.ReferenceIdeal.nD Cert.ReferenceIdeal.τ).loc Cert.ReferenceIdeal.main_arg3) = (m ((c.tc : Thread nD τ).loc main_arg3))
      ∧ m' ((c.tc : Thread Cert.ReferenceIdeal.nD Cert.ReferenceIdeal.τ).loc Cert.ReferenceIdeal.main_arg4) = (m ((c.tc : Thread nD τ).loc main_arg4))
      ∧ m' ((c.tc : Thread Cert.ReferenceIdeal.nD Cert.ReferenceIdeal.τ).loc Cert.ReferenceIdeal.main_arg5) = (m ((c.tc : Thread nD τ).loc main_arg5))
      ∧ m' ((c.tc : Thread Cert.ReferenceIdeal.nD Cert.ReferenceIdeal.τ).loc Cert.ReferenceIdeal.main_arg6) = (m ((c.tc : Thread nD τ).loc main_arg6))
      ∧ m' ((c.tc : Thread Cert.ReferenceIdeal.nD Cert.ReferenceIdeal.τ).loc Cert.ReferenceIdeal.main_arg7) = (m ((c.tc : Thread nD τ).loc main_arg7))
      ∧ m' ((c.tc : Thread Cert.ReferenceIdeal.nD Cert.ReferenceIdeal.τ).loc Cert.ReferenceIdeal.main_arg8) = (m ((c.tc : Thread nD τ).loc main_arg8))
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = (m ((c.tc : Thread nD τ).loc main_arg10))
      ∧ m' ((c.tc : Thread Cert.ReferenceIdeal.nD Cert.ReferenceIdeal.τ).loc Cert.ReferenceIdeal.main_arg11) = (m ((c.tc : Thread nD τ).loc main_arg11))) :
    Cert.ReferenceIdeal.ValueP.res_main_v198 m' c = V16 m (outsC m) c main_v96 := by
  obtain ⟨e0, e1, e2, e3, e4, e5, e6, e7, e8, -, e10, e11⟩ := hagree
  rw [Cert.ReferenceIdeal.ReadP.val_main_v198_eq, e0, e1, e2, e3, e4, e5, e6, e7, e8, e10, e11]
  exact (out_eq m c).symm

end Cert.Final

end
-- ==== Proof.lean ====
/-
  The certificate's five claims.

  The kernel program is sixteen items: thirteen stretches of host operations (the embedding lookup, the degree norms, and
  per layer a gather – scale – scatter-add – scale that aggregates neighbour features per relation) around three kernel
  regions: two graph convolutions (per row tile and relation, the aggregated block times the relation's weight matrix plus
  its bias row is added into an accumulator that is cleared at the tile's first relation; at the last relation the
  accumulator times 1/64, clipped below at zero in the first layer, is stored to the output block) and a one-step
  bidirectional LSTM (per direction the gate pre-activations are the node's row times the transposed weight plus two bias
  rows; the output is σ(o)·tanh(σ(i)·tanh(g)); the two directions fill the two halves of the row).

  Frames (both kernel programs): each region's body is run once per case (first / middle / last relation of a tile; the
  one case of the LSTM kernel); the invariant between grid points holds the accumulator at what the point before left; the
  regions are chained with the host stretches, and every argument array is read back as launched. The reference's frame is
  its run with the result dropped.

  Equal results over the extended reals: entry (n, ·) of the kernel's result is the LSTM cell of the gates of row n of
  layer 2's output, which is the sum over the relations of row n of the aggregated features times the weight column plus the
  bias entry, times 1/64; the reference divides that same sum (taken from zero) by 64, and x·(1/64) = (0 + x)/64 on every
  extended real; a cleared running total over the 64 relations is their sum by commutativity and associativity alone, so
  no finiteness is used. The aggregated features are the same host operations of the same arrays in both programs.
-/
import proofs.«145989_j32908039422281_1_alg».proof.Defs
import proofs.«145989_j32908039422281_1_alg».proof.Proof.Gen.Kernel
import proofs.«145989_j32908039422281_1_alg».proof.Proof.Gen.KernelIdeal
import proofs.«145989_j32908039422281_1_alg».proof.Proof.Gen.ReferenceIdeal
import proofs.«145989_j32908039422281_1_alg».proof.Proof.Gen.Pre_finite_inputs
import proofs.«145989_j32908039422281_1_alg».proof.Proof.KB.Whole
import proofs.«145989_j32908039422281_1_alg».proof.Proof.KI.Whole
import proofs.«145989_j32908039422281_1_alg».proof.Proof.RefRunP
import proofs.«145989_j32908039422281_1_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both idealized programs end with the same result array: the kernel program's last valuation at the result, which the
    reference's composed term equals entry by entry. -/
theorem algebraic : Cert.algebraic_KernelIdeal_ReferenceIdeal := by
  intro m ρ m' ρ' _ hagree
  refine ⟨fun c => Cert.KernelIdeal.Gen.V16 m (Cert.KernelIdeal.Hand.outsC m) c Cert.KernelIdeal.main_v96,
    Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  exact Cert.Final.result_eq m c m' (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
